-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v137)) (v1 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_v114) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S2x524288 : Shape := ⟨2, ![2, 524288]⟩
abbrev S256x128 : Shape := ⟨2, ![256, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128x256 .f32) (main_arg9 : FVec F S256 .f32) (main_arg10 : FVec F S128x128 .f32) (main_arg11 : FVec F S128 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x256 .f32) (main_arg9 : FVec F S256 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S16384x256 .f32) (main_arg1 : IVec S2x524288 32) (main_arg2 : FVec F S256x128 .f32) (main_arg3 : FVec F S128 .f32) (main_arg4 : FVec F S128x128 .f32) (main_arg5 : FVec F S128 .f32) (main_arg6 : FVec F S128x128 .f32) (main_arg7 : FVec F S128 .f32) (main_arg8 : FVec F S128x256 .f32) (main_arg9 : FVec F S256 .f32) (main_arg10 : FVec F S128x128 .f32) (main_arg11 : FVec F S128 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S16384x256 : Shape := ⟨2, ![16384, 256]⟩
abbrev S2x524288 : Shape := ⟨2, ![2, 524288]⟩
abbrev S256x128 : Shape := ⟨2, ![256, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S1x524288 : Shape := ⟨2, ![1, 524288]⟩
abbrev S524288 : Shape := ⟨1, ![524288]⟩
abbrev S_ : Shape := ⟨0, ![]⟩
abbrev S16384 : Shape := ⟨1, ![16384]⟩
abbrev S524288x1 : Shape := ⟨2, ![524288, 1]⟩
abbrev S16384x128 : Shape := ⟨2, ![16384, 128]⟩
abbrev S2048x256 : Shape := ⟨2, ![2048, 256]⟩
abbrev S2048x128 : Shape := ⟨2, ![2048, 128]⟩
abbrev S524288x128 : Shape := ⟨2, ![524288, 128]⟩
abbrev S16384x1 : Shape := ⟨2, ![16384, 1]⟩
abbrev S1x128 : Shape := ⟨2, ![1, 128]⟩
abbrev S524288x256 : Shape := ⟨2, ![524288, 256]⟩
abbrev S1x256 : Shape := ⟨2, ![1, 256]⟩
abbrev S16384x16384 : Shape := ⟨2, ![16384, 16384]⟩
abbrev S2048x2048 : Shape := ⟨2, ![2048, 2048]⟩
abbrev S128x2048 : Shape := ⟨2, ![128, 2048]⟩

abbrev nBuf : Space → Nat
  | .hbm => 182
  | .vmem => 31
  | .smem => 0
  | _ => 0

abbrev hbmTy0_0 (i : Nat) : BufTy := match i % 128 with
  | 0 => ⟨S16384x256, .f32⟩
  | 1 => ⟨S2x524288, .i32⟩
  | 2 => ⟨S256x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x256, .f32⟩
  | 9 => ⟨S256, .f32⟩
  | 10 => ⟨S128x128, .f32⟩
  | 11 => ⟨S128, .f32⟩
  | 12 => ⟨S1x524288, .i32⟩
  | 13 => ⟨S524288, .i32⟩
  | 14 => ⟨S1x524288, .i32⟩
  | 15 => ⟨S524288, .i32⟩
  | 16 => ⟨S_, .f32⟩
  | 17 => ⟨S524288, .f32⟩
  | 18 => ⟨S_, .f32⟩
  | 19 => ⟨S16384, .f32⟩
  | 20 => ⟨S524288x1, .i32⟩
  | 21 => ⟨S16384, .f32⟩
  | 22 => ⟨S_, .f32⟩
  | 23 => ⟨S16384, .f32⟩
  | 24 => ⟨S16384, .f32⟩
  | 25 => ⟨S16384, .f32⟩
  | 26 => ⟨S_, .i32⟩
  | 27 => ⟨S524288, .i32⟩
  | 28 => ⟨S524288, .i1⟩
  | 29 => ⟨S_, .i32⟩
  | 30 => ⟨S524288, .i32⟩
  | 31 => ⟨S524288, .i32⟩
  | 32 => ⟨S524288, .i32⟩
  | 33 => ⟨S524288x1, .i32⟩
  | 34 => ⟨S524288, .f32⟩
  | 35 => ⟨S_, .i32⟩
  | 36 => ⟨S524288, .i32⟩
  | 37 => ⟨S524288, .i1⟩
  | 38 => ⟨S_, .i32⟩
  | 39 => ⟨S524288, .i32⟩
  | 40 => ⟨S524288, .i32⟩
  | 41 => ⟨S524288, .i32⟩
  | 42 => ⟨S524288x1, .i32⟩
  | 43 => ⟨S524288, .f32⟩
  | 44 => ⟨S524288, .f32⟩
  | 45 => ⟨S16384, .f32⟩
  | 46 => ⟨S16384x128, .f32⟩
  | 47 => ⟨S_, .i32⟩
  | 48 => ⟨S524288, .i32⟩
  | 49 => ⟨S524288, .i1⟩
  | 50 => ⟨S_, .i32⟩
  | 51 => ⟨S524288, .i32⟩
  | 52 => ⟨S524288, .i32⟩
  | 53 => ⟨S524288, .i32⟩
  | 54 => ⟨S524288x1, .i32⟩
  | 55 => ⟨S524288x128, .f32⟩
  | 56 => ⟨S524288x1, .f32⟩
  | 57 => ⟨S524288x128, .f32⟩
  | 58 => ⟨S524288x128, .f32⟩
  | 59 => ⟨S_, .f32⟩
  | 60 => ⟨S16384x128, .f32⟩
  | 61 => ⟨S524288x1, .i32⟩
  | 62 => ⟨S16384x128, .f32⟩
  | 63 => ⟨S16384x1, .f32⟩
  | 64 => ⟨S16384x128, .f32⟩
  | 65 => ⟨S16384x128, .f32⟩
  | 66 => ⟨S16384x128, .f32⟩
  | 67 => ⟨S1x128, .f32⟩
  | 68 => ⟨S16384x128, .f32⟩
  | 69 => ⟨S16384x128, .f32⟩
  | 70 => ⟨S_, .f32⟩
  | 71 => ⟨S16384x128, .f32⟩
  | 72 => ⟨S16384x128, .f32⟩
  | 73 => ⟨S16384x128, .f32⟩
  | 74 => ⟨S_, .i32⟩
  | 75 => ⟨S524288, .i32⟩
  | 76 => ⟨S524288, .i1⟩
  | 77 => ⟨S_, .i32⟩
  | 78 => ⟨S524288, .i32⟩
  | 79 => ⟨S524288, .i32⟩
  | 80 => ⟨S524288, .i32⟩
  | 81 => ⟨S524288x1, .i32⟩
  | 82 => ⟨S524288x128, .f32⟩
  | 83 => ⟨S524288x1, .f32⟩
  | 84 => ⟨S524288x128, .f32⟩
  | 85 => ⟨S524288x128, .f32⟩
  | 86 => ⟨S_, .f32⟩
  | 87 => ⟨S16384x128, .f32⟩
  | 88 => ⟨S524288x1, .i32⟩
  | 89 => ⟨S16384x128, .f32⟩
  | 90 => ⟨S16384x1, .f32⟩
  | 91 => ⟨S16384x128, .f32⟩
  | 92 => ⟨S16384x128, .f32⟩
  | 93 => ⟨S16384x128, .f32⟩
  | 94 => ⟨S1x128, .f32⟩
  | 95 => ⟨S16384x128, .f32⟩
  | 96 => ⟨S16384x128, .f32⟩
  | 97 => ⟨S_, .f32⟩
  | 98 => ⟨S16384x128, .f32⟩
  | 99 => ⟨S16384x128, .f32⟩
  | 100 => ⟨S16384x128, .f32⟩
  | 101 => ⟨S_, .i32⟩
  | 102 => ⟨S524288, .i32⟩
  | 103 => ⟨S524288, .i1⟩
  | 104 => ⟨S_, .i32⟩
  | 105 => ⟨S524288, .i32⟩
  | 106 => ⟨S524288, .i32⟩
  | 107 => ⟨S524288, .i32⟩
  | 108 => ⟨S524288x1, .i32⟩
  | 109 => ⟨S524288x128, .f32⟩
  | 110 => ⟨S524288x1, .f32⟩
  | 111 => ⟨S524288x128, .f32⟩
  | 112 => ⟨S524288x128, .f32⟩
  | 113 => ⟨S_, .f32⟩
  | 114 => ⟨S16384x128, .f32⟩
  | 115 => ⟨S524288x1, .i32⟩
  | 116 => ⟨S16384x128, .f32⟩
  | 117 => ⟨S16384x1, .f32⟩
  | 118 => ⟨S16384x128, .f32⟩
  | 119 => ⟨S16384x128, .f32⟩
  | 120 => ⟨S16384x128, .f32⟩
  | 121 => ⟨S1x128, .f32⟩
  | 122 => ⟨S16384x128, .f32⟩
  | 123 => ⟨S16384x128, .f32⟩
  | 124 => ⟨S_, .f32⟩
  | 125 => ⟨S16384x128, .f32⟩
  | 126 => ⟨S16384x128, .f32⟩
  | 127 => ⟨S16384x256, .f32⟩
  | _ => ⟨S16384x256, .f32⟩

abbrev hbmTy0_1 (i : Nat) : BufTy := match i % 128 with
  | 0 => ⟨S_, .i32⟩
  | 1 => ⟨S524288, .i32⟩
  | 2 => ⟨S524288, .i1⟩
  | 3 => ⟨S_, .i32⟩
  | 4 => ⟨S524288, .i32⟩
  | 5 => ⟨S524288, .i32⟩
  | 6 => ⟨S524288, .i32⟩
  | 7 => ⟨S524288x1, .i32⟩
  | 8 => ⟨S524288x256, .f32⟩
  | 9 => ⟨S524288x1, .f32⟩
  | 10 => ⟨S524288x256, .f32⟩
  | 11 => ⟨S524288x256, .f32⟩
  | 12 => ⟨S_, .f32⟩
  | 13 => ⟨S16384x256, .f32⟩
  | 14 => ⟨S524288x1, .i32⟩
  | 15 => ⟨S16384x256, .f32⟩
  | 16 => ⟨S16384x1, .f32⟩
  | 17 => ⟨S16384x256, .f32⟩
  | 18 => ⟨S16384x256, .f32⟩
  | 19 => ⟨S16384x256, .f32⟩
  | 20 => ⟨S1x256, .f32⟩
  | 21 => ⟨S16384x256, .f32⟩
  | 22 => ⟨S16384x256, .f32⟩
  | 23 => ⟨S_, .f32⟩
  | 24 => ⟨S16384x256, .f32⟩
  | 25 => ⟨S16384x256, .f32⟩
  | 26 => ⟨S16384x128, .f32⟩
  | 27 => ⟨S_, .i32⟩
  | 28 => ⟨S524288, .i32⟩
  | 29 => ⟨S524288, .i1⟩
  | 30 => ⟨S_, .i32⟩
  | 31 => ⟨S524288, .i32⟩
  | 32 => ⟨S524288, .i32⟩
  | 33 => ⟨S524288, .i32⟩
  | 34 => ⟨S524288x1, .i32⟩
  | 35 => ⟨S524288x128, .f32⟩
  | 36 => ⟨S524288x1, .f32⟩
  | 37 => ⟨S524288x128, .f32⟩
  | 38 => ⟨S524288x128, .f32⟩
  | 39 => ⟨S_, .f32⟩
  | 40 => ⟨S16384x128, .f32⟩
  | 41 => ⟨S524288x1, .i32⟩
  | 42 => ⟨S16384x128, .f32⟩
  | 43 => ⟨S16384x1, .f32⟩
  | 44 => ⟨S16384x128, .f32⟩
  | 45 => ⟨S16384x128, .f32⟩
  | 46 => ⟨S16384x128, .f32⟩
  | 47 => ⟨S1x128, .f32⟩
  | 48 => ⟨S16384x128, .f32⟩
  | 49 => ⟨S16384x128, .f32⟩
  | 50 => ⟨S_, .f32⟩
  | 51 => ⟨S16384x128, .f32⟩
  | 52 => ⟨S16384x128, .f32⟩
  | 53 => ⟨S16384x16384, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | .local _ .vmem, ⟨0, _⟩ => ⟨S2048x256, .f32⟩
  | .local _ .vmem, ⟨1, _⟩ => ⟨S2048x256, .f32⟩
  | .local _ .vmem, ⟨2, _⟩ => ⟨S256x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S128x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S128x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S128x256, .f32⟩
  | .local _ .vmem, ⟨18, _⟩ => ⟨S2048x256, .f32⟩
  | .local _ .vmem, ⟨19, _⟩ => ⟨S2048x256, .f32⟩
  | .local _ .vmem, ⟨20, _⟩ => ⟨S2048x128, .f32⟩
  | .local _ .vmem, ⟨21, _⟩ => ⟨S2048x128, .f32⟩
  | .local _ .vmem, ⟨22, _⟩ => ⟨S128x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x2048, .f32⟩
  | .local _ .vmem, ⟨30, _⟩ => ⟨S2048x2048, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call0_cst : Ref sig .tc := ⟨.hbm, 70, rfl⟩
abbrev main_call0_v0 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_call1_cst : Ref sig .tc := ⟨.hbm, 97, rfl⟩
abbrev main_call1_v0 : Ref sig .tc := ⟨.hbm, 98, rfl⟩
abbrev main_v70 : Ref sig .tc := ⟨.hbm, 99, rfl⟩
abbrev main_v71 : Ref sig .tc := ⟨.hbm, 100, rfl⟩
abbrev main_c_11 : Ref sig .tc := ⟨.hbm, 101, rfl⟩
abbrev main_v72 : Ref sig .tc := ⟨.hbm, 102, rfl⟩
abbrev main_v73 : Ref sig .tc := ⟨.hbm, 103, rfl⟩
abbrev main_c_12 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_13 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_call2_cst : Ref sig .tc := ⟨.hbm, 124, rfl⟩
abbrev main_call2_v0 : Ref sig .tc := ⟨.hbm, 125, rfl⟩
abbrev main_v92 : Ref sig .tc := ⟨.hbm, 126, rfl⟩
abbrev main_v93 : Ref sig .tc := ⟨.hbm, 127, rfl⟩
abbrev main_c_14 : Ref sig .tc := ⟨.hbm, 128, rfl⟩
abbrev main_v94 : Ref sig .tc := ⟨.hbm, 129, rfl⟩
abbrev main_v95 : Ref sig .tc := ⟨.hbm, 130, rfl⟩
abbrev main_c_15 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_16 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_call3_cst : Ref sig .tc := ⟨.hbm, 151, rfl⟩
abbrev main_call3_v0 : Ref sig .tc := ⟨.hbm, 152, rfl⟩
abbrev main_v114 : Ref sig .tc := ⟨.hbm, 153, rfl⟩
abbrev main_v115 : Ref sig .tc := ⟨.hbm, 154, rfl⟩
abbrev main_c_17 : Ref sig .tc := ⟨.hbm, 155, rfl⟩
abbrev main_v116 : Ref sig .tc := ⟨.hbm, 156, rfl⟩
abbrev main_v117 : Ref sig .tc := ⟨.hbm, 157, rfl⟩
abbrev main_c_18 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_19 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_call4_cst : Ref sig .tc := ⟨.hbm, 178, rfl⟩
abbrev main_call4_v0 : Ref sig .tc := ⟨.hbm, 179, rfl⟩
abbrev main_v136 : Ref sig .tc := ⟨.hbm, 180, rfl⟩
abbrev main_v137 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg2_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem1_1 : DmaSem sig := 28
abbrev cc5_sem2_0 : DmaSem sig := 29
abbrev cc5_sem2_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2048x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2048x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![8, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S2048x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2048x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2048x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2048x128_S2048x128_0_0 : ∀ a, (![0, 0] : Fin 2 → Nat) a + S2048x128.size a ≤ S2048x128.size a
  h_S2048x128 : 0 < S2048x128.numel
  bcast_S524288x1_S524288x128_0_1 : S524288x1.BroadcastsInDim S524288x128 (![0, 1] : Fin 2 → Fin S524288x128.rank)
  bcast_S_S16384x128 : S_.BroadcastsInDim S16384x128 (![] : Fin 0 → Fin S16384x128.rank)
  bcast_S16384_S16384x1_0 : S16384.BroadcastsInDim S16384x1 (![0] : Fin 1 → Fin S16384x1.rank)
  bcast_S16384x1_S16384x128_0_1 : S16384x1.BroadcastsInDim S16384x128 (![0, 1] : Fin 2 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  inb_S128x256_S128x256_0_0 : ∀ a, (![0, 0] : Fin 2 → Nat) a + S128x256.size a ≤ S128x256.size a
  h_S128x256 : 0 < S128x256.numel
  bcast_S524288x1_S524288x256_0_1 : S524288x1.BroadcastsInDim S524288x256 (![0, 1] : Fin 2 → Fin S524288x256.rank)
  bcast_S_S16384x256 : S_.BroadcastsInDim S16384x256 (![] : Fin 0 → Fin S16384x256.rank)
  bcast_S16384x1_S16384x256_0_1 : S16384x1.BroadcastsInDim S16384x256 (![0, 1] : Fin 2 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  transposes_S2048x128_p1_0_S128x2048 : S2048x128.Transposes [1, 0] S128x2048
  inb_S2048x2048_S2048x2048_0_0 : ∀ a, (![0, 0] : Fin 2 → Nat) a + S2048x2048.size a ≤ S2048x2048.size a
  h_S2048x2048 : 0 < S2048x2048.numel
  scatter_S16384_S524288x1_S524288_n_0_0_1_wf : ScatterDims.WF S16384 S524288x1 S524288 [] [0] [0] 1
  gather_S16384_S524288x1_S524288_n_0_n_n_0_1_1_wf : GatherDims.WF S16384 S524288x1 S524288 [] [0] [] [0] [] 1 ![1]
  dot_S2048x256_S256x128_S2048x128_1_0_0_1_n_n_wf : DotDims.WF S2048x256 S256x128 S2048x128 [1] [0] [0] [1] [] []
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  dot_S2048x128_S128x128_S2048x128_1_0_0_1_n_n_wf : DotDims.WF S2048x128 S128x128 S2048x128 [1] [0] [0] [1] [] []
  dot_S2048x128_S128x256_S2048x256_1_0_0_1_n_n_wf : DotDims.WF S2048x128 S128x256 S2048x256 [1] [0] [0] [1] [] []
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S2048x128_S128x2048_S2048x2048_1_0_0_1_n_n_wf : DotDims.WF S2048x128 S128x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .f32 = 32 ∨ (Rect.block (s := S16384x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S16384x128.size a
  hwx1_2 : ∀ i : grid1.Coords, EltTy.bits .f32 = 32 ∨ (Rect.block (s := S16384x128) S2048x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S16384x128.size a
  hwx2_0 : ∀ i : grid2.Coords, EltTy.bits .f32 = 32 ∨ (Rect.block (s := S16384x128) S2048x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S16384x128.size a
  hwx2_2 : ∀ i : grid2.Coords, EltTy.bits .f32 = 32 ∨ (Rect.block (s := S16384x128) S2048x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S16384x128.size a
  hwx3_0 : ∀ i : grid3.Coords, EltTy.bits .f32 = 32 ∨ (Rect.block (s := S16384x128) S2048x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x256.size a ≤ S16384x256.size a
  hwx3_2 : ∀ i : grid3.Coords, EltTy.bits .f32 = 32 ∨ (Rect.block (s := S16384x256) S2048x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S16384x128.size a
  hwx4_0 : ∀ i : grid4.Coords, EltTy.bits .f32 = 32 ∨ (Rect.block (s := S16384x128) S2048x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x128.size a ≤ S16384x128.size a
  hwx4_2 : ∀ i : grid4.Coords, EltTy.bits .f32 = 32 ∨ (Rect.block (s := S16384x128) S2048x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x128.size a ≤ S16384x128.size a
  hwx5_0 : ∀ i : grid5.Coords, EltTy.bits .f32 = 32 ∨ (Rect.block (s := S16384x128) S2048x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x128.size a ≤ S16384x128.size a
  hwx5_1 : ∀ i : grid5.Coords, EltTy.bits .f32 = 32 ∨ (Rect.block (s := S16384x128) S2048x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x2048.size a ≤ S16384x16384.size a
  hwx5_2 : ∀ i : grid5.Coords, EltTy.bits .f32 = 32 ∨ (Rect.block (s := S16384x16384) S2048x2048.size (cc5_transform_2 i) (hinb5_2 i)).WholeWords (EltTy.packing .f32)

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def gather_S16384_S524288x1_S524288_n_0_n_n_0_1_1 : GatherDims S16384 S524288x1 S524288 where
  offsetDims := []
  collapsedSliceDims := [0]
  operandBatchingDims := []
  startIndicesBatchingDims := []
  startIndexMap := [0]
  indexVectorDim := 1
  sliceSizes := ![1]
  wf := gather_S16384_S524288x1_S524288_n_0_n_n_0_1_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S2048x128_S128x2048_S2048x2048_1_0_0_1_n_n : DotDims S2048x128 S128x2048 S2048x2048 where
  lhsContracting := [1]
  rhsContracting := [0]
  lhsNonContracting := [0]
  rhsNonContracting := [1]
  lhsBatch := []
  rhsBatch := []
  wf := dot_S2048x128_S128x2048_S2048x2048_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v70) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S2048x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v92) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S2048x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v115) S2048x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v136) S2048x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v136) S2048x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v137) S2048x2048.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S16384x256 : Shape := ⟨2, ![16384, 256]⟩
abbrev S2x524288 : Shape := ⟨2, ![2, 524288]⟩
abbrev S256x128 : Shape := ⟨2, ![256, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S1x524288 : Shape := ⟨2, ![1, 524288]⟩
abbrev S524288 : Shape := ⟨1, ![524288]⟩
abbrev S_ : Shape := ⟨0, ![]⟩
abbrev S16384 : Shape := ⟨1, ![16384]⟩
abbrev S524288x1 : Shape := ⟨2, ![524288, 1]⟩
abbrev S16384x128 : Shape := ⟨2, ![16384, 128]⟩
abbrev S524288x128 : Shape := ⟨2, ![524288, 128]⟩
abbrev S16384x1 : Shape := ⟨2, ![16384, 1]⟩
abbrev S1x128 : Shape := ⟨2, ![1, 128]⟩
abbrev S524288x256 : Shape := ⟨2, ![524288, 256]⟩
abbrev S1x256 : Shape := ⟨2, ![1, 256]⟩
abbrev S128x16384 : Shape := ⟨2, ![128, 16384]⟩
abbrev S16384x16384 : Shape := ⟨2, ![16384, 16384]⟩

abbrev nBuf : Space → Nat
  | .hbm => 183
  | .vmem => 0
  | .smem => 0
  | _ => 0

abbrev hbmTy0_0 (i : Nat) : BufTy := match i % 128 with
  | 0 => ⟨S16384x256, .f32⟩
  | 1 => ⟨S2x524288, .i32⟩
  | 2 => ⟨S256x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x256, .f32⟩
  | 9 => ⟨S256, .f32⟩
  | 10 => ⟨S128x128, .f32⟩
  | 11 => ⟨S128, .f32⟩
  | 12 => ⟨S1x524288, .i32⟩
  | 13 => ⟨S524288, .i32⟩
  | 14 => ⟨S1x524288, .i32⟩
  | 15 => ⟨S524288, .i32⟩
  | 16 => ⟨S_, .f32⟩
  | 17 => ⟨S524288, .f32⟩
  | 18 => ⟨S_, .f32⟩
  | 19 => ⟨S16384, .f32⟩
  | 20 => ⟨S524288x1, .i32⟩
  | 21 => ⟨S16384, .f32⟩
  | 22 => ⟨S_, .f32⟩
  | 23 => ⟨S16384, .f32⟩
  | 24 => ⟨S16384, .f32⟩
  | 25 => ⟨S16384, .f32⟩
  | 26 => ⟨S_, .i32⟩
  | 27 => ⟨S524288, .i32⟩
  | 28 => ⟨S524288, .i1⟩
  | 29 => ⟨S_, .i32⟩
  | 30 => ⟨S524288, .i32⟩
  | 31 => ⟨S524288, .i32⟩
  | 32 => ⟨S524288, .i32⟩
  | 33 => ⟨S524288x1, .i32⟩
  | 34 => ⟨S524288, .f32⟩
  | 35 => ⟨S_, .i32⟩
  | 36 => ⟨S524288, .i32⟩
  | 37 => ⟨S524288, .i1⟩
  | 38 => ⟨S_, .i32⟩
  | 39 => ⟨S524288, .i32⟩
  | 40 => ⟨S524288, .i32⟩
  | 41 => ⟨S524288, .i32⟩
  | 42 => ⟨S524288x1, .i32⟩
  | 43 => ⟨S524288, .f32⟩
  | 44 => ⟨S524288, .f32⟩
  | 45 => ⟨S16384, .f32⟩
  | 46 => ⟨S16384x128, .f32⟩
  | 47 => ⟨S_, .i32⟩
  | 48 => ⟨S524288, .i32⟩
  | 49 => ⟨S524288, .i1⟩
  | 50 => ⟨S_, .i32⟩
  | 51 => ⟨S524288, .i32⟩
  | 52 => ⟨S524288, .i32⟩
  | 53 => ⟨S524288, .i32⟩
  | 54 => ⟨S524288x1, .i32⟩
  | 55 => ⟨S524288x128, .f32⟩
  | 56 => ⟨S524288x1, .f32⟩
  | 57 => ⟨S524288x128, .f32⟩
  | 58 => ⟨S524288x128, .f32⟩
  | 59 => ⟨S_, .f32⟩
  | 60 => ⟨S16384x128, .f32⟩
  | 61 => ⟨S524288x1, .i32⟩
  | 62 => ⟨S16384x128, .f32⟩
  | 63 => ⟨S16384x1, .f32⟩
  | 64 => ⟨S16384x128, .f32⟩
  | 65 => ⟨S16384x128, .f32⟩
  | 66 => ⟨S16384x128, .f32⟩
  | 67 => ⟨S1x128, .f32⟩
  | 68 => ⟨S16384x128, .f32⟩
  | 69 => ⟨S16384x128, .f32⟩
  | 70 => ⟨S_, .f32⟩
  | 71 => ⟨S16384x128, .f32⟩
  | 72 => ⟨S16384x128, .f32⟩
  | 73 => ⟨S16384x128, .f32⟩
  | 74 => ⟨S_, .i32⟩
  | 75 => ⟨S524288, .i32⟩
  | 76 => ⟨S524288, .i1⟩
  | 77 => ⟨S_, .i32⟩
  | 78 => ⟨S524288, .i32⟩
  | 79 => ⟨S524288, .i32⟩
  | 80 => ⟨S524288, .i32⟩
  | 81 => ⟨S524288x1, .i32⟩
  | 82 => ⟨S524288x128, .f32⟩
  | 83 => ⟨S524288x1, .f32⟩
  | 84 => ⟨S524288x128, .f32⟩
  | 85 => ⟨S524288x128, .f32⟩
  | 86 => ⟨S_, .f32⟩
  | 87 => ⟨S16384x128, .f32⟩
  | 88 => ⟨S524288x1, .i32⟩
  | 89 => ⟨S16384x128, .f32⟩
  | 90 => ⟨S16384x1, .f32⟩
  | 91 => ⟨S16384x128, .f32⟩
  | 92 => ⟨S16384x128, .f32⟩
  | 93 => ⟨S16384x128, .f32⟩
  | 94 => ⟨S1x128, .f32⟩
  | 95 => ⟨S16384x128, .f32⟩
  | 96 => ⟨S16384x128, .f32⟩
  | 97 => ⟨S_, .f32⟩
  | 98 => ⟨S16384x128, .f32⟩
  | 99 => ⟨S16384x128, .f32⟩
  | 100 => ⟨S16384x128, .f32⟩
  | 101 => ⟨S_, .i32⟩
  | 102 => ⟨S524288, .i32⟩
  | 103 => ⟨S524288, .i1⟩
  | 104 => ⟨S_, .i32⟩
  | 105 => ⟨S524288, .i32⟩
  | 106 => ⟨S524288, .i32⟩
  | 107 => ⟨S524288, .i32⟩
  | 108 => ⟨S524288x1, .i32⟩
  | 109 => ⟨S524288x128, .f32⟩
  | 110 => ⟨S524288x1, .f32⟩
  | 111 => ⟨S524288x128, .f32⟩
  | 112 => ⟨S524288x128, .f32⟩
  | 113 => ⟨S_, .f32⟩
  | 114 => ⟨S16384x128, .f32⟩
  | 115 => ⟨S524288x1, .i32⟩
  | 116 => ⟨S16384x128, .f32⟩
  | 117 => ⟨S16384x1, .f32⟩
  | 118 => ⟨S16384x128, .f32⟩
  | 119 => ⟨S16384x128, .f32⟩
  | 120 => ⟨S16384x128, .f32⟩
  | 121 => ⟨S1x128, .f32⟩
  | 122 => ⟨S16384x128, .f32⟩
  | 123 => ⟨S16384x128, .f32⟩
  | 124 => ⟨S_, .f32⟩
  | 125 => ⟨S16384x128, .f32⟩
  | 126 => ⟨S16384x128, .f32⟩
  | 127 => ⟨S16384x256, .f32⟩
  | _ => ⟨S16384x256, .f32⟩

abbrev hbmTy0_1 (i : Nat) : BufTy := match i % 128 with
  | 0 => ⟨S_, .i32⟩
  | 1 => ⟨S524288, .i32⟩
  | 2 => ⟨S524288, .i1⟩
  | 3 => ⟨S_, .i32⟩
  | 4 => ⟨S524288, .i32⟩
  | 5 => ⟨S524288, .i32⟩
  | 6 => ⟨S524288, .i32⟩
  | 7 => ⟨S524288x1, .i32⟩
  | 8 => ⟨S524288x256, .f32⟩
  | 9 => ⟨S524288x1, .f32⟩
  | 10 => ⟨S524288x256, .f32⟩
  | 11 => ⟨S524288x256, .f32⟩
  | 12 => ⟨S_, .f32⟩
  | 13 => ⟨S16384x256, .f32⟩
  | 14 => ⟨S524288x1, .i32⟩
  | 15 => ⟨S16384x256, .f32⟩
  | 16 => ⟨S16384x1, .f32⟩
  | 17 => ⟨S16384x256, .f32⟩
  | 18 => ⟨S16384x256, .f32⟩
  | 19 => ⟨S16384x256, .f32⟩
  | 20 => ⟨S1x256, .f32⟩
  | 21 => ⟨S16384x256, .f32⟩
  | 22 => ⟨S16384x256, .f32⟩
  | 23 => ⟨S_, .f32⟩
  | 24 => ⟨S16384x256, .f32⟩
  | 25 => ⟨S16384x256, .f32⟩
  | 26 => ⟨S16384x128, .f32⟩
  | 27 => ⟨S_, .i32⟩
  | 28 => ⟨S524288, .i32⟩
  | 29 => ⟨S524288, .i1⟩
  | 30 => ⟨S_, .i32⟩
  | 31 => ⟨S524288, .i32⟩
  | 32 => ⟨S524288, .i32⟩
  | 33 => ⟨S524288, .i32⟩
  | 34 => ⟨S524288x1, .i32⟩
  | 35 => ⟨S524288x128, .f32⟩
  | 36 => ⟨S524288x1, .f32⟩
  | 37 => ⟨S524288x128, .f32⟩
  | 38 => ⟨S524288x128, .f32⟩
  | 39 => ⟨S_, .f32⟩
  | 40 => ⟨S16384x128, .f32⟩
  | 41 => ⟨S524288x1, .i32⟩
  | 42 => ⟨S16384x128, .f32⟩
  | 43 => ⟨S16384x1, .f32⟩
  | 44 => ⟨S16384x128, .f32⟩
  | 45 => ⟨S16384x128, .f32⟩
  | 46 => ⟨S16384x128, .f32⟩
  | 47 => ⟨S1x128, .f32⟩
  | 48 => ⟨S16384x128, .f32⟩
  | 49 => ⟨S16384x128, .f32⟩
  | 50 => ⟨S_, .f32⟩
  | 51 => ⟨S16384x128, .f32⟩
  | 52 => ⟨S16384x128, .f32⟩
  | 53 => ⟨S128x16384, .f32⟩
  | 54 => ⟨S16384x16384, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call0_cst : Ref sig .tc := ⟨.hbm, 70, rfl⟩
abbrev main_call0_v0 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_call1_cst : Ref sig .tc := ⟨.hbm, 97, rfl⟩
abbrev main_call1_v0 : Ref sig .tc := ⟨.hbm, 98, rfl⟩
abbrev main_v70 : Ref sig .tc := ⟨.hbm, 99, rfl⟩
abbrev main_v71 : Ref sig .tc := ⟨.hbm, 100, rfl⟩
abbrev main_c_11 : Ref sig .tc := ⟨.hbm, 101, rfl⟩
abbrev main_v72 : Ref sig .tc := ⟨.hbm, 102, rfl⟩
abbrev main_v73 : Ref sig .tc := ⟨.hbm, 103, rfl⟩
abbrev main_c_12 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_13 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_call2_cst : Ref sig .tc := ⟨.hbm, 124, rfl⟩
abbrev main_call2_v0 : Ref sig .tc := ⟨.hbm, 125, rfl⟩
abbrev main_v92 : Ref sig .tc := ⟨.hbm, 126, rfl⟩
abbrev main_v93 : Ref sig .tc := ⟨.hbm, 127, rfl⟩
abbrev main_c_14 : Ref sig .tc := ⟨.hbm, 128, rfl⟩
abbrev main_v94 : Ref sig .tc := ⟨.hbm, 129, rfl⟩
abbrev main_v95 : Ref sig .tc := ⟨.hbm, 130, rfl⟩
abbrev main_c_15 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_16 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_call3_cst : Ref sig .tc := ⟨.hbm, 151, rfl⟩
abbrev main_call3_v0 : Ref sig .tc := ⟨.hbm, 152, rfl⟩
abbrev main_v114 : Ref sig .tc := ⟨.hbm, 153, rfl⟩
abbrev main_v115 : Ref sig .tc := ⟨.hbm, 154, rfl⟩
abbrev main_c_17 : Ref sig .tc := ⟨.hbm, 155, rfl⟩
abbrev main_v116 : Ref sig .tc := ⟨.hbm, 156, rfl⟩
abbrev main_v117 : Ref sig .tc := ⟨.hbm, 157, rfl⟩
abbrev main_c_18 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_19 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_call4_cst : Ref sig .tc := ⟨.hbm, 178, rfl⟩
abbrev main_call4_v0 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S524288x1_S524288x128_0_1 : S524288x1.BroadcastsInDim S524288x128 (![0, 1] : Fin 2 → Fin S524288x128.rank)
  bcast_S_S16384x128 : S_.BroadcastsInDim S16384x128 (![] : Fin 0 → Fin S16384x128.rank)
  bcast_S16384_S16384x1_0 : S16384.BroadcastsInDim S16384x1 (![0] : Fin 1 → Fin S16384x1.rank)
  bcast_S16384x1_S16384x128_0_1 : S16384x1.BroadcastsInDim S16384x128 (![0, 1] : Fin 2 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S524288x1_S524288x256_0_1 : S524288x1.BroadcastsInDim S524288x256 (![0, 1] : Fin 2 → Fin S524288x256.rank)
  bcast_S_S16384x256 : S_.BroadcastsInDim S16384x256 (![] : Fin 0 → Fin S16384x256.rank)
  bcast_S16384x1_S16384x256_0_1 : S16384x1.BroadcastsInDim S16384x256 (![0, 1] : Fin 2 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  transposes_S16384x128_S128x16384_1_0 : S16384x128.Transposes [1, 0] S128x16384
  scatter_S16384_S524288x1_S524288_n_0_0_1_wf : ScatterDims.WF S16384 S524288x1 S524288 [] [0] [0] 1
  gather_S16384_S524288x1_S524288_n_0_n_n_0_1_1_wf : GatherDims.WF S16384 S524288x1 S524288 [] [0] [] [0] [] 1 ![1]
  dot_S16384x256_S256x128_S16384x128_1_0_0_1_n_n_wf : DotDims.WF S16384x256 S256x128 S16384x128 [1] [0] [0] [1] [] []
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  dot_S16384x128_S128x128_S16384x128_1_0_0_1_n_n_wf : DotDims.WF S16384x128 S128x128 S16384x128 [1] [0] [0] [1] [] []
  dot_S16384x128_S128x256_S16384x256_1_0_0_1_n_n_wf : DotDims.WF S16384x128 S128x256 S16384x256 [1] [0] [0] [1] [] []
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S16384x128_S128x16384_S16384x16384_1_0_0_1_n_n_wf : DotDims.WF S16384x128 S128x16384 S16384x16384 [1] [0] [0] [1] [] []

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def gather_S16384_S524288x1_S524288_n_0_n_n_0_1_1 : GatherDims S16384 S524288x1 S524288 where
  offsetDims := []
  collapsedSliceDims := [0]
  operandBatchingDims := []
  startIndicesBatchingDims := []
  startIndexMap := [0]
  indexVectorDim := 1
  sliceSizes := ![1]
  wf := gather_S16384_S524288x1_S524288_n_0_n_n_0_1_1_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf

class Facts : Prop extends Facts₀ where

variable [Facts]
-- ==== Proof.KiData.lean ====
import proofs.«147610_j32590211842242_1_alg».proof.Proof.Gen.KernelIdeal.Launch
import proofs.«147610_j32590211842242_1_alg».proof.Proof.Gen.KernelIdeal.Skeleton
import proofs.«147610_j32590211842242_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

/-!
# The six matrix products as pipelines: blocks, body outputs, proof data

The program launches six tiled matrix products. Each region has three windows: window 0 is a block of rows of the
left operand, window 1 the right operand (the whole weight matrix for regions 0 to 4; a block of rows of the same
array as window 0 for region 5, whose product is s times its own transpose), window 2 the block of the result that
the grid point computes.

Everything here is stated at a parameter V: what each buffer of a core holds when the region is entered.
* iblkK V c w t is window w's block at grid point t, read off its array under V.
* outK_2 x0 x1 is what the body leaves in the result window's staging buffer when the two input buffers hold
  x0 and x1: its single whole-buffer store, of the product of the two loaded blocks.
* datK V c is the pipeline's proof data: the arrays as found under V; after the body, each input buffer still holds
  its block and the result buffer holds outK_2 of the two input blocks.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 0 -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev r0_0 : Rect S2048x256 := Rect.unit (s := S2048x256) ![0, 0] S2048x256.size inb_S2048x256_S2048x256_0_0
abbrev r0_1 : Rect S256x128 := Rect.unit (s := S256x128) ![0, 0] S256x128.size inb_S256x128_S256x128_0_0
abbrev r0_2 : Rect S2048x128 := Rect.unit (s := S2048x128) ![0, 0] S2048x128.size inb_S2048x128_S2048x128_0_0

/-- The result window's staging buffer after the body: one store, over the whole buffer, of the product of the two
    loaded input buffers. -/
def out0_2 (x0 : Vec F S2048x256 .f32) (x1 : Vec F S256x128 .f32) : Vec F S2048x128 .f32 :=
  View.canon [⟨r0_2, k0_pay1 (View.ld x0 r0_0) (View.ld x1 r0_1)⟩]

/-- The single store covers the buffer. -/
theorem cover0_2 (p0 : Vec F S2048x128 .f32) (y : S2048x128.Idx) :
    ∃ pc ∈ ([⟨r0_2, p0⟩] : List (View.Piece (Elt F) S2048x128 .f32)), y ∈ pc.1.set :=
  View.cover_of_tiled [⟨r0_2, p0⟩] S2048x128.size (by rfl) y

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1 -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev r1_0 : Rect S2048x128 := Rect.unit (s := S2048x128) ![0, 0] S2048x128.size inb_S2048x128_S2048x128_0_0
abbrev r1_1 : Rect S128x128 := Rect.unit (s := S128x128) ![0, 0] S128x128.size inb_S128x128_S128x128_0_0
abbrev r1_2 : Rect S2048x128 := Rect.unit (s := S2048x128) ![0, 0] S2048x128.size inb_S2048x128_S2048x128_0_0

/-- The result window's staging buffer after the body: one store, over the whole buffer, of the product of the two
    loaded input buffers. -/
def out1_2 (x0 : Vec F S2048x128 .f32) (x1 : Vec F S128x128 .f32) : Vec F S2048x128 .f32 :=
  View.canon [⟨r1_2, k1_pay1 (View.ld x0 r1_0) (View.ld x1 r1_1)⟩]

/-- The single store covers the buffer. -/
theorem cover1_2 (p0 : Vec F S2048x128 .f32) (y : S2048x128.Idx) :
    ∃ pc ∈ ([⟨r1_2, p0⟩] : List (View.Piece (Elt F) S2048x128 .f32)), y ∈ pc.1.set :=
  View.cover_of_tiled [⟨r1_2, p0⟩] S2048x128.size (by rfl) y

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## Region 2 -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev r2_0 : Rect S2048x128 := Rect.unit (s := S2048x128) ![0, 0] S2048x128.size inb_S2048x128_S2048x128_0_0
abbrev r2_1 : Rect S128x128 := Rect.unit (s := S128x128) ![0, 0] S128x128.size inb_S128x128_S128x128_0_0
abbrev r2_2 : Rect S2048x128 := Rect.unit (s := S2048x128) ![0, 0] S2048x128.size inb_S2048x128_S2048x128_0_0

/-- The result window's staging buffer after the body: one store, over the whole buffer, of the product of the two
    loaded input buffers. -/
def out2_2 (x0 : Vec F S2048x128 .f32) (x1 : Vec F S128x128 .f32) : Vec F S2048x128 .f32 :=
  View.canon [⟨r2_2, k2_pay1 (View.ld x0 r2_0) (View.ld x1 r2_1)⟩]

/-- The single store covers the buffer. -/
theorem cover2_2 (p0 : Vec F S2048x128 .f32) (y : S2048x128.Idx) :
    ∃ pc ∈ ([⟨r2_2, p0⟩] : List (View.Piece (Elt F) S2048x128 .f32)), y ∈ pc.1.set :=
  View.cover_of_tiled [⟨r2_2, p0⟩] S2048x128.size (by rfl) y

/-- The proof data of pipeline 2 on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-! ## Region 3 -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole-buffer rectangles the body loads and stores through. -/
abbrev r3_0 : Rect S2048x128 := Rect.unit (s := S2048x128) ![0, 0] S2048x128.size inb_S2048x128_S2048x128_0_0
abbrev r3_1 : Rect S128x256 := Rect.unit (s := S128x256) ![0, 0] S128x256.size inb_S128x256_S128x256_0_0
abbrev r3_2 : Rect S2048x256 := Rect.unit (s := S2048x256) ![0, 0] S2048x256.size inb_S2048x256_S2048x256_0_0

/-- The result window's staging buffer after the body: one store, over the whole buffer, of the product of the two
    loaded input buffers. -/
def out3_2 (x0 : Vec F S2048x128 .f32) (x1 : Vec F S128x256 .f32) : Vec F S2048x256 .f32 :=
  View.canon [⟨r3_2, k3_pay1 (View.ld x0 r3_0) (View.ld x1 r3_1)⟩]

/-- The single store covers the buffer. -/
theorem cover3_2 (p0 : Vec F S2048x256 .f32) (y : S2048x256.Idx) :
    ∃ pc ∈ ([⟨r3_2, p0⟩] : List (View.Piece (Elt F) S2048x256 .f32)), y ∈ pc.1.set :=
  View.cover_of_tiled [⟨r3_2, p0⟩] S2048x256.size (by rfl) y

/-- The proof data of pipeline 3 on core c. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-! ## Region 4 -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole-buffer rectangles the body loads and stores through. -/
abbrev r4_0 : Rect S2048x128 := Rect.unit (s := S2048x128) ![0, 0] S2048x128.size inb_S2048x128_S2048x128_0_0
abbrev r4_1 : Rect S128x128 := Rect.unit (s := S128x128) ![0, 0] S128x128.size inb_S128x128_S128x128_0_0
abbrev r4_2 : Rect S2048x128 := Rect.unit (s := S2048x128) ![0, 0] S2048x128.size inb_S2048x128_S2048x128_0_0

/-- The result window's staging buffer after the body: one store, over the whole buffer, of the product of the two
    loaded input buffers. -/
def out4_2 (x0 : Vec F S2048x128 .f32) (x1 : Vec F S128x128 .f32) : Vec F S2048x128 .f32 :=
  View.canon [⟨r4_2, k4_pay1 (View.ld x0 r4_0) (View.ld x1 r4_1)⟩]

/-- The single store covers the buffer. -/
theorem cover4_2 (p0 : Vec F S2048x128 .f32) (y : S2048x128.Idx) :
    ∃ pc ∈ ([⟨r4_2, p0⟩] : List (View.Piece (Elt F) S2048x128 .f32)), y ∈ pc.1.set :=
  View.cover_of_tiled [⟨r4_2, p0⟩] S2048x128.size (by rfl) y

/-- The proof data of pipeline 4 on core c. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-! ## Region 5 -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole-buffer rectangles the body loads and stores through. -/
abbrev r5_0 : Rect S2048x128 := Rect.unit (s := S2048x128) ![0, 0] S2048x128.size inb_S2048x128_S2048x128_0_0
abbrev r5_1 : Rect S2048x128 := Rect.unit (s := S2048x128) ![0, 0] S2048x128.size inb_S2048x128_S2048x128_0_0
abbrev r5_2 : Rect S2048x2048 := Rect.unit (s := S2048x2048) ![0, 0] S2048x2048.size inb_S2048x2048_S2048x2048_0_0

/-- The result window's staging buffer after the body: one store, over the whole buffer, of the product of the two
    loaded input buffers. -/
def out5_2 (x0 : Vec F S2048x128 .f32) (x1 : Vec F S2048x128 .f32) : Vec F S2048x2048 .f32 :=
  View.canon [⟨r5_2, k5_pay1 (View.ld x0 r5_0) (View.ld x1 r5_1)⟩]

/-- The single store covers the buffer. -/
theorem cover5_2 (p0 : Vec F S2048x2048 .f32) (y : S2048x2048.Idx) :
    ∃ pc ∈ ([⟨r5_2, p0⟩] : List (View.Piece (Elt F) S2048x2048 .f32)), y ∈ pc.1.set :=
  View.cover_of_tiled [⟨r5_2, p0⟩] S2048x2048.size (by rfl) y

/-- The proof data of pipeline 5 on core c. Its two input windows read one array (the product is of s with its own
    transpose), so the core's hold on that array is dealt between them: the left half to window 0, the right half to
    window 1. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q w := match w with
    | ⟨0, _⟩ => fullShare.left
    | ⟨1, _⟩ => fullShare.right
    | ⟨2, _⟩ => fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

end Cert.KernelIdeal.Hand

end
-- ==== Proof.KiPdats.lean ====
import proofs.«147610_j32590211842242_1_alg».proof.Proof.KiData
import proofs.«147610_j32590211842242_1_alg».proof.Proof.Gen.KernelIdeal.Regions

/-!
# The buffers between the regions, and the family of proof data

Between two items of the program every buffer of a core holds a definite value: the launch contents, then the host
operations of each stretch applied in order, then, after a region, the region's result array at the fold of its
write-backs and every other buffer as the region found it. W0 … W17 name these contents, boundary by boundary;
oJ is what the region ending at boundary J wrote. Each region's proof data is taken at the contents the region is
entered from.
-/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 (c : Dev nD) : Valuation τ sig (Elt F) := fun b => m (c, b)
/-- After the host stretch hostOps0. -/
abbrev W1 (c : Dev nD) : Valuation τ sig (Elt F) := StableHlo.after hostOps0 (W0 m c)
/-- What region 0 writes into main_v27: the fold of its result window's write-backs over the grid. -/
def o2 (c : Dev nD) : Buf (Elt F) ((c : Thread nD τ).loc main_v27) := (dat0 (fun c b => W1 m c b) c).arrAt 2 cfg0.N
/-- After region 0: main_v27 at what the region wrote, every other buffer as the region found it. -/
def W2 (c : Dev nD) : Valuation τ sig (Elt F) := Function.update (W1 m c) main_v27 (o2 m c)
/-- After the host stretch hostOps1. -/
abbrev W3 (c : Dev nD) : Valuation τ sig (Elt F) := StableHlo.after hostOps1 (W2 m c)
/-- After the host stretch hostOps1_1. -/
abbrev W4 (c : Dev nD) : Valuation τ sig (Elt F) := StableHlo.after hostOps1_1 (W3 m c)
/-- What region 1 writes into main_v49: the fold of its result window's write-backs over the grid. -/
def o5 (c : Dev nD) : Buf (Elt F) ((c : Thread nD τ).loc main_v49) := (dat1 (fun c b => W4 m c b) c).arrAt 2 cfg1.N
/-- After region 1: main_v49 at what the region wrote, every other buffer as the region found it. -/
def W5 (c : Dev nD) : Valuation τ sig (Elt F) := Function.update (W4 m c) main_v49 (o5 m c)
/-- After the host stretch hostOps2. -/
abbrev W6 (c : Dev nD) : Valuation τ sig (Elt F) := StableHlo.after hostOps2 (W5 m c)
/-- After the host stretch hostOps2_1. -/
abbrev W7 (c : Dev nD) : Valuation τ sig (Elt F) := StableHlo.after hostOps2_1 (W6 m c)
/-- What region 2 writes into main_v71: the fold of its result window's write-backs over the grid. -/
def o8 (c : Dev nD) : Buf (Elt F) ((c : Thread nD τ).loc main_v71) := (dat2 (fun c b => W7 m c b) c).arrAt 2 cfg2.N
/-- After region 2: main_v71 at what the region wrote, every other buffer as the region found it. -/
def W8 (c : Dev nD) : Valuation τ sig (Elt F) := Function.update (W7 m c) main_v71 (o8 m c)
/-- After the host stretch hostOps3. -/
abbrev W9 (c : Dev nD) : Valuation τ sig (Elt F) := StableHlo.after hostOps3 (W8 m c)
/-- After the host stretch hostOps3_1. -/
abbrev W10 (c : Dev nD) : Valuation τ sig (Elt F) := StableHlo.after hostOps3_1 (W9 m c)
/-- What region 3 writes into main_v93: the fold of its result window's write-backs over the grid. -/
def o11 (c : Dev nD) : Buf (Elt F) ((c : Thread nD τ).loc main_v93) := (dat3 (fun c b => W10 m c b) c).arrAt 2 cfg3.N
/-- After region 3: main_v93 at what the region wrote, every other buffer as the region found it. -/
def W11 (c : Dev nD) : Valuation τ sig (Elt F) := Function.update (W10 m c) main_v93 (o11 m c)
/-- After the host stretch hostOps4. -/
abbrev W12 (c : Dev nD) : Valuation τ sig (Elt F) := StableHlo.after hostOps4 (W11 m c)
/-- After the host stretch hostOps4_1. -/
abbrev W13 (c : Dev nD) : Valuation τ sig (Elt F) := StableHlo.after hostOps4_1 (W12 m c)
/-- What region 4 writes into main_v115: the fold of its result window's write-backs over the grid. -/
def o14 (c : Dev nD) : Buf (Elt F) ((c : Thread nD τ).loc main_v115) := (dat4 (fun c b => W13 m c b) c).arrAt 2 cfg4.N
/-- After region 4: main_v115 at what the region wrote, every other buffer as the region found it. -/
def W14 (c : Dev nD) : Valuation τ sig (Elt F) := Function.update (W13 m c) main_v115 (o14 m c)
/-- After the host stretch hostOps5. -/
abbrev W15 (c : Dev nD) : Valuation τ sig (Elt F) := StableHlo.after hostOps5 (W14 m c)
/-- After the host stretch hostOps5_1. -/
abbrev W16 (c : Dev nD) : Valuation τ sig (Elt F) := StableHlo.after hostOps5_1 (W15 m c)
/-- What region 5 writes into main_v137: the fold of its result window's write-backs over the grid. -/
def o17 (c : Dev nD) : Buf (Elt F) ((c : Thread nD τ).loc main_v137) := (dat5 (fun c b => W16 m c b) c).arrAt 2 cfg5.N
/-- After region 5: main_v137 at what the region wrote, every other buffer as the region found it. -/
def W17 (c : Dev nD) : Valuation τ sig (Elt F) := Function.update (W16 m c) main_v137 (o17 m c)

/-- What the regions leave, as the family the generated boundary valuations are written over. -/
def outs : Gen.Outs (F := F) := fun J r c => match J with
  | 2 => W2 m c r
  | 5 => W5 m c r
  | 8 => W8 m c r
  | 11 => W11 m c r
  | 14 => W14 m c r
  | 17 => W17 m c r
  | _ => W17 m c r

theorem outs_2 (c : Dev nD) : outs m 2 main_v27 c = o2 m c := by
  show W2 m c main_v27 = _
  unfold W2; exact Function.update_self ..
theorem outs_5 (c : Dev nD) : outs m 5 main_v49 c = o5 m c := by
  show W5 m c main_v49 = _
  unfold W5; exact Function.update_self ..
theorem outs_8 (c : Dev nD) : outs m 8 main_v71 c = o8 m c := by
  show W8 m c main_v71 = _
  unfold W8; exact Function.update_self ..
theorem outs_11 (c : Dev nD) : outs m 11 main_v93 c = o11 m c := by
  show W11 m c main_v93 = _
  unfold W11; exact Function.update_self ..
theorem outs_14 (c : Dev nD) : outs m 14 main_v115 c = o14 m c := by
  show W14 m c main_v115 = _
  unfold W14; exact Function.update_self ..
theorem outs_17 (c : Dev nD) : outs m 17 main_v137 c = o17 m c := by
  show W17 m c main_v137 = _
  unfold W17; exact Function.update_self ..

/-- The generated boundary valuations, at this family, are the chain above. -/
theorem V1_eq (c : Dev nD) : Gen.V1 m c = W1 m c := rfl
theorem V2_eq (c : Dev nD) : Gen.V2 m (outs m) c = W2 m c := by
  show Function.update (Gen.V1 m c) main_v27 (outs m 2 main_v27 c) = _
  rw [V1_eq, outs_2]; rfl
theorem V3_eq (c : Dev nD) : Gen.V3 m (outs m) c = W3 m c := by
  show StableHlo.after hostOps1 (Gen.V2 m (outs m) c) = _
  rw [V2_eq]
theorem V4_eq (c : Dev nD) : Gen.V4 m (outs m) c = W4 m c := by
  show StableHlo.after hostOps1_1 (Gen.V3 m (outs m) c) = _
  rw [V3_eq]
theorem V5_eq (c : Dev nD) : Gen.V5 m (outs m) c = W5 m c := by
  show Function.update (Gen.V4 m (outs m) c) main_v49 (outs m 5 main_v49 c) = _
  rw [V4_eq, outs_5]; rfl
theorem V6_eq (c : Dev nD) : Gen.V6 m (outs m) c = W6 m c := by
  show StableHlo.after hostOps2 (Gen.V5 m (outs m) c) = _
  rw [V5_eq]
theorem V7_eq (c : Dev nD) : Gen.V7 m (outs m) c = W7 m c := by
  show StableHlo.after hostOps2_1 (Gen.V6 m (outs m) c) = _
  rw [V6_eq]
theorem V8_eq (c : Dev nD) : Gen.V8 m (outs m) c = W8 m c := by
  show Function.update (Gen.V7 m (outs m) c) main_v71 (outs m 8 main_v71 c) = _
  rw [V7_eq, outs_8]; rfl
theorem V9_eq (c : Dev nD) : Gen.V9 m (outs m) c = W9 m c := by
  show StableHlo.after hostOps3 (Gen.V8 m (outs m) c) = _
  rw [V8_eq]
theorem V10_eq (c : Dev nD) : Gen.V10 m (outs m) c = W10 m c := by
  show StableHlo.after hostOps3_1 (Gen.V9 m (outs m) c) = _
  rw [V9_eq]
theorem V11_eq (c : Dev nD) : Gen.V11 m (outs m) c = W11 m c := by
  show Function.update (Gen.V10 m (outs m) c) main_v93 (outs m 11 main_v93 c) = _
  rw [V10_eq, outs_11]; rfl
theorem V12_eq (c : Dev nD) : Gen.V12 m (outs m) c = W12 m c := by
  show StableHlo.after hostOps4 (Gen.V11 m (outs m) c) = _
  rw [V11_eq]
theorem V13_eq (c : Dev nD) : Gen.V13 m (outs m) c = W13 m c := by
  show StableHlo.after hostOps4_1 (Gen.V12 m (outs m) c) = _
  rw [V12_eq]
theorem V14_eq (c : Dev nD) : Gen.V14 m (outs m) c = W14 m c := by
  show Function.update (Gen.V13 m (outs m) c) main_v115 (outs m 14 main_v115 c) = _
  rw [V13_eq, outs_14]; rfl
theorem V15_eq (c : Dev nD) : Gen.V15 m (outs m) c = W15 m c := by
  show StableHlo.after hostOps5 (Gen.V14 m (outs m) c) = _
  rw [V14_eq]
theorem V16_eq (c : Dev nD) : Gen.V16 m (outs m) c = W16 m c := by
  show StableHlo.after hostOps5_1 (Gen.V15 m (outs m) c) = _
  rw [V15_eq]
theorem V17_eq (c : Dev nD) : Gen.V17 m (outs m) c = W17 m c := by
  show Function.update (Gen.V16 m (outs m) c) main_v137 (outs m 17 main_v137 c) = _
  rw [V16_eq, outs_17]; rfl

/-- Every pipeline's proof data, each at its region's entry contents. -/
def pdats : (p : Fin 6) → (c : Dev nD) → Dat τ (Elt F) Unit ℕ (UR sig nD τ) ℕ (Pipeline.pin (pcfgs (F := F)) Gen.adm p) c
  | ⟨0, _⟩ => fun c => dat0 (fun c b => W1 m c b) c
  | ⟨1, _⟩ => fun c => dat1 (fun c b => W4 m c b) c
  | ⟨2, _⟩ => fun c => dat2 (fun c b => W7 m c b) c
  | ⟨3, _⟩ => fun c => dat3 (fun c b => W10 m c b) c
  | ⟨4, _⟩ => fun c => dat4 (fun c b => W13 m c b) c
  | ⟨5, _⟩ => fun c => dat5 (fun c b => W16 m c b) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core owing
    nothing. -/
abbrev R (c : Dev nD) : sProp 𝕄 := iprop((∃ r, prngReg c r) ∗ ∃ W, owes (c : Thread nD τ) (0 : CellTallies nD τ sig Unit) W)

end Cert.KernelIdeal.Hand

end
-- ==== Proof.KiCarry.lean ====
import proofs.«147610_j32590211842242_1_alg».proof.Proof.KiPdats

/-!
# Buffers an item does not write keep their contents

Each item of the program writes a known list of buffers (a host stretch its operations' results, a region its result
array). A buffer outside the list holds after the item what it held before. Chained along the program this says where
each value a later item reads was made: the edge lists and the two normalisations in the first stretch, each layer's
output in its own stretch, the arguments at launch.
-/

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

theorem W1_of (c : Dev nD) (r : Ref sig .tc) (h : r ∉ Gen.hostOps0_W) : W1 m c r = W0 m c r := Gen.V1_of m c r h
theorem W2_of (c : Dev nD) (r : Ref sig .tc) (h : r ∉ ([main_v27] : List (Ref sig .tc))) : W2 m c r = W1 m c r :=
  (congrFun (V2_eq m c) _).symm.trans (Gen.V2_of m (outs m) c r h)
theorem W3_of (c : Dev nD) (r : Ref sig .tc) (h : r ∉ Gen.hostOps1_W) : W3 m c r = W2 m c r :=
  (congrFun (V3_eq m c) _).symm.trans ((Gen.V3_of m (outs m) c r h).trans (congrFun (V2_eq m c) _))
theorem W4_of (c : Dev nD) (r : Ref sig .tc) (h : r ∉ Gen.hostOps1_1_W) : W4 m c r = W3 m c r :=
  (congrFun (V4_eq m c) _).symm.trans ((Gen.V4_of m (outs m) c r h).trans (congrFun (V3_eq m c) _))
theorem W5_of (c : Dev nD) (r : Ref sig .tc) (h : r ∉ ([main_v49] : List (Ref sig .tc))) : W5 m c r = W4 m c r :=
  (congrFun (V5_eq m c) _).symm.trans ((Gen.V5_of m (outs m) c r h).trans (congrFun (V4_eq m c) _))
theorem W6_of (c : Dev nD) (r : Ref sig .tc) (h : r ∉ Gen.hostOps2_W) : W6 m c r = W5 m c r :=
  (congrFun (V6_eq m c) _).symm.trans ((Gen.V6_of m (outs m) c r h).trans (congrFun (V5_eq m c) _))
theorem W7_of (c : Dev nD) (r : Ref sig .tc) (h : r ∉ Gen.hostOps2_1_W) : W7 m c r = W6 m c r :=
  (congrFun (V7_eq m c) _).symm.trans ((Gen.V7_of m (outs m) c r h).trans (congrFun (V6_eq m c) _))
theorem W8_of (c : Dev nD) (r : Ref sig .tc) (h : r ∉ ([main_v71] : List (Ref sig .tc))) : W8 m c r = W7 m c r :=
  (congrFun (V8_eq m c) _).symm.trans ((Gen.V8_of m (outs m) c r h).trans (congrFun (V7_eq m c) _))
theorem W9_of (c : Dev nD) (r : Ref sig .tc) (h : r ∉ Gen.hostOps3_W) : W9 m c r = W8 m c r :=
  (congrFun (V9_eq m c) _).symm.trans ((Gen.V9_of m (outs m) c r h).trans (congrFun (V8_eq m c) _))
theorem W10_of (c : Dev nD) (r : Ref sig .tc) (h : r ∉ Gen.hostOps3_1_W) : W10 m c r = W9 m c r :=
  (congrFun (V10_eq m c) _).symm.trans ((Gen.V10_of m (outs m) c r h).trans (congrFun (V9_eq m c) _))
theorem W11_of (c : Dev nD) (r : Ref sig .tc) (h : r ∉ ([main_v93] : List (Ref sig .tc))) : W11 m c r = W10 m c r :=
  (congrFun (V11_eq m c) _).symm.trans ((Gen.V11_of m (outs m) c r h).trans (congrFun (V10_eq m c) _))
theorem W12_of (c : Dev nD) (r : Ref sig .tc) (h : r ∉ Gen.hostOps4_W) : W12 m c r = W11 m c r :=
  (congrFun (V12_eq m c) _).symm.trans ((Gen.V12_of m (outs m) c r h).trans (congrFun (V11_eq m c) _))
theorem W13_of (c : Dev nD) (r : Ref sig .tc) (h : r ∉ Gen.hostOps4_1_W) : W13 m c r = W12 m c r :=
  (congrFun (V13_eq m c) _).symm.trans ((Gen.V13_of m (outs m) c r h).trans (congrFun (V12_eq m c) _))
theorem W14_of (c : Dev nD) (r : Ref sig .tc) (h : r ∉ ([main_v115] : List (Ref sig .tc))) : W14 m c r = W13 m c r :=
  (congrFun (V14_eq m c) _).symm.trans ((Gen.V14_of m (outs m) c r h).trans (congrFun (V13_eq m c) _))
theorem W15_of (c : Dev nD) (r : Ref sig .tc) (h : r ∉ Gen.hostOps5_W) : W15 m c r = W14 m c r :=
  (congrFun (V15_eq m c) _).symm.trans ((Gen.V15_of m (outs m) c r h).trans (congrFun (V14_eq m c) _))
theorem W16_of (c : Dev nD) (r : Ref sig .tc) (h : r ∉ Gen.hostOps5_1_W) : W16 m c r = W15 m c r :=
  (congrFun (V16_eq m c) _).symm.trans ((Gen.V16_of m (outs m) c r h).trans (congrFun (V15_eq m c) _))
theorem W17_of (c : Dev nD) (r : Ref sig .tc) (h : r ∉ ([main_v137] : List (Ref sig .tc))) : W17 m c r = W16 m c r :=
  (congrFun (V17_eq m c) _).symm.trans ((Gen.V17_of m (outs m) c r h).trans (congrFun (V16_eq m c) _))

/-! ## The edge lists and the normalisations, made in the first stretch -/
theorem W2_main_v1 (c : Dev nD) : W2 m c main_v1 = W1 m c main_v1 :=
  (W2_of m c main_v1 (by decide))
theorem W5_main_v1 (c : Dev nD) : W5 m c main_v1 = W1 m c main_v1 :=
  ((W5_of m c main_v1 (by decide)).trans ((W4_of m c main_v1 (by decide)).trans ((W3_of m c main_v1 (by decide)).trans (W2_of m c main_v1 (by decide)))))
theorem W8_main_v1 (c : Dev nD) : W8 m c main_v1 = W1 m c main_v1 :=
  ((W8_of m c main_v1 (by decide)).trans ((W7_of m c main_v1 (by decide)).trans ((W6_of m c main_v1 (by decide)).trans ((W5_of m c main_v1 (by decide)).trans ((W4_of m c main_v1 (by decide)).trans ((W3_of m c main_v1 (by decide)).trans (W2_of m c main_v1 (by decide))))))))
theorem W11_main_v1 (c : Dev nD) : W11 m c main_v1 = W1 m c main_v1 :=
  ((W11_of m c main_v1 (by decide)).trans ((W10_of m c main_v1 (by decide)).trans ((W9_of m c main_v1 (by decide)).trans ((W8_of m c main_v1 (by decide)).trans ((W7_of m c main_v1 (by decide)).trans ((W6_of m c main_v1 (by decide)).trans ((W5_of m c main_v1 (by decide)).trans ((W4_of m c main_v1 (by decide)).trans ((W3_of m c main_v1 (by decide)).trans (W2_of m c main_v1 (by decide)))))))))))
theorem W14_main_v1 (c : Dev nD) : W14 m c main_v1 = W1 m c main_v1 :=
  ((W14_of m c main_v1 (by decide)).trans ((W13_of m c main_v1 (by decide)).trans ((W12_of m c main_v1 (by decide)).trans ((W11_of m c main_v1 (by decide)).trans ((W10_of m c main_v1 (by decide)).trans ((W9_of m c main_v1 (by decide)).trans ((W8_of m c main_v1 (by decide)).trans ((W7_of m c main_v1 (by decide)).trans ((W6_of m c main_v1 (by decide)).trans ((W5_of m c main_v1 (by decide)).trans ((W4_of m c main_v1 (by decide)).trans ((W3_of m c main_v1 (by decide)).trans (W2_of m c main_v1 (by decide))))))))))))))
theorem W2_main_v3 (c : Dev nD) : W2 m c main_v3 = W1 m c main_v3 :=
  (W2_of m c main_v3 (by decide))
theorem W5_main_v3 (c : Dev nD) : W5 m c main_v3 = W1 m c main_v3 :=
  ((W5_of m c main_v3 (by decide)).trans ((W4_of m c main_v3 (by decide)).trans ((W3_of m c main_v3 (by decide)).trans (W2_of m c main_v3 (by decide)))))
theorem W8_main_v3 (c : Dev nD) : W8 m c main_v3 = W1 m c main_v3 :=
  ((W8_of m c main_v3 (by decide)).trans ((W7_of m c main_v3 (by decide)).trans ((W6_of m c main_v3 (by decide)).trans ((W5_of m c main_v3 (by decide)).trans ((W4_of m c main_v3 (by decide)).trans ((W3_of m c main_v3 (by decide)).trans (W2_of m c main_v3 (by decide))))))))
theorem W11_main_v3 (c : Dev nD) : W11 m c main_v3 = W1 m c main_v3 :=
  ((W11_of m c main_v3 (by decide)).trans ((W10_of m c main_v3 (by decide)).trans ((W9_of m c main_v3 (by decide)).trans ((W8_of m c main_v3 (by decide)).trans ((W7_of m c main_v3 (by decide)).trans ((W6_of m c main_v3 (by decide)).trans ((W5_of m c main_v3 (by decide)).trans ((W4_of m c main_v3 (by decide)).trans ((W3_of m c main_v3 (by decide)).trans (W2_of m c main_v3 (by decide)))))))))))
theorem W14_main_v3 (c : Dev nD) : W14 m c main_v3 = W1 m c main_v3 :=
  ((W14_of m c main_v3 (by decide)).trans ((W13_of m c main_v3 (by decide)).trans ((W12_of m c main_v3 (by decide)).trans ((W11_of m c main_v3 (by decide)).trans ((W10_of m c main_v3 (by decide)).trans ((W9_of m c main_v3 (by decide)).trans ((W8_of m c main_v3 (by decide)).trans ((W7_of m c main_v3 (by decide)).trans ((W6_of m c main_v3 (by decide)).trans ((W5_of m c main_v3 (by decide)).trans ((W4_of m c main_v3 (by decide)).trans ((W3_of m c main_v3 (by decide)).trans (W2_of m c main_v3 (by decide))))))))))))))
theorem W2_main_v25 (c : Dev nD) : W2 m c main_v25 = W1 m c main_v25 :=
  (W2_of m c main_v25 (by decide))
theorem W5_main_v25 (c : Dev nD) : W5 m c main_v25 = W1 m c main_v25 :=
  ((W5_of m c main_v25 (by decide)).trans ((W4_of m c main_v25 (by decide)).trans ((W3_of m c main_v25 (by decide)).trans (W2_of m c main_v25 (by decide)))))
theorem W8_main_v25 (c : Dev nD) : W8 m c main_v25 = W1 m c main_v25 :=
  ((W8_of m c main_v25 (by decide)).trans ((W7_of m c main_v25 (by decide)).trans ((W6_of m c main_v25 (by decide)).trans ((W5_of m c main_v25 (by decide)).trans ((W4_of m c main_v25 (by decide)).trans ((W3_of m c main_v25 (by decide)).trans (W2_of m c main_v25 (by decide))))))))
theorem W11_main_v25 (c : Dev nD) : W11 m c main_v25 = W1 m c main_v25 :=
  ((W11_of m c main_v25 (by decide)).trans ((W10_of m c main_v25 (by decide)).trans ((W9_of m c main_v25 (by decide)).trans ((W8_of m c main_v25 (by decide)).trans ((W7_of m c main_v25 (by decide)).trans ((W6_of m c main_v25 (by decide)).trans ((W5_of m c main_v25 (by decide)).trans ((W4_of m c main_v25 (by decide)).trans ((W3_of m c main_v25 (by decide)).trans (W2_of m c main_v25 (by decide)))))))))))
theorem W14_main_v25 (c : Dev nD) : W14 m c main_v25 = W1 m c main_v25 :=
  ((W14_of m c main_v25 (by decide)).trans ((W13_of m c main_v25 (by decide)).trans ((W12_of m c main_v25 (by decide)).trans ((W11_of m c main_v25 (by decide)).trans ((W10_of m c main_v25 (by decide)).trans ((W9_of m c main_v25 (by decide)).trans ((W8_of m c main_v25 (by decide)).trans ((W7_of m c main_v25 (by decide)).trans ((W6_of m c main_v25 (by decide)).trans ((W5_of m c main_v25 (by decide)).trans ((W4_of m c main_v25 (by decide)).trans ((W3_of m c main_v25 (by decide)).trans (W2_of m c main_v25 (by decide))))))))))))))
theorem W2_main_v26 (c : Dev nD) : W2 m c main_v26 = W1 m c main_v26 :=
  (W2_of m c main_v26 (by decide))
theorem W5_main_v26 (c : Dev nD) : W5 m c main_v26 = W1 m c main_v26 :=
  ((W5_of m c main_v26 (by decide)).trans ((W4_of m c main_v26 (by decide)).trans ((W3_of m c main_v26 (by decide)).trans (W2_of m c main_v26 (by decide)))))
theorem W8_main_v26 (c : Dev nD) : W8 m c main_v26 = W1 m c main_v26 :=
  ((W8_of m c main_v26 (by decide)).trans ((W7_of m c main_v26 (by decide)).trans ((W6_of m c main_v26 (by decide)).trans ((W5_of m c main_v26 (by decide)).trans ((W4_of m c main_v26 (by decide)).trans ((W3_of m c main_v26 (by decide)).trans (W2_of m c main_v26 (by decide))))))))
theorem W11_main_v26 (c : Dev nD) : W11 m c main_v26 = W1 m c main_v26 :=
  ((W11_of m c main_v26 (by decide)).trans ((W10_of m c main_v26 (by decide)).trans ((W9_of m c main_v26 (by decide)).trans ((W8_of m c main_v26 (by decide)).trans ((W7_of m c main_v26 (by decide)).trans ((W6_of m c main_v26 (by decide)).trans ((W5_of m c main_v26 (by decide)).trans ((W4_of m c main_v26 (by decide)).trans ((W3_of m c main_v26 (by decide)).trans (W2_of m c main_v26 (by decide)))))))))))
theorem W14_main_v26 (c : Dev nD) : W14 m c main_v26 = W1 m c main_v26 :=
  ((W14_of m c main_v26 (by decide)).trans ((W13_of m c main_v26 (by decide)).trans ((W12_of m c main_v26 (by decide)).trans ((W11_of m c main_v26 (by decide)).trans ((W10_of m c main_v26 (by decide)).trans ((W9_of m c main_v26 (by decide)).trans ((W8_of m c main_v26 (by decide)).trans ((W7_of m c main_v26 (by decide)).trans ((W6_of m c main_v26 (by decide)).trans ((W5_of m c main_v26 (by decide)).trans ((W4_of m c main_v26 (by decide)).trans ((W3_of m c main_v26 (by decide)).trans (W2_of m c main_v26 (by decide))))))))))))))

/-! ## The arguments, as launched -/
theorem W1_main_arg0 (c : Dev nD) : W1 m c main_arg0 = W0 m c main_arg0 :=
  (W1_of m c main_arg0 (by decide))
theorem W1_main_arg2 (c : Dev nD) : W1 m c main_arg2 = W0 m c main_arg2 :=
  (W1_of m c main_arg2 (by decide))
theorem W2_main_arg3 (c : Dev nD) : W2 m c main_arg3 = W0 m c main_arg3 :=
  ((W2_of m c main_arg3 (by decide)).trans (W1_of m c main_arg3 (by decide)))
theorem W4_main_arg4 (c : Dev nD) : W4 m c main_arg4 = W0 m c main_arg4 :=
  ((W4_of m c main_arg4 (by decide)).trans ((W3_of m c main_arg4 (by decide)).trans ((W2_of m c main_arg4 (by decide)).trans (W1_of m c main_arg4 (by decide)))))
theorem W5_main_arg5 (c : Dev nD) : W5 m c main_arg5 = W0 m c main_arg5 :=
  ((W5_of m c main_arg5 (by decide)).trans ((W4_of m c main_arg5 (by decide)).trans ((W3_of m c main_arg5 (by decide)).trans ((W2_of m c main_arg5 (by decide)).trans (W1_of m c main_arg5 (by decide))))))
theorem W7_main_arg6 (c : Dev nD) : W7 m c main_arg6 = W0 m c main_arg6 :=
  ((W7_of m c main_arg6 (by decide)).trans ((W6_of m c main_arg6 (by decide)).trans ((W5_of m c main_arg6 (by decide)).trans ((W4_of m c main_arg6 (by decide)).trans ((W3_of m c main_arg6 (by decide)).trans ((W2_of m c main_arg6 (by decide)).trans (W1_of m c main_arg6 (by decide))))))))
theorem W8_main_arg7 (c : Dev nD) : W8 m c main_arg7 = W0 m c main_arg7 :=
  ((W8_of m c main_arg7 (by decide)).trans ((W7_of m c main_arg7 (by decide)).trans ((W6_of m c main_arg7 (by decide)).trans ((W5_of m c main_arg7 (by decide)).trans ((W4_of m c main_arg7 (by decide)).trans ((W3_of m c main_arg7 (by decide)).trans ((W2_of m c main_arg7 (by decide)).trans (W1_of m c main_arg7 (by decide)))))))))
theorem W10_main_arg8 (c : Dev nD) : W10 m c main_arg8 = W0 m c main_arg8 :=
  ((W10_of m c main_arg8 (by decide)).trans ((W9_of m c main_arg8 (by decide)).trans ((W8_of m c main_arg8 (by decide)).trans ((W7_of m c main_arg8 (by decide)).trans ((W6_of m c main_arg8 (by decide)).trans ((W5_of m c main_arg8 (by decide)).trans ((W4_of m c main_arg8 (by decide)).trans ((W3_of m c main_arg8 (by decide)).trans ((W2_of m c main_arg8 (by decide)).trans (W1_of m c main_arg8 (by decide)))))))))))
theorem W11_main_arg9 (c : Dev nD) : W11 m c main_arg9 = W0 m c main_arg9 :=
  ((W11_of m c main_arg9 (by decide)).trans ((W10_of m c main_arg9 (by decide)).trans ((W9_of m c main_arg9 (by decide)).trans ((W8_of m c main_arg9 (by decide)).trans ((W7_of m c main_arg9 (by decide)).trans ((W6_of m c main_arg9 (by decide)).trans ((W5_of m c main_arg9 (by decide)).trans ((W4_of m c main_arg9 (by decide)).trans ((W3_of m c main_arg9 (by decide)).trans ((W2_of m c main_arg9 (by decide)).trans (W1_of m c main_arg9 (by decide))))))))))))
theorem W13_main_arg10 (c : Dev nD) : W13 m c main_arg10 = W0 m c main_arg10 :=
  ((W13_of m c main_arg10 (by decide)).trans ((W12_of m c main_arg10 (by decide)).trans ((W11_of m c main_arg10 (by decide)).trans ((W10_of m c main_arg10 (by decide)).trans ((W9_of m c main_arg10 (by decide)).trans ((W8_of m c main_arg10 (by decide)).trans ((W7_of m c main_arg10 (by decide)).trans ((W6_of m c main_arg10 (by decide)).trans ((W5_of m c main_arg10 (by decide)).trans ((W4_of m c main_arg10 (by decide)).trans ((W3_of m c main_arg10 (by decide)).trans ((W2_of m c main_arg10 (by decide)).trans (W1_of m c main_arg10 (by decide))))))))))))))
theorem W14_main_arg11 (c : Dev nD) : W14 m c main_arg11 = W0 m c main_arg11 :=
  ((W14_of m c main_arg11 (by decide)).trans ((W13_of m c main_arg11 (by decide)).trans ((W12_of m c main_arg11 (by decide)).trans ((W11_of m c main_arg11 (by decide)).trans ((W10_of m c main_arg11 (by decide)).trans ((W9_of m c main_arg11 (by decide)).trans ((W8_of m c main_arg11 (by decide)).trans ((W7_of m c main_arg11 (by decide)).trans ((W6_of m c main_arg11 (by decide)).trans ((W5_of m c main_arg11 (by decide)).trans ((W4_of m c main_arg11 (by decide)).trans ((W3_of m c main_arg11 (by decide)).trans ((W2_of m c main_arg11 (by decide)).trans (W1_of m c main_arg11 (by decide)))))))))))))))

/-! ## Layer outputs read later -/
theorem W13_main_v70 (c : Dev nD) : W13 m c main_v70 = W7 m c main_v70 :=
  ((W13_of m c main_v70 (by decide)).trans ((W12_of m c main_v70 (by decide)).trans ((W11_of m c main_v70 (by decide)).trans ((W10_of m c main_v70 (by decide)).trans ((W9_of m c main_v70 (by decide)).trans (W8_of m c main_v70 (by decide)))))))
theorem W17_main_v114 (c : Dev nD) : W17 m c main_v114 = W13 m c main_v114 :=
  ((W17_of m c main_v114 (by decide)).trans ((W16_of m c main_v114 (by decide)).trans ((W15_of m c main_v114 (by decide)).trans (W14_of m c main_v114 (by decide)))))

end Cert.KernelIdeal.Hand

end
-- ==== Proof.KiStage0.lean ====
import proofs.«147610_j32590211842242_1_alg».proof.Proof.Gen.KernelIdeal.Launch
import proofs.«147610_j32590211842242_1_alg».proof.Proof.Gen.ReferenceIdeal.Read
import Idealize.ShloMosaic.Lib.StableHlo.Run

/-!
# The first stretch of host operations

From the edge list (argument 1) the first stretch computes the source and destination node of each edge, the degree of
each node (one plus the number of edges arriving at it), its inverse square root, the weight of each edge (the product
of the inverse square roots at its two ends) and the weight of each node's self-loop (the square of its own). The
reference computes the same values by the same operations; they are named here by the reference's stage functions.
-/

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

variable (V : Valuation τ sig (Elt F))
  (a0 : (⟨S16384x256, .f32⟩ : BufTy).Contents (Elt F)) (a1 : (⟨S2x524288, .i32⟩ : BufTy).Contents (Elt F))
  (a2 : (⟨S256x128, .f32⟩ : BufTy).Contents (Elt F)) (a3 : (⟨S128, .f32⟩ : BufTy).Contents (Elt F))
  (a4 : (⟨S128x128, .f32⟩ : BufTy).Contents (Elt F)) (a5 : (⟨S128, .f32⟩ : BufTy).Contents (Elt F))
  (a6 : (⟨S128x128, .f32⟩ : BufTy).Contents (Elt F)) (a7 : (⟨S128, .f32⟩ : BufTy).Contents (Elt F))
  (a8 : (⟨S128x256, .f32⟩ : BufTy).Contents (Elt F)) (a9 : (⟨S256, .f32⟩ : BufTy).Contents (Elt F))
  (a10 : (⟨S128x128, .f32⟩ : BufTy).Contents (Elt F)) (a11 : (⟨S128, .f32⟩ : BufTy).Contents (Elt F))

set_option maxHeartbeats 4000000 in
theorem stage0_main_v1 (h : V (Proc.devRef .tc main_arg1) = a1) :
    StableHlo.after hostOps0 V (Proc.devRef .tc main_v1) = Cert.ReferenceIdeal.Read.val_main_v1 (F := F) a1 := by
  after_results
  rw [h]
  rfl

set_option maxHeartbeats 4000000 in
theorem stage0_main_v3 (h : V (Proc.devRef .tc main_arg1) = a1) :
    StableHlo.after hostOps0 V (Proc.devRef .tc main_v3) = Cert.ReferenceIdeal.Read.val_main_v3 (F := F) a1 := by
  after_results
  rw [h]
  rfl

set_option maxHeartbeats 4000000 in
theorem stage0_main_v25 (h : V (Proc.devRef .tc main_arg1) = a1) :
    StableHlo.after hostOps0 V (Proc.devRef .tc main_v25) = Cert.ReferenceIdeal.Read.val_main_v25 (F := F) a1 := by
  after_results
  rw [h]
  rfl

set_option maxHeartbeats 4000000 in
theorem stage0_main_v26 (h : V (Proc.devRef .tc main_arg1) = a1) :
    StableHlo.after hostOps0 V (Proc.devRef .tc main_v26) = Cert.ReferenceIdeal.Read.val_main_v26 (F := F) a1 := by
  after_results
  rw [h]
  rfl

end Cert.KernelIdeal.Hand

end
-- ==== Proof.KiLayer1.lean ====
import proofs.«147610_j32590211842242_1_alg».proof.Proof.Gen.KernelIdeal.Launch
import proofs.«147610_j32590211842242_1_alg».proof.Proof.Gen.ReferenceIdeal.Read
import Idealize.ShloMosaic.Lib.StableHlo.Run

/-!
# Layer 1: from the projected features to the layer's output

Given the projected features h (the matrix product before this stretch), the stretch gathers h at each edge's source,
scales the row by the edge's weight, sums the rows arriving at each node, adds h scaled by the node's self-loop weight
and the bias, and takes the positive part. The reference does the same by the same operations: if the buffers the
stretch reads hold the reference's stage values, so does the buffer it ends by writing.
-/

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

variable (V : Valuation τ sig (Elt F))
  (a0 : (⟨S16384x256, .f32⟩ : BufTy).Contents (Elt F)) (a1 : (⟨S2x524288, .i32⟩ : BufTy).Contents (Elt F))
  (a2 : (⟨S256x128, .f32⟩ : BufTy).Contents (Elt F)) (a3 : (⟨S128, .f32⟩ : BufTy).Contents (Elt F))
  (a4 : (⟨S128x128, .f32⟩ : BufTy).Contents (Elt F)) (a5 : (⟨S128, .f32⟩ : BufTy).Contents (Elt F))
  (a6 : (⟨S128x128, .f32⟩ : BufTy).Contents (Elt F)) (a7 : (⟨S128, .f32⟩ : BufTy).Contents (Elt F))
  (a8 : (⟨S128x256, .f32⟩ : BufTy).Contents (Elt F)) (a9 : (⟨S256, .f32⟩ : BufTy).Contents (Elt F))
  (a10 : (⟨S128x128, .f32⟩ : BufTy).Contents (Elt F)) (a11 : (⟨S128, .f32⟩ : BufTy).Contents (Elt F))

set_option maxHeartbeats 4000000 in
theorem layer1
    (hin : V (Proc.devRef .tc main_v27) = Cert.ReferenceIdeal.Read.val_main_v27 (F := F) a0 a2)
    (h1 : V (Proc.devRef .tc main_v1) = Cert.ReferenceIdeal.Read.val_main_v1 (F := F) a1)
    (h3 : V (Proc.devRef .tc main_v3) = Cert.ReferenceIdeal.Read.val_main_v3 (F := F) a1)
    (h25 : V (Proc.devRef .tc main_v25) = Cert.ReferenceIdeal.Read.val_main_v25 (F := F) a1)
    (h26 : V (Proc.devRef .tc main_v26) = Cert.ReferenceIdeal.Read.val_main_v26 (F := F) a1)
    (hb : V (Proc.devRef .tc main_arg3) = a3) :
    StableHlo.after hostOps1_1 (StableHlo.after hostOps1 V) (Proc.devRef .tc main_v48) = Cert.ReferenceIdeal.Read.val_main_v48 (F := F) a0 a1 a2 a3 := by
  after_results
  rw [hin, h1, h3, h25, h26, hb]
  rfl

end Cert.KernelIdeal.Hand

end
-- ==== Proof.KiLayer2.lean ====
import proofs.«147610_j32590211842242_1_alg».proof.Proof.Gen.KernelIdeal.Launch
import proofs.«147610_j32590211842242_1_alg».proof.Proof.Gen.ReferenceIdeal.Read
import Idealize.ShloMosaic.Lib.StableHlo.Run

/-!
# Layer 2: from the projected features to the layer's output

Given the projected features h (the matrix product before this stretch), the stretch gathers h at each edge's source,
scales the row by the edge's weight, sums the rows arriving at each node, adds h scaled by the node's self-loop weight
and the bias, and takes the positive part. The reference does the same by the same operations: if the buffers the
stretch reads hold the reference's stage values, so does the buffer it ends by writing.
-/

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

variable (V : Valuation τ sig (Elt F))
  (a0 : (⟨S16384x256, .f32⟩ : BufTy).Contents (Elt F)) (a1 : (⟨S2x524288, .i32⟩ : BufTy).Contents (Elt F))
  (a2 : (⟨S256x128, .f32⟩ : BufTy).Contents (Elt F)) (a3 : (⟨S128, .f32⟩ : BufTy).Contents (Elt F))
  (a4 : (⟨S128x128, .f32⟩ : BufTy).Contents (Elt F)) (a5 : (⟨S128, .f32⟩ : BufTy).Contents (Elt F))
  (a6 : (⟨S128x128, .f32⟩ : BufTy).Contents (Elt F)) (a7 : (⟨S128, .f32⟩ : BufTy).Contents (Elt F))
  (a8 : (⟨S128x256, .f32⟩ : BufTy).Contents (Elt F)) (a9 : (⟨S256, .f32⟩ : BufTy).Contents (Elt F))
  (a10 : (⟨S128x128, .f32⟩ : BufTy).Contents (Elt F)) (a11 : (⟨S128, .f32⟩ : BufTy).Contents (Elt F))

set_option maxHeartbeats 4000000 in
theorem layer2
    (hin : V (Proc.devRef .tc main_v49) = Cert.ReferenceIdeal.Read.val_main_v49 (F := F) a0 a1 a2 a3 a4)
    (h1 : V (Proc.devRef .tc main_v1) = Cert.ReferenceIdeal.Read.val_main_v1 (F := F) a1)
    (h3 : V (Proc.devRef .tc main_v3) = Cert.ReferenceIdeal.Read.val_main_v3 (F := F) a1)
    (h25 : V (Proc.devRef .tc main_v25) = Cert.ReferenceIdeal.Read.val_main_v25 (F := F) a1)
    (h26 : V (Proc.devRef .tc main_v26) = Cert.ReferenceIdeal.Read.val_main_v26 (F := F) a1)
    (hb : V (Proc.devRef .tc main_arg5) = a5) :
    StableHlo.after hostOps2_1 (StableHlo.after hostOps2 V) (Proc.devRef .tc main_v70) = Cert.ReferenceIdeal.Read.val_main_v70 (F := F) a0 a1 a2 a3 a4 a5 := by
  after_results
  rw [hin, h1, h3, h25, h26, hb]
  rfl

end Cert.KernelIdeal.Hand

end
-- ==== Proof.KiLayer3.lean ====
import proofs.«147610_j32590211842242_1_alg».proof.Proof.Gen.KernelIdeal.Launch
import proofs.«147610_j32590211842242_1_alg».proof.Proof.Gen.ReferenceIdeal.Read
import Idealize.ShloMosaic.Lib.StableHlo.Run

/-!
# Layer 3: from the projected features to the layer's output

Given the projected features h (the matrix product before this stretch), the stretch gathers h at each edge's source,
scales the row by the edge's weight, sums the rows arriving at each node, adds h scaled by the node's self-loop weight
and the bias, and takes the positive part. The reference does the same by the same operations: if the buffers the
stretch reads hold the reference's stage values, so does the buffer it ends by writing.
-/

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

variable (V : Valuation τ sig (Elt F))
  (a0 : (⟨S16384x256, .f32⟩ : BufTy).Contents (Elt F)) (a1 : (⟨S2x524288, .i32⟩ : BufTy).Contents (Elt F))
  (a2 : (⟨S256x128, .f32⟩ : BufTy).Contents (Elt F)) (a3 : (⟨S128, .f32⟩ : BufTy).Contents (Elt F))
  (a4 : (⟨S128x128, .f32⟩ : BufTy).Contents (Elt F)) (a5 : (⟨S128, .f32⟩ : BufTy).Contents (Elt F))
  (a6 : (⟨S128x128, .f32⟩ : BufTy).Contents (Elt F)) (a7 : (⟨S128, .f32⟩ : BufTy).Contents (Elt F))
  (a8 : (⟨S128x256, .f32⟩ : BufTy).Contents (Elt F)) (a9 : (⟨S256, .f32⟩ : BufTy).Contents (Elt F))
  (a10 : (⟨S128x128, .f32⟩ : BufTy).Contents (Elt F)) (a11 : (⟨S128, .f32⟩ : BufTy).Contents (Elt F))

set_option maxHeartbeats 4000000 in
theorem layer3
    (hin : V (Proc.devRef .tc main_v71) = Cert.ReferenceIdeal.Read.val_main_v71 (F := F) a0 a1 a2 a3 a4 a5 a6)
    (h1 : V (Proc.devRef .tc main_v1) = Cert.ReferenceIdeal.Read.val_main_v1 (F := F) a1)
    (h3 : V (Proc.devRef .tc main_v3) = Cert.ReferenceIdeal.Read.val_main_v3 (F := F) a1)
    (h25 : V (Proc.devRef .tc main_v25) = Cert.ReferenceIdeal.Read.val_main_v25 (F := F) a1)
    (h26 : V (Proc.devRef .tc main_v26) = Cert.ReferenceIdeal.Read.val_main_v26 (F := F) a1)
    (hb : V (Proc.devRef .tc main_arg7) = a7) :
    StableHlo.after hostOps3_1 (StableHlo.after hostOps3 V) (Proc.devRef .tc main_v92) = Cert.ReferenceIdeal.Read.val_main_v92 (F := F) a0 a1 a2 a3 a4 a5 a6 a7 := by
  after_results
  rw [hin, h1, h3, h25, h26, hb]
  rfl

end Cert.KernelIdeal.Hand

end
-- ==== Proof.KiLayer4.lean ====
import proofs.«147610_j32590211842242_1_alg».proof.Proof.Gen.KernelIdeal.Launch
import proofs.«147610_j32590211842242_1_alg».proof.Proof.Gen.ReferenceIdeal.Read
import Idealize.ShloMosaic.Lib.StableHlo.Run

/-!
# Layer 4: from the projected features to the layer's output

Given the projected features h (the matrix product before this stretch), the stretch gathers h at each edge's source,
scales the row by the edge's weight, sums the rows arriving at each node, adds h scaled by the node's self-loop weight
and the bias, and takes the positive part. The reference does the same by the same operations: if the buffers the
stretch reads hold the reference's stage values, so does the buffer it ends by writing.
-/

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

variable (V : Valuation τ sig (Elt F))
  (a0 : (⟨S16384x256, .f32⟩ : BufTy).Contents (Elt F)) (a1 : (⟨S2x524288, .i32⟩ : BufTy).Contents (Elt F))
  (a2 : (⟨S256x128, .f32⟩ : BufTy).Contents (Elt F)) (a3 : (⟨S128, .f32⟩ : BufTy).Contents (Elt F))
  (a4 : (⟨S128x128, .f32⟩ : BufTy).Contents (Elt F)) (a5 : (⟨S128, .f32⟩ : BufTy).Contents (Elt F))
  (a6 : (⟨S128x128, .f32⟩ : BufTy).Contents (Elt F)) (a7 : (⟨S128, .f32⟩ : BufTy).Contents (Elt F))
  (a8 : (⟨S128x256, .f32⟩ : BufTy).Contents (Elt F)) (a9 : (⟨S256, .f32⟩ : BufTy).Contents (Elt F))
  (a10 : (⟨S128x128, .f32⟩ : BufTy).Contents (Elt F)) (a11 : (⟨S128, .f32⟩ : BufTy).Contents (Elt F))

set_option maxHeartbeats 4000000 in
theorem layer4
    (hin : V (Proc.devRef .tc main_v93) = Cert.ReferenceIdeal.Read.val_main_v93 (F := F) a0 a1 a2 a3 a4 a5 a6 a7 a8)
    (h1 : V (Proc.devRef .tc main_v1) = Cert.ReferenceIdeal.Read.val_main_v1 (F := F) a1)
    (h3 : V (Proc.devRef .tc main_v3) = Cert.ReferenceIdeal.Read.val_main_v3 (F := F) a1)
    (h25 : V (Proc.devRef .tc main_v25) = Cert.ReferenceIdeal.Read.val_main_v25 (F := F) a1)
    (h26 : V (Proc.devRef .tc main_v26) = Cert.ReferenceIdeal.Read.val_main_v26 (F := F) a1)
    (hb : V (Proc.devRef .tc main_arg9) = a9) :
    StableHlo.after hostOps4_1 (StableHlo.after hostOps4 V) (Proc.devRef .tc main_v114) = Cert.ReferenceIdeal.Read.val_main_v114 (F := F) a0 a1 a2 a3 a4 a5 a6 a7 a8 a9 := by
  after_results
  rw [hin, h1, h3, h25, h26, hb]
  rfl

end Cert.KernelIdeal.Hand

end
-- ==== Proof.KiLayer5.lean ====
import proofs.«147610_j32590211842242_1_alg».proof.Proof.Gen.KernelIdeal.Launch
import proofs.«147610_j32590211842242_1_alg».proof.Proof.Gen.ReferenceIdeal.Read
import Idealize.ShloMosaic.Lib.StableHlo.Run

/-!
# Layer 5: from the projected features to the layer's output

Given the projected features h (the matrix product before this stretch), the stretch gathers h at each edge's source,
scales the row by the edge's weight, sums the rows arriving at each node, adds h scaled by the node's self-loop weight
and the bias, and takes the positive part. The reference does the same by the same operations: if the buffers the
stretch reads hold the reference's stage values, so does the buffer it ends by writing.
-/

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

variable (V : Valuation τ sig (Elt F))
  (a0 : (⟨S16384x256, .f32⟩ : BufTy).Contents (Elt F)) (a1 : (⟨S2x524288, .i32⟩ : BufTy).Contents (Elt F))
  (a2 : (⟨S256x128, .f32⟩ : BufTy).Contents (Elt F)) (a3 : (⟨S128, .f32⟩ : BufTy).Contents (Elt F))
  (a4 : (⟨S128x128, .f32⟩ : BufTy).Contents (Elt F)) (a5 : (⟨S128, .f32⟩ : BufTy).Contents (Elt F))
  (a6 : (⟨S128x128, .f32⟩ : BufTy).Contents (Elt F)) (a7 : (⟨S128, .f32⟩ : BufTy).Contents (Elt F))
  (a8 : (⟨S128x256, .f32⟩ : BufTy).Contents (Elt F)) (a9 : (⟨S256, .f32⟩ : BufTy).Contents (Elt F))
  (a10 : (⟨S128x128, .f32⟩ : BufTy).Contents (Elt F)) (a11 : (⟨S128, .f32⟩ : BufTy).Contents (Elt F))

set_option maxHeartbeats 4000000 in
theorem layer5
    (hin : V (Proc.devRef .tc main_v115) = Cert.ReferenceIdeal.Read.val_main_v115 (F := F) a0 a1 a2 a3 a4 a5 a10)
    (h1 : V (Proc.devRef .tc main_v1) = Cert.ReferenceIdeal.Read.val_main_v1 (F := F) a1)
    (h3 : V (Proc.devRef .tc main_v3) = Cert.ReferenceIdeal.Read.val_main_v3 (F := F) a1)
    (h25 : V (Proc.devRef .tc main_v25) = Cert.ReferenceIdeal.Read.val_main_v25 (F := F) a1)
    (h26 : V (Proc.devRef .tc main_v26) = Cert.ReferenceIdeal.Read.val_main_v26 (F := F) a1)
    (hb : V (Proc.devRef .tc main_arg11) = a11) :
    StableHlo.after hostOps5_1 (StableHlo.after hostOps5 V) (Proc.devRef .tc main_v136) = Cert.ReferenceIdeal.Read.val_main_v136 (F := F) a0 a1 a2 a3 a4 a5 a10 a11 := by
  after_results
  rw [hin, h1, h3, h25, h26, hb]
  rfl

end Cert.KernelIdeal.Hand

end
-- ==== Proof.LibPlainDot.lean ====
/-
  The plain product of an m×k by a k×n matrix, read at an index as a sum over the contracted coordinate, for ANY record
  with the plain dimension numbers (contract axis 1 of the left with axis 0 of the right, no batch axis) — both the host's
  `dot_general` and the matrix unit's product into a zero accumulator. At the ideal values.
-/
import Idealize.ShloMosaic.Lib.ValueIdx
import Idealize.ShloMosaic.PureOps.Ideal.Laws

namespace Cert.LibPlainDot

open Idealize.ShloMosaic Idealize.ShloMosaic.ValueIdx

variable {m k n : ℕ} {φ₁ φ₂ : FTy}

/-- The left operand's index at output (a, b) and contraction coordinate c is (a, c); the right operand's is (c, b). -/
theorem idx_apply (w : DotDims.WF ⟨2, ![m, k]⟩ ⟨2, ![k, n]⟩ ⟨2, ![m, n]⟩ [1] [0] [0] [1] [] []) (a : Fin m) (b : Fin n) (c : Fin k) :
    (⟨[1], [0], [0], [1], [], [], w⟩ : DotDims ⟨2, ![m, k]⟩ ⟨2, ![k, n]⟩ ⟨2, ![m, n]⟩).lhsIdx (ix2 a b)
        ((contrEquiv1 (⟨[1], [0], [0], [1], [], [], w⟩ : DotDims ⟨2, ![m, k]⟩ ⟨2, ![k, n]⟩ ⟨2, ![m, n]⟩) k rfl rfl).symm c) = ix2 a c
    ∧ (⟨[1], [0], [0], [1], [], [], w⟩ : DotDims ⟨2, ![m, k]⟩ ⟨2, ![k, n]⟩ ⟨2, ![m, n]⟩).rhsIdx (ix2 a b)
        ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; exact c2
    | ⟨1, _⟩ => simp [DotDims.rhsIdx]; rfl

/-- The host's product at (a, b) is the sum over c of A[a,c] · B[c,b]. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b) = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  rw [(idx_apply w a b c).1, (idx_apply w a b c).2]

/-- The matrix unit's product into the zero accumulator at (a, b) is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  rw [(idx_apply w a b c).1, (idx_apply w a b c).2]

end Cert.LibPlainDot
-- ==== Proof.KiValue.lean ====
import proofs.«147610_j32590211842242_1_alg».proof.Proof.KiData
import Idealize.ShloMosaic.Lib.Pipeline.Value
import Idealize.ShloMosaic.Lib.ValueIdx
import Idealize.ShloMosaic.PureOps.Ideal.Laws
import proofs.«147610_j32590211842242_1_alg».proof.Proof.LibPlainDot

/-!
# The value of each matrix product's result array, at the ideal floats

At the ideal instance a float is an extended real, a change of float format is the identity, and the matrix unit's
product into a zero accumulator is the exact sum over the contracted coordinate. Each region's result array is then
the matrix product of the two arrays its input windows read: entry (a, b) is the sum over k of left (a, k) times
right (k, b). The proof reads one grid point's block as a block of that whole-array function, and then observes that
the points' blocks cover the result array.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The zero offsets of a whole-buffer rectangle. -/
theorem offsets_zero : (![0, 0] : Fin 2 → Nat) = fun _ => 0 := funext fun a => by fin_cases a <;> rfl

/-- The product of an m×k by a k×n array of extended reals, entry by entry. -/
def matProd {m k n : ℕ} (A : (⟨2, ![m, k]⟩ : Shape).Idx → EReal) (B : (⟨2, ![k, n]⟩ : Shape).Idx → EReal) :
    (⟨2, ![m, n]⟩ : Shape).Idx → EReal := fun i => ∑ c : Fin k, A (ix2 (i 0) c) * B (ix2 c (i 1))

theorem matProd_apply {m k n : ℕ} (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- Multiplication of two buffer entries as extended reals (a buffer's entry type unfolds to the extended reals). -/
local notation:70 x:70 " *ₑ " y:71 => @HMul.hMul EReal EReal EReal (@instHMul EReal _) x y

/-! ## Region 0 -/

/-- The body's product of two blocks at an entry: the formats' changes are the identity, the product into the
    zero accumulator is the sum over the contracted coordinate. -/
theorem pay0_apply (x0 : Vec Ideal S2048x256 .f32) (x1 : Vec Ideal S256x128 .f32) (a : Fin 2048) (b : Fin 128) :
    k0_pay1 x0 x1 (ix2 a b) = ∑ k : Fin 256, x0 (ix2 a k) * x1 (ix2 k b) := by
  unfold k0_pay1
  exact Cert.LibPlainDot.matmul_zero_apply _ _ _ _ a b

/-- The whole result array: the product of the two arrays the input windows read. -/
def prod0 (c : Dev nD) : S16384x128.Idx → EReal :=
  matProd (m := 16384) (k := 256) (n := 128) (V c main_arg0) (V c main_arg2)

/-- The printed index maps over the grid: the left window and the result window sit at block row t, the weight
    window at block 0. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product. -/
theorem flushed0_eq (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  unfold out0_2
  rw [View.canon_unit_zero offsets_zero]
  simp only [View.ld_unit_zero (S := S2048x256) offsets_zero, View.ld_unit_zero (S := S256x128) offsets_zero]
  obtain ⟨e00, e01, e10, e11, e20, e21⟩ := index0 t
  funext j
  obtain ⟨p, q, rfl⟩ : ∃ (p : Fin 2048) (q : Fin 128), j = ix2 p q := ⟨j 0, j 1, eq_ix2 j⟩
  refine (pay0_apply _ _ p q).trans ?_
  rw [View.read_apply]
  unfold prod0 matProd
  refine Finset.sum_congr rfl fun k _ => ?_
  have h0 : ((cfg0.win 0).blk t).view.emb (ix2 p k) = ix2 (((cfg0.win 2).blk t).view.emb (ix2 p q) 0) k := by
    funext a; apply Fin.ext
    match a with
    | ⟨0, _⟩ => show win0_0.index t (0 : Fin 2) * 2048 + 1 * p.val = win0_2.index t (0 : Fin 2) * 2048 + 1 * p.val; omega
    | ⟨1, _⟩ => show win0_0.index t (1 : Fin 2) * 256 + 1 * k.val = k.val; omega
  have h1 : ((cfg0.win 1).blk t).view.emb (ix2 k q) = ix2 k (((cfg0.win 2).blk t).view.emb (ix2 p q) 1) := by
    funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  exact congrArg₂ (· * ·) (congrArg (V c main_arg0) h0) (congrArg (V c main_arg2) h1)

/-- An index of the result array is in point t's block iff each coordinate is in the block's range on its axis. -/
theorem mem_blk0 (t : Fin cfg0.N) (i : S16384x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v27).slice (win0_2.rect t)).set ↔ _
  rw [View.set_slice_whole, Rect.mem_set_unit]
  exact Iff.rfl

/-- The blocks cover the result array: row r lies in the block of point r / 2048. -/
theorem cover0 (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  have hN : cfg0.N = 8 := N_0
  obtain ⟨t, ht⟩ : ∃ t : Fin cfg0.N, t.val = (i 0).val / 2048 := ⟨⟨(i 0).val / 2048, by rw [hN]; omega⟩, rfl⟩
  obtain ⟨e00, e01, e10, e11, e20, e21⟩ := index0 t
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 128 ≤ (i 1).val ∧ (i 1).val < win0_2.index t (1 : Fin 2) * 128 + 128; omega

/-- The result array of region 0 is the product of the two arrays its input windows read. -/
theorem arr0_eq (c : Dev nD) : (dat0 V c).arrAt 2 cfg0.N = prod0 V c :=
  (dat0 V c).arrAt_eq_of_cover 2 (prod0 V c) (fun t _ => flushed0_eq V c t) cover0

/-- Entry (a, b) of region 0's result. -/
theorem arr0_apply (c : Dev nD) (a : Fin 16384) (b : Fin 128) :
    (dat0 V c).arrAt 2 cfg0.N (ix2 a b) = ∑ k : Fin 256, V c main_arg0 (ix2 a k) *ₑ V c main_arg2 (ix2 k b) := by
  rw [arr0_eq]
  rfl

/-! ## Region 1 -/

/-- The body's product of two blocks at an entry: the formats' changes and the cast to the same shape are the identity, the product into the
    zero accumulator is the sum over the contracted coordinate. -/
theorem pay1_apply (x0 : Vec Ideal S2048x128 .f32) (x1 : Vec Ideal S128x128 .f32) (a : Fin 2048) (b : Fin 128) :
    k1_pay1 x0 x1 (ix2 a b) = ∑ k : Fin 128, x0 (ix2 a k) * x1 (ix2 k b) := by
  unfold k1_pay1
  simp only [shapeCast_self]
  exact Cert.LibPlainDot.matmul_zero_apply _ _ _ _ a b

/-- The whole result array: the product of the two arrays the input windows read. -/
def prod1 (c : Dev nD) : S16384x128.Idx → EReal :=
  matProd (m := 16384) (k := 128) (n := 128) (V c main_v48) (V c main_arg4)

/-- The printed index maps over the grid: the left window and the result window sit at block row t, the weight
    window at block 0. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product. -/
theorem flushed1_eq (c : Dev nD) (t : Fin cfg1.N) :
    (dat1 V c).flushed 2 t = ((cfg1.win 2).blk t).view.read (Elt Ideal) (prod1 V c) := by
  show (cfg1.win 2).cut (grid1.coords t) ((dat1 V c).after 2 t) = _
  rw [after1_2]
  unfold out1_2
  rw [View.canon_unit_zero offsets_zero]
  simp only [View.ld_unit_zero (S := S2048x128) offsets_zero, View.ld_unit_zero (S := S128x128) offsets_zero]
  obtain ⟨e00, e01, e10, e11, e20, e21⟩ := index1 t
  funext j
  obtain ⟨p, q, rfl⟩ : ∃ (p : Fin 2048) (q : Fin 128), j = ix2 p q := ⟨j 0, j 1, eq_ix2 j⟩
  refine (pay1_apply _ _ p q).trans ?_
  rw [View.read_apply]
  unfold prod1 matProd
  refine Finset.sum_congr rfl fun k _ => ?_
  have h0 : ((cfg1.win 0).blk t).view.emb (ix2 p k) = ix2 (((cfg1.win 2).blk t).view.emb (ix2 p q) 0) k := by
    funext a; apply Fin.ext
    match a with
    | ⟨0, _⟩ => show win1_0.index t (0 : Fin 2) * 2048 + 1 * p.val = win1_2.index t (0 : Fin 2) * 2048 + 1 * p.val; omega
    | ⟨1, _⟩ => show win1_0.index t (1 : Fin 2) * 128 + 1 * k.val = k.val; omega
  have h1 : ((cfg1.win 1).blk t).view.emb (ix2 k q) = ix2 k (((cfg1.win 2).blk t).view.emb (ix2 p q) 1) := by
    funext a; apply Fin.ext
    match a with
    | ⟨0, _⟩ => show win1_1.index t (0 : Fin 2) * 128 + 1 * k.val = k.val; omega
    | ⟨1, _⟩ => show win1_1.index t (1 : Fin 2) * 128 + 1 * q.val = win1_2.index t (1 : Fin 2) * 128 + 1 * q.val; omega
  exact congrArg₂ (· * ·) (congrArg (V c main_v48) h0) (congrArg (V c main_arg4) h1)

/-- An index of the result array is in point t's block iff each coordinate is in the block's range on its axis. -/
theorem mem_blk1 (t : Fin cfg1.N) (i : S16384x128.Idx) :
    i ∈ ((cfg1.win 2).blk t).view.set ↔ ∀ a : Fin 2, win1_2.index t a * S2048x128.size a ≤ (i a).val ∧ (i a).val < win1_2.index t a * S2048x128.size a + S2048x128.size a := by
  show i ∈ ((View.whole main_v49).slice (win1_2.rect t)).set ↔ _
  rw [View.set_slice_whole, Rect.mem_set_unit]
  exact Iff.rfl

/-- The blocks cover the result array: row r lies in the block of point r / 2048. -/
theorem cover1 (i : S16384x128.Idx) :
    ∃ t : Fin cfg1.N, (cfg1.win 2).flush t = true ∧ i ∈ ((cfg1.win 2).blk t).view.set := by
  have hi0 : (i 0).val < 16384 := (i 0).isLt
  have hi1 : (i 1).val < 128 := (i 1).isLt
  have hN : cfg1.N = 8 := N_1
  obtain ⟨t, ht⟩ : ∃ t : Fin cfg1.N, t.val = (i 0).val / 2048 := ⟨⟨(i 0).val / 2048, by rw [hN]; omega⟩, rfl⟩
  obtain ⟨e00, e01, e10, e11, e20, e21⟩ := index1 t
  refine ⟨t, flush1_2 t, ?_⟩
  rw [mem_blk1]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 128 ≤ (i 1).val ∧ (i 1).val < win1_2.index t (1 : Fin 2) * 128 + 128; omega

/-- The result array of region 1 is the product of the two arrays its input windows read. -/
theorem arr1_eq (c : Dev nD) : (dat1 V c).arrAt 2 cfg1.N = prod1 V c :=
  (dat1 V c).arrAt_eq_of_cover 2 (prod1 V c) (fun t _ => flushed1_eq V c t) cover1

/-- Entry (a, b) of region 1's result. -/
theorem arr1_apply (c : Dev nD) (a : Fin 16384) (b : Fin 128) :
    (dat1 V c).arrAt 2 cfg1.N (ix2 a b) = ∑ k : Fin 128, V c main_v48 (ix2 a k) *ₑ V c main_arg4 (ix2 k b) := by
  rw [arr1_eq]
  rfl

/-! ## Region 2 -/

/-- The body's product of two blocks at an entry: the formats' changes and the cast to the same shape are the identity, the product into the
    zero accumulator is the sum over the contracted coordinate. -/
theorem pay2_apply (x0 : Vec Ideal S2048x128 .f32) (x1 : Vec Ideal S128x128 .f32) (a : Fin 2048) (b : Fin 128) :
    k2_pay1 x0 x1 (ix2 a b) = ∑ k : Fin 128, x0 (ix2 a k) * x1 (ix2 k b) := by
  unfold k2_pay1
  simp only [shapeCast_self]
  exact Cert.LibPlainDot.matmul_zero_apply _ _ _ _ a b

/-- The whole result array: the product of the two arrays the input windows read. -/
def prod2 (c : Dev nD) : S16384x128.Idx → EReal :=
  matProd (m := 16384) (k := 128) (n := 128) (V c main_v70) (V c main_arg6)

/-- The printed index maps over the grid: the left window and the result window sit at block row t, the weight
    window at block 0. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product. -/
theorem flushed2_eq (c : Dev nD) (t : Fin cfg2.N) :
    (dat2 V c).flushed 2 t = ((cfg2.win 2).blk t).view.read (Elt Ideal) (prod2 V c) := by
  show (cfg2.win 2).cut (grid2.coords t) ((dat2 V c).after 2 t) = _
  rw [after2_2]
  unfold out2_2
  rw [View.canon_unit_zero offsets_zero]
  simp only [View.ld_unit_zero (S := S2048x128) offsets_zero, View.ld_unit_zero (S := S128x128) offsets_zero]
  obtain ⟨e00, e01, e10, e11, e20, e21⟩ := index2 t
  funext j
  obtain ⟨p, q, rfl⟩ : ∃ (p : Fin 2048) (q : Fin 128), j = ix2 p q := ⟨j 0, j 1, eq_ix2 j⟩
  refine (pay2_apply _ _ p q).trans ?_
  rw [View.read_apply]
  unfold prod2 matProd
  refine Finset.sum_congr rfl fun k _ => ?_
  have h0 : ((cfg2.win 0).blk t).view.emb (ix2 p k) = ix2 (((cfg2.win 2).blk t).view.emb (ix2 p q) 0) k := by
    funext a; apply Fin.ext
    match a with
    | ⟨0, _⟩ => show win2_0.index t (0 : Fin 2) * 2048 + 1 * p.val = win2_2.index t (0 : Fin 2) * 2048 + 1 * p.val; omega
    | ⟨1, _⟩ => show win2_0.index t (1 : Fin 2) * 128 + 1 * k.val = k.val; omega
  have h1 : ((cfg2.win 1).blk t).view.emb (ix2 k q) = ix2 k (((cfg2.win 2).blk t).view.emb (ix2 p q) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  exact congrArg₂ (· * ·) (congrArg (V c main_v70) h0) (congrArg (V c main_arg6) h1)

/-- An index of the result array is in point t's block iff each coordinate is in the block's range on its axis. -/
theorem mem_blk2 (t : Fin cfg2.N) (i : S16384x128.Idx) :
    i ∈ ((cfg2.win 2).blk t).view.set ↔ ∀ a : Fin 2, win2_2.index t a * S2048x128.size a ≤ (i a).val ∧ (i a).val < win2_2.index t a * S2048x128.size a + S2048x128.size a := by
  show i ∈ ((View.whole main_v71).slice (win2_2.rect t)).set ↔ _
  rw [View.set_slice_whole, Rect.mem_set_unit]
  exact Iff.rfl

/-- The blocks cover the result array: row r lies in the block of point r / 2048. -/
theorem cover2 (i : S16384x128.Idx) :
    ∃ t : Fin cfg2.N, (cfg2.win 2).flush t = true ∧ i ∈ ((cfg2.win 2).blk t).view.set := by
  have hi0 : (i 0).val < 16384 := (i 0).isLt
  have hi1 : (i 1).val < 128 := (i 1).isLt
  have hN : cfg2.N = 8 := N_2
  obtain ⟨t, ht⟩ : ∃ t : Fin cfg2.N, t.val = (i 0).val / 2048 := ⟨⟨(i 0).val / 2048, by rw [hN]; omega⟩, rfl⟩
  obtain ⟨e00, e01, e10, e11, e20, e21⟩ := index2 t
  refine ⟨t, flush2_2 t, ?_⟩
  rw [mem_blk2]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 128 ≤ (i 1).val ∧ (i 1).val < win2_2.index t (1 : Fin 2) * 128 + 128; omega

/-- The result array of region 2 is the product of the two arrays its input windows read. -/
theorem arr2_eq (c : Dev nD) : (dat2 V c).arrAt 2 cfg2.N = prod2 V c :=
  (dat2 V c).arrAt_eq_of_cover 2 (prod2 V c) (fun t _ => flushed2_eq V c t) cover2

/-- Entry (a, b) of region 2's result. -/
theorem arr2_apply (c : Dev nD) (a : Fin 16384) (b : Fin 128) :
    (dat2 V c).arrAt 2 cfg2.N (ix2 a b) = ∑ k : Fin 128, V c main_v70 (ix2 a k) *ₑ V c main_arg6 (ix2 k b) := by
  rw [arr2_eq]
  rfl

/-! ## Region 3 -/

/-- The body's product of two blocks at an entry: the formats' changes and the cast to the same shape are the identity, the product into the
    zero accumulator is the sum over the contracted coordinate. -/
theorem pay3_apply (x0 : Vec Ideal S2048x128 .f32) (x1 : Vec Ideal S128x256 .f32) (a : Fin 2048) (b : Fin 256) :
    k3_pay1 x0 x1 (ix2 a b) = ∑ k : Fin 128, x0 (ix2 a k) * x1 (ix2 k b) := by
  unfold k3_pay1
  simp only [shapeCast_self]
  exact Cert.LibPlainDot.matmul_zero_apply _ _ _ _ a b

/-- The whole result array: the product of the two arrays the input windows read. -/
def prod3 (c : Dev nD) : S16384x256.Idx → EReal :=
  matProd (m := 16384) (k := 128) (n := 256) (V c main_v92) (V c main_arg8)

/-- The printed index maps over the grid: the left window and the result window sit at block row t, the weight
    window at block 0. -/
theorem index3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the product. -/
theorem flushed3_eq (c : Dev nD) (t : Fin cfg3.N) :
    (dat3 V c).flushed 2 t = ((cfg3.win 2).blk t).view.read (Elt Ideal) (prod3 V c) := by
  show (cfg3.win 2).cut (grid3.coords t) ((dat3 V c).after 2 t) = _
  rw [after3_2]
  unfold out3_2
  rw [View.canon_unit_zero offsets_zero]
  simp only [View.ld_unit_zero (S := S2048x128) offsets_zero, View.ld_unit_zero (S := S128x256) offsets_zero]
  obtain ⟨e00, e01, e10, e11, e20, e21⟩ := index3 t
  funext j
  obtain ⟨p, q, rfl⟩ : ∃ (p : Fin 2048) (q : Fin 256), j = ix2 p q := ⟨j 0, j 1, eq_ix2 j⟩
  refine (pay3_apply _ _ p q).trans ?_
  rw [View.read_apply]
  unfold prod3 matProd
  refine Finset.sum_congr rfl fun k _ => ?_
  have h0 : ((cfg3.win 0).blk t).view.emb (ix2 p k) = ix2 (((cfg3.win 2).blk t).view.emb (ix2 p q) 0) k := by
    funext a; apply Fin.ext
    match a with
    | ⟨0, _⟩ => show win3_0.index t (0 : Fin 2) * 2048 + 1 * p.val = win3_2.index t (0 : Fin 2) * 2048 + 1 * p.val; omega
    | ⟨1, _⟩ => show win3_0.index t (1 : Fin 2) * 128 + 1 * k.val = k.val; omega
  have h1 : ((cfg3.win 1).blk t).view.emb (ix2 k q) = ix2 k (((cfg3.win 2).blk t).view.emb (ix2 p q) 1) := by
    funext a; apply Fin.ext
    match a with
    | ⟨0, _⟩ => show win3_1.index t (0 : Fin 2) * 128 + 1 * k.val = k.val; omega
    | ⟨1, _⟩ => show win3_1.index t (1 : Fin 2) * 256 + 1 * q.val = win3_2.index t (1 : Fin 2) * 256 + 1 * q.val; omega
  exact congrArg₂ (· * ·) (congrArg (V c main_v92) h0) (congrArg (V c main_arg8) h1)

/-- An index of the result array is in point t's block iff each coordinate is in the block's range on its axis. -/
theorem mem_blk3 (t : Fin cfg3.N) (i : S16384x256.Idx) :
    i ∈ ((cfg3.win 2).blk t).view.set ↔ ∀ a : Fin 2, win3_2.index t a * S2048x256.size a ≤ (i a).val ∧ (i a).val < win3_2.index t a * S2048x256.size a + S2048x256.size a := by
  show i ∈ ((View.whole main_v93).slice (win3_2.rect t)).set ↔ _
  rw [View.set_slice_whole, Rect.mem_set_unit]
  exact Iff.rfl

/-- The blocks cover the result array: row r lies in the block of point r / 2048. -/
theorem cover3 (i : S16384x256.Idx) :
    ∃ t : Fin cfg3.N, (cfg3.win 2).flush t = true ∧ i ∈ ((cfg3.win 2).blk t).view.set := by
  have hi0 : (i 0).val < 16384 := (i 0).isLt
  have hi1 : (i 1).val < 256 := (i 1).isLt
  have hN : cfg3.N = 8 := N_3
  obtain ⟨t, ht⟩ : ∃ t : Fin cfg3.N, t.val = (i 0).val / 2048 := ⟨⟨(i 0).val / 2048, by rw [hN]; omega⟩, rfl⟩
  obtain ⟨e00, e01, e10, e11, e20, e21⟩ := index3 t
  refine ⟨t, flush3_2 t, ?_⟩
  rw [mem_blk3]
  intro a
  match a with
  | ⟨0, _⟩ => show win3_2.index t (0 : Fin 2) * 2048 ≤ (i 0).val ∧ (i 0).val < win3_2.index t (0 : Fin 2) * 2048 + 2048; omega
  | ⟨1, _⟩ => show win3_2.index t (1 : Fin 2) * 256 ≤ (i 1).val ∧ (i 1).val < win3_2.index t (1 : Fin 2) * 256 + 256; omega

/-- The result array of region 3 is the product of the two arrays its input windows read. -/
theorem arr3_eq (c : Dev nD) : (dat3 V c).arrAt 2 cfg3.N = prod3 V c :=
  (dat3 V c).arrAt_eq_of_cover 2 (prod3 V c) (fun t _ => flushed3_eq V c t) cover3

/-- Entry (a, b) of region 3's result. -/
theorem arr3_apply (c : Dev nD) (a : Fin 16384) (b : Fin 256) :
    (dat3 V c).arrAt 2 cfg3.N (ix2 a b) = ∑ k : Fin 128, V c main_v92 (ix2 a k) *ₑ V c main_arg8 (ix2 k b) := by
  rw [arr3_eq]
  rfl

/-! ## Region 4 -/

/-- The body's product of two blocks at an entry: the formats' changes and the cast to the same shape are the identity, the product into the
    zero accumulator is the sum over the contracted coordinate. -/
theorem pay4_apply (x0 : Vec Ideal S2048x128 .f32) (x1 : Vec Ideal S128x128 .f32) (a : Fin 2048) (b : Fin 128) :
    k4_pay1 x0 x1 (ix2 a b) = ∑ k : Fin 128, x0 (ix2 a k) * x1 (ix2 k b) := by
  unfold k4_pay1
  simp only [shapeCast_self]
  exact Cert.LibPlainDot.matmul_zero_apply _ _ _ _ a b

/-- The whole result array: the product of the two arrays the input windows read. -/
def prod4 (c : Dev nD) : S16384x128.Idx → EReal :=
  matProd (m := 16384) (k := 128) (n := 128) (V c main_v70) (V c main_arg10)

/-- The printed index maps over the grid: the left window and the result window sit at block row t, the weight
    window at block 0. -/
theorem index4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product. -/
theorem flushed4_eq (c : Dev nD) (t : Fin cfg4.N) :
    (dat4 V c).flushed 2 t = ((cfg4.win 2).blk t).view.read (Elt Ideal) (prod4 V c) := by
  show (cfg4.win 2).cut (grid4.coords t) ((dat4 V c).after 2 t) = _
  rw [after4_2]
  unfold out4_2
  rw [View.canon_unit_zero offsets_zero]
  simp only [View.ld_unit_zero (S := S2048x128) offsets_zero, View.ld_unit_zero (S := S128x128) offsets_zero]
  obtain ⟨e00, e01, e10, e11, e20, e21⟩ := index4 t
  funext j
  obtain ⟨p, q, rfl⟩ : ∃ (p : Fin 2048) (q : Fin 128), j = ix2 p q := ⟨j 0, j 1, eq_ix2 j⟩
  refine (pay4_apply _ _ p q).trans ?_
  rw [View.read_apply]
  unfold prod4 matProd
  refine Finset.sum_congr rfl fun k _ => ?_
  have h0 : ((cfg4.win 0).blk t).view.emb (ix2 p k) = ix2 (((cfg4.win 2).blk t).view.emb (ix2 p q) 0) k := by
    funext a; apply Fin.ext
    match a with
    | ⟨0, _⟩ => show win4_0.index t (0 : Fin 2) * 2048 + 1 * p.val = win4_2.index t (0 : Fin 2) * 2048 + 1 * p.val; omega
    | ⟨1, _⟩ => show win4_0.index t (1 : Fin 2) * 128 + 1 * k.val = k.val; omega
  have h1 : ((cfg4.win 1).blk t).view.emb (ix2 k q) = ix2 k (((cfg4.win 2).blk t).view.emb (ix2 p q) 1) := by
    funext a; apply Fin.ext
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega
  exact congrArg₂ (· * ·) (congrArg (V c main_v70) h0) (congrArg (V c main_arg10) h1)

/-- An index of the result array is in point t's block iff each coordinate is in the block's range on its axis. -/
theorem mem_blk4 (t : Fin cfg4.N) (i : S16384x128.Idx) :
    i ∈ ((cfg4.win 2).blk t).view.set ↔ ∀ a : Fin 2, win4_2.index t a * S2048x128.size a ≤ (i a).val ∧ (i a).val < win4_2.index t a * S2048x128.size a + S2048x128.size a := by
  show i ∈ ((View.whole main_v115).slice (win4_2.rect t)).set ↔ _
  rw [View.set_slice_whole, Rect.mem_set_unit]
  exact Iff.rfl

/-- The blocks cover the result array: row r lies in the block of point r / 2048. -/
theorem cover4 (i : S16384x128.Idx) :
    ∃ t : Fin cfg4.N, (cfg4.win 2).flush t = true ∧ i ∈ ((cfg4.win 2).blk t).view.set := by
  have hi0 : (i 0).val < 16384 := (i 0).isLt
  have hi1 : (i 1).val < 128 := (i 1).isLt
  have hN : cfg4.N = 8 := N_4
  obtain ⟨t, ht⟩ : ∃ t : Fin cfg4.N, t.val = (i 0).val / 2048 := ⟨⟨(i 0).val / 2048, by rw [hN]; omega⟩, rfl⟩
  obtain ⟨e00, e01, e10, e11, e20, e21⟩ := index4 t
  refine ⟨t, flush4_2 t, ?_⟩
  rw [mem_blk4]
  intro a
  match a with
  | ⟨0, _⟩ => show win4_2.index t (0 : Fin 2) * 2048 ≤ (i 0).val ∧ (i 0).val < win4_2.index t (0 : Fin 2) * 2048 + 2048; omega
  | ⟨1, _⟩ => show win4_2.index t (1 : Fin 2) * 128 ≤ (i 1).val ∧ (i 1).val < win4_2.index t (1 : Fin 2) * 128 + 128; omega

/-- The result array of region 4 is the product of the two arrays its input windows read. -/
theorem arr4_eq (c : Dev nD) : (dat4 V c).arrAt 2 cfg4.N = prod4 V c :=
  (dat4 V c).arrAt_eq_of_cover 2 (prod4 V c) (fun t _ => flushed4_eq V c t) cover4

/-- Entry (a, b) of region 4's result. -/
theorem arr4_apply (c : Dev nD) (a : Fin 16384) (b : Fin 128) :
    (dat4 V c).arrAt 2 cfg4.N (ix2 a b) = ∑ k : Fin 128, V c main_v70 (ix2 a k) *ₑ V c main_arg10 (ix2 k b) := by
  rw [arr4_eq]
  rfl

end Cert.KernelIdeal.Hand

end
-- ==== Proof.KiValue5.lean ====
import proofs.«147610_j32590211842242_1_alg».proof.Proof.KiValue

/-!
# The value of the sixth region's result array, at the ideal floats

The sixth region multiplies an array by its own transpose: entry (a, b) of its result is the sum over k of
s (a, k) times s (b, k). Grid point (i, j) computes the 2048×2048 block at block row i and block column j from block
row i and block row j of s, the body transposing the second before the product.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- Multiplication of two buffer entries as extended reals (a buffer's entry type unfolds to the extended reals). -/
local notation:70 x:70 " *ₑ " y:71 => @HMul.hMul EReal EReal EReal (@instHMul EReal _) x y

/-- The product of an m×k array by the transpose of an n×k array, entry by entry. -/
def matProdT {m k n : ℕ} (A : (⟨2, ![m, k]⟩ : Shape).Idx → EReal) (B : (⟨2, ![n, k]⟩ : Shape).Idx → EReal) :
    (⟨2, ![m, n]⟩ : Shape).Idx → EReal := fun i => ∑ c : Fin k, A (ix2 (i 0) c) * B (ix2 (i 1) c)

theorem matProdT_apply {m k n : ℕ} (A : (⟨2, ![m, k]⟩ : Shape).Idx → EReal) (B : (⟨2, ![n, k]⟩ : Shape).Idx → EReal)
    (a : Fin m) (b : Fin n) : matProdT A B (ix2 a b) = ∑ c : Fin k, A (ix2 a c) * B (ix2 b c) := rfl

/-- The body's product of a block with the transpose of another at an entry: the formats' changes and the casts to
    the same shape are the identity, the transpose reads (b, k) at (k, b), the product into the zero accumulator is
    the sum over the contracted coordinate. -/
theorem pay5_apply (x0 : Vec Ideal S2048x128 .f32) (x1 : Vec Ideal S2048x128 .f32) (a : Fin 2048) (b : Fin 2048) :
    k5_pay1 x0 x1 (ix2 a b) = ∑ k : Fin 128, x0 (ix2 a k) * x1 (ix2 b k) := by
  unfold k5_pay1
  simp only [shapeCast_self]
  refine (Cert.LibPlainDot.matmul_zero_apply dot_S2048x128_S128x2048_S2048x2048_1_0_0_1_n_n_wf none _ _ a b).trans ?_
  refine Finset.sum_congr rfl fun k _ => ?_
  refine congrArg (x0 (ix2 a k) * ·) ?_
  refine transpose_apply _ _ _ (ix2 k b) (ix2 b k) ?_
  intro d
  match d with
  | ⟨0, _⟩ => rfl
  | ⟨1, _⟩ => rfl

/-- The whole result array: the product of the array both input windows read with its own transpose. -/
def prod5 (c : Dev nD) : S16384x16384.Idx → EReal :=
  matProdT (m := 16384) (k := 128) (n := 16384) (V c main_v136) (V c main_v136)

/-- The printed index maps over the grid: point t is (t / 8, t % 8); the left window sits at block row t / 8, the
    right window at block row t % 8, the result window at block (t / 8, t % 8). -/
theorem index5 : ∀ t : Fin cfg5.N, win5_0.index t (0 : Fin 2) = t.val / 8 ∧ win5_0.index t (1 : Fin 2) = 0
    ∧ win5_1.index t (0 : Fin 2) = t.val % 8 ∧ win5_1.index t (1 : Fin 2) = 0
    ∧ win5_2.index t (0 : Fin 2) = t.val / 8 ∧ win5_2.index t (1 : Fin 2) = t.val % 8 :=
  (by decide +kernel : ∀ t : Fin grid5.N, _)

/-- What point t writes back is block t of the product. -/
theorem flushed5_eq (c : Dev nD) (t : Fin cfg5.N) :
    (dat5 V c).flushed 2 t = ((cfg5.win 2).blk t).view.read (Elt Ideal) (prod5 V c) := by
  show (cfg5.win 2).cut (grid5.coords t) ((dat5 V c).after 2 t) = _
  rw [after5_2]
  unfold out5_2
  rw [View.canon_unit_zero offsets_zero]
  simp only [View.ld_unit_zero (S := S2048x128) offsets_zero]
  obtain ⟨e00, e01, e10, e11, e20, e21⟩ := index5 t
  funext j
  obtain ⟨p, q, rfl⟩ : ∃ (p : Fin 2048) (q : Fin 2048), j = ix2 p q := ⟨j 0, j 1, eq_ix2 j⟩
  refine (pay5_apply _ _ p q).trans ?_
  rw [View.read_apply]
  unfold prod5 matProdT
  refine Finset.sum_congr rfl fun k _ => ?_
  have h0 : ((cfg5.win 0).blk t).view.emb (ix2 p k) = ix2 (((cfg5.win 2).blk t).view.emb (ix2 p q) 0) k := by
    funext a; apply Fin.ext
    match a with
    | ⟨0, _⟩ => show win5_0.index t (0 : Fin 2) * 2048 + 1 * p.val = win5_2.index t (0 : Fin 2) * 2048 + 1 * p.val; omega
    | ⟨1, _⟩ => show win5_0.index t (1 : Fin 2) * 128 + 1 * k.val = k.val; omega
  have h1 : ((cfg5.win 1).blk t).view.emb (ix2 q k) = ix2 (((cfg5.win 2).blk t).view.emb (ix2 p q) 1) k := by
    funext a; apply Fin.ext
    match a with
    | ⟨0, _⟩ => show win5_1.index t (0 : Fin 2) * 2048 + 1 * q.val = win5_2.index t (1 : Fin 2) * 2048 + 1 * q.val; omega
    | ⟨1, _⟩ => show win5_1.index t (1 : Fin 2) * 128 + 1 * k.val = k.val; omega
  exact congrArg₂ (· * ·) (congrArg (V c main_v136) h0) (congrArg (V c main_v136) h1)

/-- An index of the result array is in point t's block iff each coordinate is in the block's range on its axis. -/
theorem mem_blk5 (t : Fin cfg5.N) (i : S16384x16384.Idx) :
    i ∈ ((cfg5.win 2).blk t).view.set ↔ ∀ a : Fin 2, win5_2.index t a * S2048x2048.size a ≤ (i a).val ∧ (i a).val < win5_2.index t a * S2048x2048.size a + S2048x2048.size a := by
  show i ∈ ((View.whole main_v137).slice (win5_2.rect t)).set ↔ _
  rw [View.set_slice_whole, Rect.mem_set_unit]
  exact Iff.rfl

/-- The blocks cover the result array: entry (r, s) lies in the block of point (r / 2048, s / 2048). -/
theorem cover5 (i : S16384x16384.Idx) :
    ∃ t : Fin cfg5.N, (cfg5.win 2).flush t = true ∧ i ∈ ((cfg5.win 2).blk t).view.set := by
  have hi0 : (i 0).val < 16384 := (i 0).isLt
  have hi1 : (i 1).val < 16384 := (i 1).isLt
  have hN : cfg5.N = 64 := N_5
  obtain ⟨t, ht⟩ : ∃ t : Fin cfg5.N, t.val = (i 0).val / 2048 * 8 + (i 1).val / 2048 :=
    ⟨⟨(i 0).val / 2048 * 8 + (i 1).val / 2048, by rw [hN]; omega⟩, rfl⟩
  obtain ⟨e00, e01, e10, e11, e20, e21⟩ := index5 t
  refine ⟨t, flush5_2 t, ?_⟩
  rw [mem_blk5]
  intro a
  match a with
  | ⟨0, _⟩ => show win5_2.index t (0 : Fin 2) * 2048 ≤ (i 0).val ∧ (i 0).val < win5_2.index t (0 : Fin 2) * 2048 + 2048; omega
  | ⟨1, _⟩ => show win5_2.index t (1 : Fin 2) * 2048 ≤ (i 1).val ∧ (i 1).val < win5_2.index t (1 : Fin 2) * 2048 + 2048; omega

/-- The result array of region 5 is the product of the array its input windows read with its own transpose. -/
theorem arr5_eq (c : Dev nD) : (dat5 V c).arrAt 2 cfg5.N = prod5 V c :=
  (dat5 V c).arrAt_eq_of_cover 2 (prod5 V c) (fun t _ => flushed5_eq V c t) cover5

/-- Entry (a, b) of region 5's result. -/
theorem arr5_apply (c : Dev nD) (a b : Fin 16384) :
    (dat5 V c).arrAt 2 cfg5.N (ix2 a b) = ∑ k : Fin 128, V c main_v136 (ix2 a k) *ₑ V c main_v136 (ix2 b k) := by
  rw [arr5_eq]
  rfl

end Cert.KernelIdeal.Hand

end
-- ==== Proof.KiDots.lean ====
import proofs.«147610_j32590211842242_1_alg».proof.Proof.KiValue
import proofs.«147610_j32590211842242_1_alg».proof.Proof.Gen.ReferenceIdeal.Read

/-!
# The reference's matrix products are the same sums

At the ideal floats the host's plain matrix product (contract the second axis of the left operand with the first of
the right, no batch axis) has at entry (a, b) the sum over k of left (a, k) times right (k, b): the array matProd of
the two operands. Each of the reference's five projection stages and its last product are of this form.
-/

set_option maxRecDepth 16384

noncomputable section

namespace Cert.KernelIdeal.Hand

open Idealize.ShloMosaic Idealize.ShloMosaic.ValueIdx

/-- The host's plain product of an m×k by a k×n array is their matProd. -/
theorem dotGeneral_eq_matProd {m k n : ℕ} (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) none A B = matProd A B := by
  funext i
  obtain ⟨a, b, rfl⟩ : ∃ (a : Fin m) (b : Fin n), i = ix2 a b := ⟨i 0, i 1, eq_ix2 i⟩
  exact Cert.LibPlainDot.dotGeneral_apply w none A B a b

open Cert.ReferenceIdeal in
/-- The reference's first projection: x times the first encoder weight. -/
theorem val27_eq (x0 : (⟨S16384x256, .f32⟩ : BufTy).Contents (Elt Ideal)) (x2 : (⟨S256x128, .f32⟩ : BufTy).Contents (Elt Ideal)) :
    Cert.ReferenceIdeal.Read.val_main_v27 (F := Ideal) x0 x2 = matProd (m := 16384) (k := 256) (n := 128) x0 x2 := by
  unfold Cert.ReferenceIdeal.Read.val_main_v27
  exact dotGeneral_eq_matProd _ x0 x2

open Cert.ReferenceIdeal in
/-- The second projection: the first layer's output times the second encoder weight. -/
theorem val49_eq (x0 : (⟨S16384x256, .f32⟩ : BufTy).Contents (Elt Ideal)) (x1 : (⟨S2x524288, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) :
    Cert.ReferenceIdeal.Read.val_main_v49 (F := Ideal) x0 x1 x2 x3 x4 = matProd (m := 16384) (k := 128) (n := 128) (Cert.ReferenceIdeal.Read.val_main_v48 (F := Ideal) x0 x1 x2 x3) (x4) := by
  unfold Cert.ReferenceIdeal.Read.val_main_v49
  exact dotGeneral_eq_matProd _ _ _

open Cert.ReferenceIdeal in
/-- The third projection: the encoding z times the first attribute-decoder weight. -/
theorem val71_eq (x0 : (⟨S16384x256, .f32⟩ : BufTy).Contents (Elt Ideal)) (x1 : (⟨S2x524288, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) :
    Cert.ReferenceIdeal.Read.val_main_v71 (F := Ideal) x0 x1 x2 x3 x4 x5 x6 = matProd (m := 16384) (k := 128) (n := 128) (Cert.ReferenceIdeal.Read.val_main_v70 (F := Ideal) x0 x1 x2 x3 x4 x5) (x6) := by
  unfold Cert.ReferenceIdeal.Read.val_main_v71
  exact dotGeneral_eq_matProd _ _ _

open Cert.ReferenceIdeal in
/-- The fourth projection: the attribute decoder's hidden layer times its second weight. -/
theorem val93_eq (x0 : (⟨S16384x256, .f32⟩ : BufTy).Contents (Elt Ideal)) (x1 : (⟨S2x524288, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x256, .f32⟩ : BufTy).Contents (Elt Ideal)) :
    Cert.ReferenceIdeal.Read.val_main_v93 (F := Ideal) x0 x1 x2 x3 x4 x5 x6 x7 x8 = matProd (m := 16384) (k := 128) (n := 256) (Cert.ReferenceIdeal.Read.val_main_v92 (F := Ideal) x0 x1 x2 x3 x4 x5 x6 x7) (x8) := by
  unfold Cert.ReferenceIdeal.Read.val_main_v93
  exact dotGeneral_eq_matProd _ _ _

open Cert.ReferenceIdeal in
/-- The fifth projection: the encoding z times the structure-decoder weight. -/
theorem val115_eq (x0 : (⟨S16384x256, .f32⟩ : BufTy).Contents (Elt Ideal)) (x1 : (⟨S2x524288, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x10 : (⟨S128x128, .f32⟩ : BufTy).Contents (Elt Ideal)) :
    Cert.ReferenceIdeal.Read.val_main_v115 (F := Ideal) x0 x1 x2 x3 x4 x5 x10 = matProd (m := 16384) (k := 128) (n := 128) (Cert.ReferenceIdeal.Read.val_main_v70 (F := Ideal) x0 x1 x2 x3 x4 x5) (x10) := by
  unfold Cert.ReferenceIdeal.Read.val_main_v115
  exact dotGeneral_eq_matProd _ _ _

open Cert.ReferenceIdeal in
/-- The reconstruction s · sᵀ: entry (a, b) is the sum over k of s (a, k) times s (b, k), the transpose read back at
    the swapped index. -/
theorem val138_eq (x0 : (⟨S16384x256, .f32⟩ : BufTy).Contents (Elt Ideal)) (x1 : (⟨S2x524288, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x10 : (⟨S128x128, .f32⟩ : BufTy).Contents (Elt Ideal)) (x11 : (⟨S128, .f32⟩ : BufTy).Contents (Elt Ideal)) :
    Cert.ReferenceIdeal.Read.val_main_v138 (F := Ideal) x0 x1 x2 x3 x4 x5 x10 x11
      = fun i : (⟨2, ![16384, 16384]⟩ : Shape).Idx => ∑ k : Fin 128,
          (Cert.ReferenceIdeal.Read.val_main_v136 (F := Ideal) x0 x1 x2 x3 x4 x5 x10 x11 : (⟨2, ![16384, 128]⟩ : Shape).Idx → EReal) (ix2 (i 0) k)
            * (Cert.ReferenceIdeal.Read.val_main_v136 (F := Ideal) x0 x1 x2 x3 x4 x5 x10 x11 : (⟨2, ![16384, 128]⟩ : Shape).Idx → EReal) (ix2 (i 1) k) := by
  unfold Cert.ReferenceIdeal.Read.val_main_v138
  refine (dotGeneral_eq_matProd (m := 16384) (k := 128) (n := 16384) _ _ _).trans ?_
  funext i
  unfold matProd
  refine Finset.sum_congr rfl fun k _ => ?_
  refine congrArg _ ?_
  refine (Cert.ReferenceIdeal.Read.val_main_v137_apply (F := Ideal) x0 x1 x2 x3 x4 x5 x10 x11 (ix2 k (i 1))).trans ?_
  refine congrArg _ ?_
  funext a
  match a with
  | ⟨0, _⟩ => rfl
  | ⟨1, _⟩ => rfl

end Cert.KernelIdeal.Hand

end
-- ==== Proof.KiChain.lean ====
import proofs.«147610_j32590211842242_1_alg».proof.Proof.KiCarry
import proofs.«147610_j32590211842242_1_alg».proof.Proof.KiStage0
import proofs.«147610_j32590211842242_1_alg».proof.Proof.KiLayer1
import proofs.«147610_j32590211842242_1_alg».proof.Proof.KiLayer2
import proofs.«147610_j32590211842242_1_alg».proof.Proof.KiLayer3
import proofs.«147610_j32590211842242_1_alg».proof.Proof.KiLayer4
import proofs.«147610_j32590211842242_1_alg».proof.Proof.KiLayer5
import proofs.«147610_j32590211842242_1_alg».proof.Proof.KiValue
import proofs.«147610_j32590211842242_1_alg».proof.Proof.KiValue5
import proofs.«147610_j32590211842242_1_alg».proof.Proof.KiDots

/-!
# The program's two results are the reference's

Walking the program boundary by boundary, at the ideal floats: the first stretch makes the edge lists and the
normalisations; each matrix product region leaves the product of the two arrays it reads, which is the reference's
projection stage of the same arguments; each stretch after a region turns the projection into the layer's output, the
reference's stage of the same number. So the attribute reconstruction (the fourth layer's output) and the structure
reconstruction (the last product, of the fifth layer's output with its own transpose) are the reference's two results,
as functions of the twelve arguments.
-/

set_option maxRecDepth 16384

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-! ## The first stretch -/

theorem s_v1 : W1 m c main_v1 = Cert.ReferenceIdeal.Read.val_main_v1 (F := Ideal) (m ((c.tc : Thread nD τ).loc main_arg1)) := stage0_main_v1 (W0 m c) _ rfl
theorem s_v3 : W1 m c main_v3 = Cert.ReferenceIdeal.Read.val_main_v3 (F := Ideal) (m ((c.tc : Thread nD τ).loc main_arg1)) := stage0_main_v3 (W0 m c) _ rfl
theorem s_v25 : W1 m c main_v25 = Cert.ReferenceIdeal.Read.val_main_v25 (F := Ideal) (m ((c.tc : Thread nD τ).loc main_arg1)) := stage0_main_v25 (W0 m c) _ rfl
theorem s_v26 : W1 m c main_v26 = Cert.ReferenceIdeal.Read.val_main_v26 (F := Ideal) (m ((c.tc : Thread nD τ).loc main_arg1)) := stage0_main_v26 (W0 m c) _ rfl

/-! ## Layer 1 -/

/-- Region 0 leaves x times the first encoder weight. -/
theorem r0 : W2 m c main_v27 = Cert.ReferenceIdeal.Read.val_main_v27 (F := Ideal) (m ((c.tc : Thread nD τ).loc main_arg0)) (m ((c.tc : Thread nD τ).loc main_arg2)) := by
  rw [val27_eq]
  show Function.update (W1 m c) (Proc.devRef .tc main_v27) (o2 m c) (Proc.devRef .tc main_v27) = _
  rw [Function.update_self]
  unfold o2
  rw [arr0_eq]
  unfold prod0
  exact congrArg₂ (fun A B => matProd (m := 16384) (k := 256) (n := 128) A B) (W1_main_arg0 m c) (W1_main_arg2 m c)

theorem l1 : W4 m c main_v48 = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) :=
  layer1 (W2 m c) _ _ _ _ (r0 m c) ((W2_main_v1 m c).trans (s_v1 m c)) ((W2_main_v3 m c).trans (s_v3 m c)) ((W2_main_v25 m c).trans (s_v25 m c)) ((W2_main_v26 m c).trans (s_v26 m c)) (W2_main_arg3 m c)

/-! ## Layer 2 -/

theorem r1 : W5 m c main_v49 = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [val49_eq]
  show Function.update (W4 m c) (Proc.devRef .tc main_v49) (o5 m c) (Proc.devRef .tc main_v49) = _
  rw [Function.update_self]
  unfold o5
  rw [arr1_eq]
  unfold prod1
  exact congrArg₂ (fun A B => matProd (m := 16384) (k := 128) (n := 128) A B) (l1 m c) (W4_main_arg4 m c)

theorem l2 : W7 m c main_v70 = Cert.ReferenceIdeal.Read.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  layer2 (W5 m c) _ _ _ _ _ _ (r1 m c) ((W5_main_v1 m c).trans (s_v1 m c)) ((W5_main_v3 m c).trans (s_v3 m c)) ((W5_main_v25 m c).trans (s_v25 m c)) ((W5_main_v26 m c).trans (s_v26 m c)) (W5_main_arg5 m c)

/-! ## Layer 3 -/

theorem r2 : W8 m c main_v71 = Cert.ReferenceIdeal.Read.val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [val71_eq]
  show Function.update (W7 m c) (Proc.devRef .tc main_v71) (o8 m c) (Proc.devRef .tc main_v71) = _
  rw [Function.update_self]
  unfold o8
  rw [arr2_eq]
  unfold prod2
  exact congrArg₂ (fun A B => matProd (m := 16384) (k := 128) (n := 128) A B) (l2 m c) (W7_main_arg6 m c)

theorem l3 : W10 m c main_v92 = Cert.ReferenceIdeal.Read.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  layer3 (W8 m c) _ _ _ _ _ _ _ _ (r2 m c) ((W8_main_v1 m c).trans (s_v1 m c)) ((W8_main_v3 m c).trans (s_v3 m c)) ((W8_main_v25 m c).trans (s_v25 m c)) ((W8_main_v26 m c).trans (s_v26 m c)) (W8_main_arg7 m c)

/-! ## Layer 4: the attribute reconstruction -/

theorem r3 : W11 m c main_v93 = Cert.ReferenceIdeal.Read.val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [val93_eq]
  show Function.update (W10 m c) (Proc.devRef .tc main_v93) (o11 m c) (Proc.devRef .tc main_v93) = _
  rw [Function.update_self]
  unfold o11
  rw [arr3_eq]
  unfold prod3
  exact congrArg₂ (fun A B => matProd (m := 16384) (k := 128) (n := 256) A B) (l3 m c) (W10_main_arg8 m c)

theorem l4 : W13 m c main_v114 = Cert.ReferenceIdeal.Read.val_main_v114 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  layer4 (W11 m c) _ _ _ _ _ _ _ _ _ _ (r3 m c) ((W11_main_v1 m c).trans (s_v1 m c)) ((W11_main_v3 m c).trans (s_v3 m c)) ((W11_main_v25 m c).trans (s_v25 m c)) ((W11_main_v26 m c).trans (s_v26 m c)) (W11_main_arg9 m c)

/-! ## Layer 5 and the structure reconstruction -/

theorem r4 : W14 m c main_v115 = Cert.ReferenceIdeal.Read.val_main_v115 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) := by
  rw [val115_eq]
  show Function.update (W13 m c) (Proc.devRef .tc main_v115) (o14 m c) (Proc.devRef .tc main_v115) = _
  rw [Function.update_self]
  unfold o14
  rw [arr4_eq]
  unfold prod4
  exact congrArg₂ (fun A B => matProd (m := 16384) (k := 128) (n := 128) A B) ((W13_main_v70 m c).trans (l2 m c)) (W13_main_arg10 m c)

theorem l5 : W16 m c main_v136 = Cert.ReferenceIdeal.Read.val_main_v136 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) :=
  layer5 (W14 m c) _ _ _ _ _ _ _ _ (r4 m c) ((W14_main_v1 m c).trans (s_v1 m c)) ((W14_main_v3 m c).trans (s_v3 m c)) ((W14_main_v25 m c).trans (s_v25 m c)) ((W14_main_v26 m c).trans (s_v26 m c)) (W14_main_arg11 m c)

/-- The last region leaves s times its own transpose: the reference's first result. -/
theorem out0 : W17 m c main_v137 = Cert.ReferenceIdeal.Read.val_main_v138 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) := by
  rw [val138_eq]
  show Function.update (W16 m c) (Proc.devRef .tc main_v137) (o17 m c) (Proc.devRef .tc main_v137) = _
  rw [Function.update_self]
  unfold o17
  rw [arr5_eq]
  unfold prod5
  have h := l5 m c
  exact congrArg (fun A => matProdT (m := 16384) (k := 128) (n := 16384) A A) h

/-- The fourth layer's output is untouched by everything after it: the reference's second result. -/
theorem out1 : W17 m c main_v114 = Cert.ReferenceIdeal.Read.val_main_v114 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (W17_main_v114 m c).trans (l4 m c)

end Cert.KernelIdeal.Hand

end
-- ==== Proof.KiBody0.lean ====
import proofs.«147610_j32590211842242_1_alg».proof.Proof.KiData

/-!
# Region 0: the body's triple and the body obligation

The body of matrix product 0 loads its two input buffers whole, forms their product and stores it over the whole
result buffer. Run on whole staging buffers holding x0 and x1 it therefore leaves the inputs as they were and the
result buffer at out0_2 x0 x1. At every grid point the pipeline hands the body each input window's block (fetched
at that point or kept from an earlier one: the block index has not moved), so the body obligation holds with the
result buffer left at out0_2 of the two blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

set_option maxHeartbeats 1000000 in
/-- The body on whole staging buffers: inputs at x0 and x1, the result buffer at anything; it ends with the inputs
    unchanged and the result buffer at the product. -/
theorem sound_kernel0 (c : Dev nD) (E : Set ℕ) (i : grid0.Coords)
    (arg0 : Memref sig .tc .vmem S2048x256 .f32) (harg0 : arg0.IsWhole) (arg1 : Memref sig .tc .vmem S256x128 .f32) (harg1 : arg1.IsWhole)
    (arg2 : Memref sig .tc .vmem S2048x128 .f32) (harg2 : arg2.IsWhole)
    (x0 : Vec F S2048x256 .f32) (x1 : Vec F S256x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__dense_matmul_kernel i arg0 harg0 arg1 harg1 arg2 harg2) K := by
  simp only [cc0__dense_matmul_kernel_eq_skeleton]; unfold cc0__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiReg0.lean ====
import proofs.«147610_j32590211842242_1_alg».proof.Proof.KiPdats
import proofs.«147610_j32590211842242_1_alg».proof.Proof.KiBody0

/-!
# Region 0 as an item of the program

Region 0 is entered with every buffer of the core at the contents W1 and left with them at W2: its result array
main_v27 at the fold of the write-backs, every other buffer as found (the two input arrays are only read). The
region's arrays are taken out of the core's buffers at entry and put back at exit; the generator register passes
through the pipeline's invariant untouched; nothing is owed to another core.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents at entry and at exit, read at the core's own references. -/
abbrev Uin0 : (c : Dev nD) → (b : Ref sig .tc) → Buf (Elt F) ((c : Thread nD τ).loc b) := fun c b => W1 m c b
abbrev Uout0 : (c : Dev nD) → (b : Ref sig .tc) → Buf (Elt F) ((c : Thread nD τ).loc b) := fun c b => W2 m c b

/-- At exit each of the region's arrays holds what the pipeline leaves: an input array its entry contents, the result
    array the fold of the write-backs. -/
theorem hF0 (c : Dev nD) (w : Fin cfg0.W) : (pdats m 0 c).arrAt w cfg0.N = Uout0 m c (Pipeline.arrRef spec0 w) := by
  match w with
  | ⟨0, _⟩ =>
    have hA : (pdats m 0 c).A 0 = Uin0 m c (Pipeline.arrRef spec0 0) := rfl
    refine (((pdats m 0 c).arrAt_in 0 rfl _).trans hA).trans ?_
    exact (Function.update_of_ne (StableHlo.devRef_ne_of_ne (show Pipeline.arrRef spec0 0 ≠ main_v27 by decide)) (o2 m c) (W1 m c)).symm
  | ⟨1, _⟩ =>
    have hA : (pdats m 0 c).A 1 = Uin0 m c (Pipeline.arrRef spec0 1) := rfl
    refine (((pdats m 0 c).arrAt_in 1 rfl _).trans hA).trans ?_
    exact (Function.update_of_ne (StableHlo.devRef_ne_of_ne (show Pipeline.arrRef spec0 1 ≠ main_v27 by decide)) (o2 m c) (W1 m c)).symm
  | ⟨2, _⟩ =>
    show o2 m c = Function.update (W1 m c) (Proc.devRef .tc main_v27) (o2 m c) (Proc.devRef .tc main_v27)
    exact (Function.update_self (Proc.devRef .tc main_v27) (o2 m c) (W1 m c)).symm

/-- Every buffer that is none of the region's arrays is as the region found it. -/
theorem hrest0 (c : Dev nD) : ∀ b, b ∉ Finset.univ.image (Pipeline.arrRef spec0) → Uout0 m c b = Uin0 m c b := fun b hb => by
  show Function.update (W1 m c) (Proc.devRef .tc main_v27) (o2 m c) (Proc.devRef .tc b) = W1 m c (Proc.devRef .tc b)
  have hne : b ≠ main_v27 := fun e => hb (Finset.mem_image.mpr ⟨2, Finset.mem_univ _, e.symm⟩)
  exact Function.update_of_ne (StableHlo.devRef_ne_of_ne hne) (o2 m c) (W1 m c)

set_option backward.isDefEq.respectTransparency.types false in
/-- Region 0 over the thread state "every unscoped buffer at the boundary's contents, the generator register at some
    state, nothing owed". -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Uin0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Uin0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Uin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Uin0 m c) (Uout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiBody1.lean ====
import proofs.«147610_j32590211842242_1_alg».proof.Proof.KiData

/-!
# Region 1: the body's triple and the body obligation

The body of matrix product 1 loads its two input buffers whole, forms their product and stores it over the whole
result buffer. Run on whole staging buffers holding x0 and x1 it therefore leaves the inputs as they were and the
result buffer at out1_2 x0 x1. At every grid point the pipeline hands the body each input window's block (fetched
at that point or kept from an earlier one: the block index has not moved), so the body obligation holds with the
result buffer left at out1_2 of the two blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

set_option maxHeartbeats 1000000 in
/-- The body on whole staging buffers: inputs at x0 and x1, the result buffer at anything; it ends with the inputs
    unchanged and the result buffer at the product. -/
theorem sound_kernel1 (c : Dev nD) (E : Set ℕ) (i : grid1.Coords)
    (arg0 : Memref sig .tc .vmem S2048x128 .f32) (harg0 : arg0.IsWhole) (arg1 : Memref sig .tc .vmem S128x128 .f32) (harg1 : arg1.IsWhole)
    (arg2 : Memref sig .tc .vmem S2048x128 .f32) (harg2 : arg2.IsWhole)
    (x0 : Vec F S2048x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out1_2 x0 x1)) -∗ K ⟨⟩))
      ⊢ wp frame (wpE (defs₀ (F := F)) Variants.none c none) E (cc1__dense_matmul_kernel i arg0 harg0 arg1 harg1 arg2 harg2) K := by
  simp only [cc1__dense_matmul_kernel_eq_skeleton]; unfold cc1__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiReg1.lean ====
import proofs.«147610_j32590211842242_1_alg».proof.Proof.KiPdats
import proofs.«147610_j32590211842242_1_alg».proof.Proof.KiBody1

/-!
# Region 1 as an item of the program

Region 1 is entered with every buffer of the core at the contents W4 and left with them at W5: its result array
main_v49 at the fold of the write-backs, every other buffer as found (the two input arrays are only read). The
region's arrays are taken out of the core's buffers at entry and put back at exit; the generator register passes
through the pipeline's invariant untouched; nothing is owed to another core.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents at entry and at exit, read at the core's own references. -/
abbrev Uin1 : (c : Dev nD) → (b : Ref sig .tc) → Buf (Elt F) ((c : Thread nD τ).loc b) := fun c b => W4 m c b
abbrev Uout1 : (c : Dev nD) → (b : Ref sig .tc) → Buf (Elt F) ((c : Thread nD τ).loc b) := fun c b => W5 m c b

/-- At exit each of the region's arrays holds what the pipeline leaves: an input array its entry contents, the result
    array the fold of the write-backs. -/
theorem hF1 (c : Dev nD) (w : Fin cfg1.W) : (pdats m 1 c).arrAt w cfg1.N = Uout1 m c (Pipeline.arrRef spec1 w) := by
  match w with
  | ⟨0, _⟩ =>
    have hA : (pdats m 1 c).A 0 = Uin1 m c (Pipeline.arrRef spec1 0) := rfl
    refine (((pdats m 1 c).arrAt_in 0 rfl _).trans hA).trans ?_
    exact (Function.update_of_ne (StableHlo.devRef_ne_of_ne (show Pipeline.arrRef spec1 0 ≠ main_v49 by decide)) (o5 m c) (W4 m c)).symm
  | ⟨1, _⟩ =>
    have hA : (pdats m 1 c).A 1 = Uin1 m c (Pipeline.arrRef spec1 1) := rfl
    refine (((pdats m 1 c).arrAt_in 1 rfl _).trans hA).trans ?_
    exact (Function.update_of_ne (StableHlo.devRef_ne_of_ne (show Pipeline.arrRef spec1 1 ≠ main_v49 by decide)) (o5 m c) (W4 m c)).symm
  | ⟨2, _⟩ =>
    show o5 m c = Function.update (W4 m c) (Proc.devRef .tc main_v49) (o5 m c) (Proc.devRef .tc main_v49)
    exact (Function.update_self (Proc.devRef .tc main_v49) (o5 m c) (W4 m c)).symm

/-- Every buffer that is none of the region's arrays is as the region found it. -/
theorem hrest1 (c : Dev nD) : ∀ b, b ∉ Finset.univ.image (Pipeline.arrRef spec1) → Uout1 m c b = Uin1 m c b := fun b hb => by
  show Function.update (W4 m c) (Proc.devRef .tc main_v49) (o5 m c) (Proc.devRef .tc b) = W4 m c (Proc.devRef .tc b)
  have hne : b ≠ main_v49 := fun e => hb (Finset.mem_image.mpr ⟨2, Finset.mem_univ _, e.symm⟩)
  exact Function.update_of_ne (StableHlo.devRef_ne_of_ne hne) (o5 m c) (W4 m c)

set_option backward.isDefEq.respectTransparency.types false in
/-- Region 1 over the thread state "every unscoped buffer at the boundary's contents, the generator register at some
    state, nothing owed". -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Uin1 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (Uin1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Uin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Uin1 m c) (Uout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiBody2.lean ====
import proofs.«147610_j32590211842242_1_alg».proof.Proof.KiData

/-!
# Region 2: the body's triple and the body obligation

The body of matrix product 2 loads its two input buffers whole, forms their product and stores it over the whole
result buffer. Run on whole staging buffers holding x0 and x1 it therefore leaves the inputs as they were and the
result buffer at out2_2 x0 x1. At every grid point the pipeline hands the body each input window's block (fetched
at that point or kept from an earlier one: the block index has not moved), so the body obligation holds with the
result buffer left at out2_2 of the two blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

set_option maxHeartbeats 1000000 in
/-- The body on whole staging buffers: inputs at x0 and x1, the result buffer at anything; it ends with the inputs
    unchanged and the result buffer at the product. -/
theorem sound_kernel2 (c : Dev nD) (E : Set ℕ) (i : grid2.Coords)
    (arg0 : Memref sig .tc .vmem S2048x128 .f32) (harg0 : arg0.IsWhole) (arg1 : Memref sig .tc .vmem S128x128 .f32) (harg1 : arg1.IsWhole)
    (arg2 : Memref sig .tc .vmem S2048x128 .f32) (harg2 : arg2.IsWhole)
    (x0 : Vec F S2048x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__dense_matmul_kernel i arg0 harg0 arg1 harg1 arg2 harg2) K := by
  simp only [cc2__dense_matmul_kernel_eq_skeleton]; unfold cc2__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiReg2.lean ====
import proofs.«147610_j32590211842242_1_alg».proof.Proof.KiPdats
import proofs.«147610_j32590211842242_1_alg».proof.Proof.KiBody2

/-!
# Region 2 as an item of the program

Region 2 is entered with every buffer of the core at the contents W7 and left with them at W8: its result array
main_v71 at the fold of the write-backs, every other buffer as found (the two input arrays are only read). The
region's arrays are taken out of the core's buffers at entry and put back at exit; the generator register passes
through the pipeline's invariant untouched; nothing is owed to another core.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents at entry and at exit, read at the core's own references. -/
abbrev Uin2 : (c : Dev nD) → (b : Ref sig .tc) → Buf (Elt F) ((c : Thread nD τ).loc b) := fun c b => W7 m c b
abbrev Uout2 : (c : Dev nD) → (b : Ref sig .tc) → Buf (Elt F) ((c : Thread nD τ).loc b) := fun c b => W8 m c b

/-- At exit each of the region's arrays holds what the pipeline leaves: an input array its entry contents, the result
    array the fold of the write-backs. -/
theorem hF2 (c : Dev nD) (w : Fin cfg2.W) : (pdats m 2 c).arrAt w cfg2.N = Uout2 m c (Pipeline.arrRef spec2 w) := by
  match w with
  | ⟨0, _⟩ =>
    have hA : (pdats m 2 c).A 0 = Uin2 m c (Pipeline.arrRef spec2 0) := rfl
    refine (((pdats m 2 c).arrAt_in 0 rfl _).trans hA).trans ?_
    exact (Function.update_of_ne (StableHlo.devRef_ne_of_ne (show Pipeline.arrRef spec2 0 ≠ main_v71 by decide)) (o8 m c) (W7 m c)).symm
  | ⟨1, _⟩ =>
    have hA : (pdats m 2 c).A 1 = Uin2 m c (Pipeline.arrRef spec2 1) := rfl
    refine (((pdats m 2 c).arrAt_in 1 rfl _).trans hA).trans ?_
    exact (Function.update_of_ne (StableHlo.devRef_ne_of_ne (show Pipeline.arrRef spec2 1 ≠ main_v71 by decide)) (o8 m c) (W7 m c)).symm
  | ⟨2, _⟩ =>
    show o8 m c = Function.update (W7 m c) (Proc.devRef .tc main_v71) (o8 m c) (Proc.devRef .tc main_v71)
    exact (Function.update_self (Proc.devRef .tc main_v71) (o8 m c) (W7 m c)).symm

/-- Every buffer that is none of the region's arrays is as the region found it. -/
theorem hrest2 (c : Dev nD) : ∀ b, b ∉ Finset.univ.image (Pipeline.arrRef spec2) → Uout2 m c b = Uin2 m c b := fun b hb => by
  show Function.update (W7 m c) (Proc.devRef .tc main_v71) (o8 m c) (Proc.devRef .tc b) = W7 m c (Proc.devRef .tc b)
  have hne : b ≠ main_v71 := fun e => hb (Finset.mem_image.mpr ⟨2, Finset.mem_univ _, e.symm⟩)
  exact Function.update_of_ne (StableHlo.devRef_ne_of_ne hne) (o8 m c) (W7 m c)

set_option backward.isDefEq.respectTransparency.types false in
/-- Region 2 over the thread state "every unscoped buffer at the boundary's contents, the generator register at some
    state, nothing owed". -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Uin2 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (Uin2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (Uin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Uin2 m c) (Uout2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiBody3.lean ====
import proofs.«147610_j32590211842242_1_alg».proof.Proof.KiData

/-!
# Region 3: the body's triple and the body obligation

The body of matrix product 3 loads its two input buffers whole, forms their product and stores it over the whole
result buffer. Run on whole staging buffers holding x0 and x1 it therefore leaves the inputs as they were and the
result buffer at out3_2 x0 x1. At every grid point the pipeline hands the body each input window's block (fetched
at that point or kept from an earlier one: the block index has not moved), so the body obligation holds with the
result buffer left at out3_2 of the two blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

set_option maxHeartbeats 1000000 in
/-- The body on whole staging buffers: inputs at x0 and x1, the result buffer at anything; it ends with the inputs
    unchanged and the result buffer at the product. -/
theorem sound_kernel3 (c : Dev nD) (E : Set ℕ) (i : grid3.Coords)
    (arg0 : Memref sig .tc .vmem S2048x128 .f32) (harg0 : arg0.IsWhole) (arg1 : Memref sig .tc .vmem S128x256 .f32) (harg1 : arg1.IsWhole)
    (arg2 : Memref sig .tc .vmem S2048x256 .f32) (harg2 : arg2.IsWhole)
    (x0 : Vec F S2048x128 .f32) (x1 : Vec F S128x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out3_2 x0 x1)) -∗ K ⟨⟩))
      ⊢ wp frame (wpE (defs₀ (F := F)) Variants.none c none) E (cc3__dense_matmul_kernel i arg0 harg0 arg1 harg1 arg2 harg2) K := by
  simp only [cc3__dense_matmul_kernel_eq_skeleton]; unfold cc3__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the triple applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 3, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KiReg3.lean ====
import proofs.«147610_j32590211842242_1_alg».proof.Proof.KiPdats
import proofs.«147610_j32590211842242_1_alg».proof.Proof.KiBody3

/-!
# Region 3 as an item of the program

Region 3 is entered with every buffer of the core at the contents W10 and left with them at W11: its result array
main_v93 at the fold of the write-backs, every other buffer as found (the two input arrays are only read). The
region's arrays are taken out of the core's buffers at entry and put back at exit; the generator register passes
through the pipeline's invariant untouched; nothing is owed to another core.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents at entry and at exit, read at the core's own references. -/
abbrev Uin3 : (c : Dev nD) → (b : Ref sig .tc) → Buf (Elt F) ((c : Thread nD τ).loc b) := fun c b => W10 m c b
abbrev Uout3 : (c : Dev nD) → (b : Ref sig .tc) → Buf (Elt F) ((c : Thread nD τ).loc b) := fun c b => W11 m c b

/-- At exit each of the region's arrays holds what the pipeline leaves: an input array its entry contents, the result
    array the fold of the write-backs. -/
theorem hF3 (c : Dev nD) (w : Fin cfg3.W) : (pdats m 3 c).arrAt w cfg3.N = Uout3 m c (Pipeline.arrRef spec3 w) := by
  match w with
  | ⟨0, _⟩ =>
    have hA : (pdats m 3 c).A 0 = Uin3 m c (Pipeline.arrRef spec3 0) := rfl
    refine (((pdats m 3 c).arrAt_in 0 rfl _).trans hA).trans ?_
    exact (Function.update_of_ne (StableHlo.devRef_ne_of_ne (show Pipeline.arrRef spec3 0 ≠ main_v93 by decide)) (o11 m c) (W10 m c)).symm
  | ⟨1, _⟩ =>
    have hA : (pdats m 3 c).A 1 = Uin3 m c (Pipeline.arrRef spec3 1) := rfl
    refine (((pdats m 3 c).arrAt_in 1 rfl _).trans hA).trans ?_
    exact (Function.update_of_ne (StableHlo.devRef_ne_of_ne (show Pipeline.arrRef spec3 1 ≠ main_v93 by decide)) (o11 m c) (W10 m c)).symm
  | ⟨2, _⟩ =>
    show o11 m c = Function.update (W10 m c) (Proc.devRef .tc main_v93) (o11 m c) (Proc.devRef .tc main_v93)
    exact (Function.update_self (Proc.devRef .tc main_v93) (o11 m c) (W10 m c)).symm

/-- Every buffer that is none of the region's arrays is as the region found it. -/
theorem hrest3 (c : Dev nD) : ∀ b, b ∉ Finset.univ.image (Pipeline.arrRef spec3) → Uout3 m c b = Uin3 m c b := fun b hb => by
  show Function.update (W10 m c) (Proc.devRef .tc main_v93) (o11 m c) (Proc.devRef .tc b) = W10 m c (Proc.devRef .tc b)
  have hne : b ≠ main_v93 := fun e => hb (Finset.mem_image.mpr ⟨2, Finset.mem_univ _, e.symm⟩)
  exact Function.update_of_ne (StableHlo.devRef_ne_of_ne hne) (o11 m c) (W10 m c)

set_option backward.isDefEq.respectTransparency.types false in
/-- Region 3 over the thread state "every unscoped buffer at the boundary's contents, the generator register at some
    state, nothing owed". -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Uin3 m) c).loose
  hwaits := Pipeline.hwaits_of_owed_zero _ _ _ _ L lv 3 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec3 c (Uin3 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (Uin3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (Uin3 m c) (Uout3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiBody4.lean ====
import proofs.«147610_j32590211842242_1_alg».proof.Proof.KiData

/-!
# Region 4: the body's triple and the body obligation

The body of matrix product 4 loads its two input buffers whole, forms their product and stores it over the whole
result buffer. Run on whole staging buffers holding x0 and x1 it therefore leaves the inputs as they were and the
result buffer at out4_2 x0 x1. At every grid point the pipeline hands the body each input window's block (fetched
at that point or kept from an earlier one: the block index has not moved), so the body obligation holds with the
result buffer left at out4_2 of the two blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

set_option maxHeartbeats 1000000 in
/-- The body on whole staging buffers: inputs at x0 and x1, the result buffer at anything; it ends with the inputs
    unchanged and the result buffer at the product. -/
theorem sound_kernel4 (c : Dev nD) (E : Set ℕ) (i : grid4.Coords)
    (arg0 : Memref sig .tc .vmem S2048x128 .f32) (harg0 : arg0.IsWhole) (arg1 : Memref sig .tc .vmem S128x128 .f32) (harg1 : arg1.IsWhole)
    (arg2 : Memref sig .tc .vmem S2048x128 .f32) (harg2 : arg2.IsWhole)
    (x0 : Vec F S2048x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out4_2 x0 x1)) -∗ K ⟨⟩))
      ⊢ wp frame (wpE (defs₀ (F := F)) Variants.none c none) E (cc4__dense_matmul_kernel i arg0 harg0 arg1 harg1 arg2 harg2) K := by
  simp only [cc4__dense_matmul_kernel_eq_skeleton]; unfold cc4__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the triple applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 4, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KiReg4.lean ====
import proofs.«147610_j32590211842242_1_alg».proof.Proof.KiPdats
import proofs.«147610_j32590211842242_1_alg».proof.Proof.KiBody4

/-!
# Region 4 as an item of the program

Region 4 is entered with every buffer of the core at the contents W13 and left with them at W14: its result array
main_v115 at the fold of the write-backs, every other buffer as found (the two input arrays are only read). The
region's arrays are taken out of the core's buffers at entry and put back at exit; the generator register passes
through the pipeline's invariant untouched; nothing is owed to another core.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents at entry and at exit, read at the core's own references. -/
abbrev Uin4 : (c : Dev nD) → (b : Ref sig .tc) → Buf (Elt F) ((c : Thread nD τ).loc b) := fun c b => W13 m c b
abbrev Uout4 : (c : Dev nD) → (b : Ref sig .tc) → Buf (Elt F) ((c : Thread nD τ).loc b) := fun c b => W14 m c b

/-- At exit each of the region's arrays holds what the pipeline leaves: an input array its entry contents, the result
    array the fold of the write-backs. -/
theorem hF4 (c : Dev nD) (w : Fin cfg4.W) : (pdats m 4 c).arrAt w cfg4.N = Uout4 m c (Pipeline.arrRef spec4 w) := by
  match w with
  | ⟨0, _⟩ =>
    have hA : (pdats m 4 c).A 0 = Uin4 m c (Pipeline.arrRef spec4 0) := rfl
    refine (((pdats m 4 c).arrAt_in 0 rfl _).trans hA).trans ?_
    exact (Function.update_of_ne (StableHlo.devRef_ne_of_ne (show Pipeline.arrRef spec4 0 ≠ main_v115 by decide)) (o14 m c) (W13 m c)).symm
  | ⟨1, _⟩ =>
    have hA : (pdats m 4 c).A 1 = Uin4 m c (Pipeline.arrRef spec4 1) := rfl
    refine (((pdats m 4 c).arrAt_in 1 rfl _).trans hA).trans ?_
    exact (Function.update_of_ne (StableHlo.devRef_ne_of_ne (show Pipeline.arrRef spec4 1 ≠ main_v115 by decide)) (o14 m c) (W13 m c)).symm
  | ⟨2, _⟩ =>
    show o14 m c = Function.update (W13 m c) (Proc.devRef .tc main_v115) (o14 m c) (Proc.devRef .tc main_v115)
    exact (Function.update_self (Proc.devRef .tc main_v115) (o14 m c) (W13 m c)).symm

/-- Every buffer that is none of the region's arrays is as the region found it. -/
theorem hrest4 (c : Dev nD) : ∀ b, b ∉ Finset.univ.image (Pipeline.arrRef spec4) → Uout4 m c b = Uin4 m c b := fun b hb => by
  show Function.update (W13 m c) (Proc.devRef .tc main_v115) (o14 m c) (Proc.devRef .tc b) = W13 m c (Proc.devRef .tc b)
  have hne : b ≠ main_v115 := fun e => hb (Finset.mem_image.mpr ⟨2, Finset.mem_univ _, e.symm⟩)
  exact Function.update_of_ne (StableHlo.devRef_ne_of_ne hne) (o14 m c) (W13 m c)

set_option backward.isDefEq.respectTransparency.types false in
/-- Region 4 over the thread state "every unscoped buffer at the boundary's contents, the generator register at some
    state, nothing owed". -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Uin4 m) c).loose
  hwaits := Pipeline.hwaits_of_owed_zero _ _ _ _ L lv 4 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec4 c (Uin4 m c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (Uin4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (Uin4 m c) (Uout4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiBody5.lean ====
import proofs.«147610_j32590211842242_1_alg».proof.Proof.KiData

/-!
# Region 5: the body's triple and the body obligation

The body of matrix product 5 loads its two input buffers whole, forms their product and stores it over the whole
result buffer. Run on whole staging buffers holding x0 and x1 it therefore leaves the inputs as they were and the
result buffer at out5_2 x0 x1. At every grid point the pipeline hands the body each input window's block (fetched
at that point or kept from an earlier one: the block index has not moved), so the body obligation holds with the
result buffer left at out5_2 of the two blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before5_0 (c : Dev nD) (t : Fin cfg5.N) (d) : (dat5 V c).before 0 t d = iblk5 V c 0 t :=
  ((dat5 V c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)

set_option maxHeartbeats 1000000 in
/-- The body on whole staging buffers: inputs at x0 and x1, the result buffer at anything; it ends with the inputs
    unchanged and the result buffer at the product. -/
theorem sound_kernel5 (c : Dev nD) (E : Set ℕ) (i : grid5.Coords)
    (arg0 : Memref sig .tc .vmem S2048x128 .f32) (harg0 : arg0.IsWhole) (arg1 : Memref sig .tc .vmem S2048x128 .f32) (harg1 : arg1.IsWhole)
    (arg2 : Memref sig .tc .vmem S2048x2048 .f32) (harg2 : arg2.IsWhole)
    (x0 : Vec F S2048x128 .f32) (x1 : Vec F S2048x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out5_2 x0 x1)) -∗ K ⟨⟩))
      ⊢ wp frame (wpE (defs₀ (F := F)) Variants.none c none) E (cc5__self_matmul_kernel i arg0 harg0 arg1 harg1 arg2 harg2) K := by
  simp only [cc5__self_matmul_kernel_eq_skeleton]; unfold cc5__self_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their blocks, so the triple applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 5, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KiReg5.lean ====
import proofs.«147610_j32590211842242_1_alg».proof.Proof.KiPdats
import proofs.«147610_j32590211842242_1_alg».proof.Proof.KiBody5

/-!
# Region 5 as a segment of the program

Region 5 multiplies s by its own transpose: its two input windows (0 and 1) read one array, main_v136, and its
result window (2) writes main_v137. A core enters the region holding every unscoped buffer whole; the hold on
main_v136 is dealt between the two input windows, the left half of the full share to window 0 and the right half to
window 1, and main_v137 goes whole to window 2. Neither input is ever written, so at the exit both halves still
hold main_v136's entry contents and join back into the full hold; main_v137 holds the fold of the result window's
write-backs, and every other buffer was never touched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Split

variable (V : (c : Dev nD) → (b : Ref sig .tc) → Buf (Elt F) ((c : Thread nD τ).loc b))

/-- The three windows stand on two buffers. -/
theorem image_arrRef5 : (Finset.univ : Finset (Fin 3)).image (Pipeline.arrRef spec5) = {main_v136, main_v137} := by decide

/-- The buffers behind the windows' arrays, one by one. -/
theorem arrBufs5_eq (c : Dev nD) (Vc : (b : Ref sig .tc) → Buf (Elt F) ((c : Thread nD τ).loc b)) :
    (Pipeline.arrBufs (Ix := Unit) (Name := ℕ) (U := UR sig nD τ) (Lvl := ℕ) spec5 c Vc : sProp 𝕄)
      = iprop((((c : Thread nD τ).loc main_v136) ↦{fullShare} Vc main_v136) ∗ (((c : Thread nD τ).loc main_v137) ↦{fullShare} Vc main_v137)) := by
  unfold Pipeline.arrBufs
  rw [image_arrRef5, bigSep_insert (by decide), bigSep_singleton]
  rfl

/-- The shares the proof data hold the arrays at: the two halves of the full share for the inputs on main_v136,
    the full share for the result. -/
theorem share5_0 (c : Dev nD) : (dat5 V c).share 0 = fullShare.left := by
  unfold Dat.share; rw [if_neg (by decide)]; dsimp only [dat5]
theorem share5_1 (c : Dev nD) : (dat5 V c).share 1 = fullShare.right := by
  unfold Dat.share; rw [if_neg (by decide)]; dsimp only [dat5]
theorem share5_2 (c : Dev nD) : (dat5 V c).share 2 = fullShare := by
  unfold Dat.share; rw [if_pos (by decide)]

/-- The windows' arrays, one by one: each is a whole buffer. -/
theorem arrays5_eq (c : Dev nD) (Vc : (b : Ref sig .tc) → Buf (Elt F) ((c : Thread nD τ).loc b))
    (Fw : (w : Fin cfg5.W) → Buf (Elt F) ((cfg5.win w).arr.view.loc (c : Thread nD τ)))
    (h0 : Fw 0 = Vc main_v136) (h1 : Fw 1 = Vc main_v136) (h2 : Fw 2 = Vc main_v137) :
    (dat5 V c).arrays Fw
      = iprop((((c : Thread nD τ).loc main_v136) ↦{fullShare.left} Vc main_v136) ∗ (((c : Thread nD τ).loc main_v136) ↦{fullShare.right} Vc main_v136)
          ∗ (((c : Thread nD τ).loc main_v137) ↦{fullShare} Vc main_v137)) := by
  unfold Dat.arrays
  rw [bigSep_W5, h0, h1, h2, share5_0, share5_1, share5_2, (arr_whole5 0).set_eq_univ, (arr_whole5 2).set_eq_univ]

/-- ENTRY: the two buffers, each held whole, make the three windows' arrays at the same contents: the hold on
    main_v136 splits into its two halves. -/
theorem arrays_of_arrBufs5 (c : Dev nD) (Vc : (b : Ref sig .tc) → Buf (Elt F) ((c : Thread nD τ).loc b))
    (Fw : (w : Fin cfg5.W) → Buf (Elt F) ((cfg5.win w).arr.view.loc (c : Thread nD τ)))
    (h0 : Fw 0 = Vc main_v136) (h1 : Fw 1 = Vc main_v136) (h2 : Fw 2 = Vc main_v137) :
    (Pipeline.arrBufs (Ix := Unit) (Name := ℕ) (U := UR sig nD τ) (Lvl := ℕ) spec5 c Vc : sProp 𝕄) ⊢ (dat5 V c).arrays Fw := by
  rw [arrBufs5_eq, arrays5_eq V c Vc Fw h0 h1 h2]
  iintro ⟨H136, H137⟩
  ihave H := (pointsTo_share (PosShare.mem_left_op_right fullShare)).1 $$ H136
  icases H with ⟨Hl, Hr⟩
  isplitl [Hl]; · iexact Hl
  isplitl [Hr]; · iexact Hr
  iexact H137

/-- EXIT: the three windows' arrays, the two on main_v136 at one contents, make the two buffers held whole: the two
    halves of main_v136 join. -/
theorem arrBufs_of_arrays5 (c : Dev nD) (Vc : (b : Ref sig .tc) → Buf (Elt F) ((c : Thread nD τ).loc b))
    (Fw : (w : Fin cfg5.W) → Buf (Elt F) ((cfg5.win w).arr.view.loc (c : Thread nD τ)))
    (h0 : Fw 0 = Vc main_v136) (h1 : Fw 1 = Vc main_v136) (h2 : Fw 2 = Vc main_v137) :
    (dat5 V c).arrays Fw ⊢ (Pipeline.arrBufs (Ix := Unit) (Name := ℕ) (U := UR sig nD τ) (Lvl := ℕ) spec5 c Vc : sProp 𝕄) := by
  rw [arrBufs5_eq, arrays5_eq V c Vc Fw h0 h1 h2]
  iintro ⟨Hl, Hr, H137⟩
  isplitl [Hl Hr]
  · iapply (pointsTo_share (PosShare.mem_left_op_right fullShare)).2
    isplitl [Hl]; · iexact Hl
    iexact Hr
  iexact H137

/-- A core's unscoped buffers are the two buffers behind region 5's windows and the rest. -/
theorem unscopedBufs_split5 (c : Dev nD) (Vc : (b : Ref sig .tc) → Buf (Elt F) ((c : Thread nD τ).loc b)) :
    (unscopedBufs (Ix := Unit) (Name := ℕ) (U := UR sig nD τ) (Lvl := ℕ) c Vc : sProp 𝕄)
      = iprop(Pipeline.arrBufs spec5 c Vc ∗ Pipeline.unscopedRest spec5 c Vc) :=
  Pipeline.unscopedBufs_split₀ cfgs (5 : Fin 6) winFacts₀5.arr_unscoped c Vc

end Split

section Whole

-- what every buffer of a core holds when the region is entered, core by core
variable (Wv : Dev nD → Valuation τ sig (Elt F))

/-- ENTRY, whole: every unscoped buffer at the entry contents is the windows' arrays at the proof data's entry
    contents and the unscoped rest. -/
theorem entry5 (c : Dev nD) :
    (StableHlo.held (c : Thread nD τ) (Pipeline.ucRefs τ sig) (Wv c) : sProp 𝕄)
      ⊢ iprop((dat5 (fun c b => Wv c b) c).arrays ((dat5 (fun c b => Wv c b) c).arrAt · 0)
          ∗ Pipeline.unscopedRest (Ix := Unit) (Name := ℕ) (U := UR sig nD τ) (Lvl := ℕ) spec5 c (fun b => Wv c b)) := by
  rw [← Pipeline.unscopedBufs_held, unscopedBufs_split5]
  exact sep_mono (arrays_of_arrBufs5 _ c _ _ (A_eq5 _ c 0) (A_eq5 _ c 1) (A_eq5 _ c 2)) .rfl

/-- EXIT, whole: the windows' arrays at what the pipeline leaves and the unscoped rest as entered are every unscoped
    buffer at the entry contents updated at main_v137 by the fold of the result window's write-backs. -/
theorem exit5 (c : Dev nD) :
    iprop((dat5 (fun c b => Wv c b) c).arrays ((dat5 (fun c b => Wv c b) c).arrAt · cfg5.N)
        ∗ Pipeline.unscopedRest (Ix := Unit) (Name := ℕ) (U := UR sig nD τ) (Lvl := ℕ) spec5 c (fun b => Wv c b))
      ⊢ (StableHlo.held (c : Thread nD τ) (Pipeline.ucRefs τ sig)
          (Function.update (Wv c) main_v137 ((dat5 (fun c b => Wv c b) c).arrAt 2 cfg5.N)) : sProp 𝕄) := by
  rw [← Pipeline.unscopedBufs_held, unscopedBufs_split5]
  refine sep_mono (arrBufs_of_arrays5 _ c _ _ ?_ ?_ ?_) (Entails.of_eq ?_)
  · exact (((dat5 (fun c b => Wv c b) c).arrAt_in 0 rfl _).trans (A_eq5 _ c 0)).trans
      (Function.update_of_ne (StableHlo.devRef_ne_of_ne (by decide)) _ _).symm
  · exact (((dat5 (fun c b => Wv c b) c).arrAt_in 1 rfl _).trans (A_eq5 _ c 1)).trans
      (Function.update_of_ne (StableHlo.devRef_ne_of_ne (by decide)) _ _).symm
  · exact (Function.update_self (Proc.devRef .tc main_v137) ((dat5 (fun c b => Wv c b) c).arrAt 2 cfg5.N) (Wv c)).symm
  · unfold Pipeline.unscopedRest
    refine bigSep_congr fun b hb => ?_
    have hne : b ≠ main_v137 := fun e => (Finset.mem_sdiff.mp hb).2 (Finset.mem_image.mpr ⟨2, Finset.mem_univ _, e.symm⟩)
    show (((c : Thread nD τ).loc b) ↦{fullShare} Wv c (Proc.devRef .tc b))
      = (((c : Thread nD τ).loc b) ↦{fullShare}
          Function.update (Wv c) (Proc.devRef .tc main_v137) ((dat5 (fun c b => Wv c b) c).arrAt 2 cfg5.N) (Proc.devRef .tc b))
    rw [Function.update_of_ne (StableHlo.devRef_ne_of_ne hne) ((dat5 (fun c b => Wv c b) c).arrAt 2 cfg5.N) (Wv c)]

end Whole

variable (m : (ℓ : Loc nD τ sig) → Buf (Elt F) ℓ)

set_option backward.isDefEq.respectTransparency.types false in
/-- Region 5 over the thread state "every unscoped buffer at the boundary's contents, the generator register at some
    state, nothing owed": entered with the buffers at W16, left with them at W17 — main_v137 at the fold of the result
    window's write-backs, every other buffer as found. -/
def reg5 : Pipeline.RegionSeg (pcfgs (F := F)) Gen.adm (pdats m) () defs₀ 𝒱₀ L lv 5 where
  win := winFacts₀5
  block_pos := block_pos5
  stage_whole := stage_whole5
  K := PEmpty
  osem k := k.elim
  ho := Pipeline.OwnSemFacts.none _
  hbody c := (body_obligation5 (fun c b => W16 m c b) c).loose
  hwaits := Pipeline.hwaits_of_owed_zero _ _ _ _ L lv 5 fun _ _ => rfl
  pre c := iprop(StableHlo.held (c : Thread nD τ) (Pipeline.ucRefs τ sig) (W16 m c) ∗ R c)
  post c := iprop(StableHlo.held (c : Thread nD τ) (Pipeline.ucRefs τ sig) (W17 m c) ∗ R c)
  X c := iprop(∃ r, prngReg c r)
  Y c := iprop(∃ r, prngReg c r)
  Z c := Pipeline.unscopedRest (Ix := Unit) (Name := ℕ) (U := UR sig nD τ) (Lvl := ℕ) spec5 c (fun b => W16 m c b)
  hentry c := by
    rw [Pipeline.ownSems0_none]
    have hsplit : (StableHlo.held (c : Thread nD τ) (Pipeline.ucRefs τ sig) (W16 m c) : sProp 𝕄)
        ⊢ iprop((pdats m 5 c).arrays ((pdats m 5 c).arrAt · 0)
            ∗ Pipeline.unscopedRest (Ix := Unit) (Name := ℕ) (U := UR sig nD τ) (Lvl := ℕ) spec5 c (fun b => W16 m c b)) :=
      entry5 (W16 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin : iprop((pdats m 5 c).arrays ((pdats m 5 c).arrAt · cfg5.N)
          ∗ Pipeline.unscopedRest (Ix := Unit) (Name := ℕ) (U := UR sig nD τ) (Lvl := ℕ) spec5 c (fun b => W16 m c b))
        ⊢ (StableHlo.held (c : Thread nD τ) (Pipeline.ucRefs τ sig) (W17 m c) : sProp 𝕄) :=
      exit5 (W16 m) c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiRun.lean ====
import proofs.«147610_j32590211842242_1_alg».proof.Proof.KiReg0
import proofs.«147610_j32590211842242_1_alg».proof.Proof.KiReg1
import proofs.«147610_j32590211842242_1_alg».proof.Proof.KiReg2
import proofs.«147610_j32590211842242_1_alg».proof.Proof.KiReg3
import proofs.«147610_j32590211842242_1_alg».proof.Proof.KiReg4
import proofs.«147610_j32590211842242_1_alg».proof.Proof.KiReg5

/-!
# The run of the whole program

The program is seventeen items in order: a stretch of host operations, then five times (a matrix product, a stretch of
host operations, the relu), then the last matrix product. Each item is entered from the thread state "every unscoped
buffer of the core at the boundary's contents, the generator register at some state, nothing owed" and leaves the next
boundary's. So every weakly fair execution terminates, and in the final memory every unscoped buffer of every core
holds the last boundary's contents W17: the arguments as launched, and each result at the value the chain computes.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What rides beside the buffers is the same at every boundary. -/
abbrev Erest : Fin 7 → Dev nD → sProp 𝕄 := fun _ c => R c

/-- Two valuations that are equal hold the same buffers. -/
theorem held_of_eq (c : Dev nD) {V V' : Valuation τ sig (Elt F)} (h : V = V') :
    (iprop(StableHlo.held (c : Thread nD τ) (Pipeline.ucRefs τ sig) V ∗ R c) : sProp 𝕄)
      ⊢ iprop(StableHlo.held (c : Thread nD τ) (Pipeline.ucRefs τ sig) V' ∗ R c) := by
  subst h; exact .rfl

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option maxRecDepth 400000 in
set_option backward.isDefEq.respectTransparency.types false in
/-- Given region 5's record over the same thread states, the program runs to the end and every unscoped buffer ends at
    the last boundary's contents. -/
theorem run_all
    (R5 : RegionSeg (pcfgs (F := F)) Gen.adm (pdats m) () defs₀ 𝒱₀ L lv 5)
    (hpre5 : ∀ c : Dev nD, (iprop(StableHlo.held (c : Thread nD τ) (Pipeline.ucRefs τ sig) (W16 m c) ∗ R c) : sProp 𝕄) ⊢ R5.pre c)
    (hpost5 : ∀ c : Dev nD, R5.post c ⊢ (iprop(StableHlo.held (c : Thread nD τ) (Pipeline.ucRefs τ sig) (W17 m c) ∗ R c) : sProp 𝕄)) :
    θ_run defs (onTc (τ := τ) (main (F := F))) ⟨m, fun _ => 0, ρ⟩
      (fun r => ∀ c : Dev nD, ∀ b ∈ Pipeline.ucRefs τ sig, r.2.mem ((c : Thread nD τ).1, b) = W17 m c b) := by
  refine Pipeline.θ_run_regions_kit_dev (pcfgs (F := F)) Gen.adm (pdats m) () cellOf_inj emb₁ defs₀ 𝒱₀ L lv m ρ main
    (Gen.segs m (outs m) 𝒱₀ L lv (Erest) () (pdats m) (reg0 m) (reg1 m) (reg2 m) (reg3 m) (reg4 m) R5)
    (fun c Q => ?hmain) (fun c => ?hnd) (O₀ := 0) (hL := fun _ _ => rfl) (G := fun _ => (BI.emp : sProp 𝕄))
    (u₀ := initOf (Pipeline.cells (Pipeline.pin (pcfgs (F := F)) Gen.adm) cellOf_inj) (Pipeline.launchToks (Pipeline.pin (pcfgs (F := F)) Gen.adm) cellOf_inj)) (hu₀ := ?hu)
    (T₀ := fun c => iprop(StableHlo.held (c : Thread nD τ) (Pipeline.ucRefs τ sig) (W0 m c) ∗ R c))
    (Tₙ := fun c => iprop(StableHlo.held (c : Thread nD τ) (Pipeline.ucRefs τ sig) (W17 m c) ∗ ∃ r, prngReg c r))
    (hch := fun c => ?hch) (hinit := ?hinit)
    (QY := fun c s => ∀ b ∈ Pipeline.ucRefs τ sig, s.mem ((c : Thread nD τ).1, b) = W17 m c b)
    (hfin := fun c s' => ?hfin) (hQ := fun _ h => h)
  case hmain =>
    -- the program is the chain of the items' fragments, and so is the run of the segment list
    rw [Gen.main_chain c, Seg.run_eq_chain]
    exact .rfl
  case hnd =>
    simp only [Gen.segs, Seg.pipes_host, Seg.pipes_region, Seg.pipes_nil]; decide
  case hu =>
    rw [ownU_emb₁, BI.bigSep_emp_const]
    iintro Hu; imodintro
    isplitl [Hu]
    · iexact Hu
    · iempintro
  case hch =>
    refine ⟨.rfl, .rfl,
      held_of_eq c (V2_eq m c).symm, .rfl, held_of_eq c (V4_eq m c),
      held_of_eq c (V5_eq m c).symm, .rfl, held_of_eq c (V7_eq m c),
      held_of_eq c (V8_eq m c).symm, .rfl, held_of_eq c (V10_eq m c),
      held_of_eq c (V11_eq m c).symm, .rfl, held_of_eq c (V13_eq m c),
      held_of_eq c (V14_eq m c).symm, .rfl, (held_of_eq c (V16_eq m c)).trans (hpre5 c), ?_⟩
    refine (hpost5 c).trans ?_
    iintro ⟨Hh, Hp, HO⟩
    isplitl [Hh Hp]
    · isplitl [Hh] <;> iassumption
    · iexact HO
  case hinit =>
    refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  case hfin =>
    unfold StableHlo.held
    iintro ⟨⟨Hh, -⟩, HSI⟩
    imodintro
    iapply (pointsTo_read_all (Pipeline.ucRefs τ sig) (fun b => (((c : Thread nD τ)).1, b)) (W17 m c) s')
    isplitl [Hh] <;> iassumption

/-- The program runs to the end and every unscoped buffer ends at the last boundary's contents. -/
theorem run : θ_run defs (onTc (τ := τ) (main (F := F))) ⟨m, fun _ => 0, ρ⟩
    (fun r => ∀ c : Dev nD, ∀ b ∈ Pipeline.ucRefs τ sig, r.2.mem ((c : Thread nD τ).1, b) = W17 m c b) :=
  run_all m ρ (reg5 m) (fun _ => .rfl) (fun _ => .rfl)

end Cert.KernelIdeal.Hand

end
-- ==== Proof.KiFinal.lean ====
import proofs.«147610_j32590211842242_1_alg».proof.Proof.KiRun

/-!
# What the run leaves: the two results and the arguments

Every unscoped buffer ends at the last boundary's contents. Read at the two result buffers this names the results;
read at an argument it is the launch contents, since no item of the program writes an argument.
-/

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

theorem W17_arg0 (c : Dev nD) : W17 m c main_arg0 = m ((c.tc : Thread nD τ).loc main_arg0) :=
  (congrFun (V17_eq m c) _).symm.trans (Gen.V17_main_arg0 m (outs m) c)
theorem W17_arg1 (c : Dev nD) : W17 m c main_arg1 = m ((c.tc : Thread nD τ).loc main_arg1) :=
  (congrFun (V17_eq m c) _).symm.trans (Gen.V17_main_arg1 m (outs m) c)
theorem W17_arg2 (c : Dev nD) : W17 m c main_arg2 = m ((c.tc : Thread nD τ).loc main_arg2) :=
  (congrFun (V17_eq m c) _).symm.trans (Gen.V17_main_arg2 m (outs m) c)
theorem W17_arg3 (c : Dev nD) : W17 m c main_arg3 = m ((c.tc : Thread nD τ).loc main_arg3) :=
  (congrFun (V17_eq m c) _).symm.trans (Gen.V17_main_arg3 m (outs m) c)
theorem W17_arg4 (c : Dev nD) : W17 m c main_arg4 = m ((c.tc : Thread nD τ).loc main_arg4) :=
  (congrFun (V17_eq m c) _).symm.trans (Gen.V17_main_arg4 m (outs m) c)
theorem W17_arg5 (c : Dev nD) : W17 m c main_arg5 = m ((c.tc : Thread nD τ).loc main_arg5) :=
  (congrFun (V17_eq m c) _).symm.trans (Gen.V17_main_arg5 m (outs m) c)
theorem W17_arg6 (c : Dev nD) : W17 m c main_arg6 = m ((c.tc : Thread nD τ).loc main_arg6) :=
  (congrFun (V17_eq m c) _).symm.trans (Gen.V17_main_arg6 m (outs m) c)
theorem W17_arg7 (c : Dev nD) : W17 m c main_arg7 = m ((c.tc : Thread nD τ).loc main_arg7) :=
  (congrFun (V17_eq m c) _).symm.trans (Gen.V17_main_arg7 m (outs m) c)
theorem W17_arg8 (c : Dev nD) : W17 m c main_arg8 = m ((c.tc : Thread nD τ).loc main_arg8) :=
  (congrFun (V17_eq m c) _).symm.trans (Gen.V17_main_arg8 m (outs m) c)
theorem W17_arg9 (c : Dev nD) : W17 m c main_arg9 = m ((c.tc : Thread nD τ).loc main_arg9) :=
  (congrFun (V17_eq m c) _).symm.trans (Gen.V17_main_arg9 m (outs m) c)
theorem W17_arg10 (c : Dev nD) : W17 m c main_arg10 = m ((c.tc : Thread nD τ).loc main_arg10) :=
  (congrFun (V17_eq m c) _).symm.trans (Gen.V17_main_arg10 m (outs m) c)
theorem W17_arg11 (c : Dev nD) : W17 m c main_arg11 = m ((c.tc : Thread nD τ).loc main_arg11) :=
  (congrFun (V17_eq m c) _).symm.trans (Gen.V17_main_arg11 m (outs m) c)

/-- The run with its post read at the results and the arguments. -/
theorem run_results : θ_run defs (onTc (τ := τ) (main (F := F))) ⟨m, fun _ => 0, ρ⟩ (fun r => ∀ c : Dev nD,
      r.2.mem ((c.tc : Thread nD τ).loc main_v137) = W17 m c main_v137
      ∧ r.2.mem ((c.tc : Thread nD τ).loc main_v114) = W17 m c main_v114
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v137 (by decide)), h c _ (mem_uc main_v114 (by decide)),
     (h c _ (mem_uc main_arg0 (by decide))).trans (W17_arg0 m c),
     (h c _ (mem_uc main_arg1 (by decide))).trans (W17_arg1 m c),
     (h c _ (mem_uc main_arg2 (by decide))).trans (W17_arg2 m c),
     (h c _ (mem_uc main_arg3 (by decide))).trans (W17_arg3 m c),
     (h c _ (mem_uc main_arg4 (by decide))).trans (W17_arg4 m c),
     (h c _ (mem_uc main_arg5 (by decide))).trans (W17_arg5 m c),
     (h c _ (mem_uc main_arg6 (by decide))).trans (W17_arg6 m c),
     (h c _ (mem_uc main_arg7 (by decide))).trans (W17_arg7 m c),
     (h c _ (mem_uc main_arg8 (by decide))).trans (W17_arg8 m c),
     (h c _ (mem_uc main_arg9 (by decide))).trans (W17_arg9 m c),
     (h c _ (mem_uc main_arg10 (by decide))).trans (W17_arg10 m c),
     (h c _ (mem_uc main_arg11 (by decide))).trans (W17_arg11 m c)⟩)
    (run m ρ)

/-- The frame: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2.2) (run_results m ρ)

end Cert.KernelIdeal.Hand

end
-- ==== Proof.KnData.lean ====
import proofs.«147610_j32590211842242_1_alg».proof.Proof.Gen.Kernel.Launch
import proofs.«147610_j32590211842242_1_alg».proof.Proof.Gen.Kernel.Skeleton
import proofs.«147610_j32590211842242_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

/-!
# The six matrix products as pipelines: blocks, body outputs, proof data

The program launches six tiled matrix products. Each region has three windows: window 0 is a block of rows of the
left operand, window 1 the right operand (the whole weight matrix for regions 0 to 4; a block of rows of the same
array as window 0 for region 5, whose product is s times its own transpose), window 2 the block of the result that
the grid point computes.

Everything here is stated at a parameter V: what each buffer of a core holds when the region is entered.
* iblkK V c w t is window w's block at grid point t, read off its array under V.
* outK_2 x0 x1 is what the body leaves in the result window's staging buffer when the two input buffers hold
  x0 and x1: its single whole-buffer store, of the product of the two loaded blocks.
* datK V c is the pipeline's proof data: the arrays as found under V; after the body, each input buffer still holds
  its block and the result buffer holds outK_2 of the two input blocks.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## Region 0 -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev r0_0 : Rect S2048x256 := Rect.unit (s := S2048x256) ![0, 0] S2048x256.size inb_S2048x256_S2048x256_0_0
abbrev r0_1 : Rect S256x128 := Rect.unit (s := S256x128) ![0, 0] S256x128.size inb_S256x128_S256x128_0_0
abbrev r0_2 : Rect S2048x128 := Rect.unit (s := S2048x128) ![0, 0] S2048x128.size inb_S2048x128_S2048x128_0_0

/-- The result window's staging buffer after the body: one store, over the whole buffer, of the product of the two
    loaded input buffers. -/
def out0_2 (x0 : Vec F S2048x256 .f32) (x1 : Vec F S256x128 .f32) : Vec F S2048x128 .f32 :=
  View.canon [⟨r0_2, k0_pay1 (View.ld x0 r0_0) (View.ld x1 r0_1)⟩]

/-- The single store covers the buffer. -/
theorem cover0_2 (p0 : Vec F S2048x128 .f32) (y : S2048x128.Idx) :
    ∃ pc ∈ ([⟨r0_2, p0⟩] : List (View.Piece (Elt F) S2048x128 .f32)), y ∈ pc.1.set :=
  View.cover_of_tiled [⟨r0_2, p0⟩] S2048x128.size (by rfl) y

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1 -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev r1_0 : Rect S2048x128 := Rect.unit (s := S2048x128) ![0, 0] S2048x128.size inb_S2048x128_S2048x128_0_0
abbrev r1_1 : Rect S128x128 := Rect.unit (s := S128x128) ![0, 0] S128x128.size inb_S128x128_S128x128_0_0
abbrev r1_2 : Rect S2048x128 := Rect.unit (s := S2048x128) ![0, 0] S2048x128.size inb_S2048x128_S2048x128_0_0

/-- The result window's staging buffer after the body: one store, over the whole buffer, of the product of the two
    loaded input buffers. -/
def out1_2 (x0 : Vec F S2048x128 .f32) (x1 : Vec F S128x128 .f32) : Vec F S2048x128 .f32 :=
  View.canon [⟨r1_2, k1_pay1 (View.ld x0 r1_0) (View.ld x1 r1_1)⟩]

/-- The single store covers the buffer. -/
theorem cover1_2 (p0 : Vec F S2048x128 .f32) (y : S2048x128.Idx) :
    ∃ pc ∈ ([⟨r1_2, p0⟩] : List (View.Piece (Elt F) S2048x128 .f32)), y ∈ pc.1.set :=
  View.cover_of_tiled [⟨r1_2, p0⟩] S2048x128.size (by rfl) y

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## Region 2 -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev r2_0 : Rect S2048x128 := Rect.unit (s := S2048x128) ![0, 0] S2048x128.size inb_S2048x128_S2048x128_0_0
abbrev r2_1 : Rect S128x128 := Rect.unit (s := S128x128) ![0, 0] S128x128.size inb_S128x128_S128x128_0_0
abbrev r2_2 : Rect S2048x128 := Rect.unit (s := S2048x128) ![0, 0] S2048x128.size inb_S2048x128_S2048x128_0_0

/-- The result window's staging buffer after the body: one store, over the whole buffer, of the product of the two
    loaded input buffers. -/
def out2_2 (x0 : Vec F S2048x128 .f32) (x1 : Vec F S128x128 .f32) : Vec F S2048x128 .f32 :=
  View.canon [⟨r2_2, k2_pay1 (View.ld x0 r2_0) (View.ld x1 r2_1)⟩]

/-- The single store covers the buffer. -/
theorem cover2_2 (p0 : Vec F S2048x128 .f32) (y : S2048x128.Idx) :
    ∃ pc ∈ ([⟨r2_2, p0⟩] : List (View.Piece (Elt F) S2048x128 .f32)), y ∈ pc.1.set :=
  View.cover_of_tiled [⟨r2_2, p0⟩] S2048x128.size (by rfl) y

/-- The proof data of pipeline 2 on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-! ## Region 3 -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole-buffer rectangles the body loads and stores through. -/
abbrev r3_0 : Rect S2048x128 := Rect.unit (s := S2048x128) ![0, 0] S2048x128.size inb_S2048x128_S2048x128_0_0
abbrev r3_1 : Rect S128x256 := Rect.unit (s := S128x256) ![0, 0] S128x256.size inb_S128x256_S128x256_0_0
abbrev r3_2 : Rect S2048x256 := Rect.unit (s := S2048x256) ![0, 0] S2048x256.size inb_S2048x256_S2048x256_0_0

/-- The result window's staging buffer after the body: one store, over the whole buffer, of the product of the two
    loaded input buffers. -/
def out3_2 (x0 : Vec F S2048x128 .f32) (x1 : Vec F S128x256 .f32) : Vec F S2048x256 .f32 :=
  View.canon [⟨r3_2, k3_pay1 (View.ld x0 r3_0) (View.ld x1 r3_1)⟩]

/-- The single store covers the buffer. -/
theorem cover3_2 (p0 : Vec F S2048x256 .f32) (y : S2048x256.Idx) :
    ∃ pc ∈ ([⟨r3_2, p0⟩] : List (View.Piece (Elt F) S2048x256 .f32)), y ∈ pc.1.set :=
  View.cover_of_tiled [⟨r3_2, p0⟩] S2048x256.size (by rfl) y

/-- The proof data of pipeline 3 on core c. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-! ## Region 4 -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole-buffer rectangles the body loads and stores through. -/
abbrev r4_0 : Rect S2048x128 := Rect.unit (s := S2048x128) ![0, 0] S2048x128.size inb_S2048x128_S2048x128_0_0
abbrev r4_1 : Rect S128x128 := Rect.unit (s := S128x128) ![0, 0] S128x128.size inb_S128x128_S128x128_0_0
abbrev r4_2 : Rect S2048x128 := Rect.unit (s := S2048x128) ![0, 0] S2048x128.size inb_S2048x128_S2048x128_0_0

/-- The result window's staging buffer after the body: one store, over the whole buffer, of the product of the two
    loaded input buffers. -/
def out4_2 (x0 : Vec F S2048x128 .f32) (x1 : Vec F S128x128 .f32) : Vec F S2048x128 .f32 :=
  View.canon [⟨r4_2, k4_pay1 (View.ld x0 r4_0) (View.ld x1 r4_1)⟩]

/-- The single store covers the buffer. -/
theorem cover4_2 (p0 : Vec F S2048x128 .f32) (y : S2048x128.Idx) :
    ∃ pc ∈ ([⟨r4_2, p0⟩] : List (View.Piece (Elt F) S2048x128 .f32)), y ∈ pc.1.set :=
  View.cover_of_tiled [⟨r4_2, p0⟩] S2048x128.size (by rfl) y

/-- The proof data of pipeline 4 on core c. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-! ## Region 5 -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole-buffer rectangles the body loads and stores through. -/
abbrev r5_0 : Rect S2048x128 := Rect.unit (s := S2048x128) ![0, 0] S2048x128.size inb_S2048x128_S2048x128_0_0
abbrev r5_1 : Rect S2048x128 := Rect.unit (s := S2048x128) ![0, 0] S2048x128.size inb_S2048x128_S2048x128_0_0
abbrev r5_2 : Rect S2048x2048 := Rect.unit (s := S2048x2048) ![0, 0] S2048x2048.size inb_S2048x2048_S2048x2048_0_0

/-- The result window's staging buffer after the body: one store, over the whole buffer, of the product of the two
    loaded input buffers. -/
def out5_2 (x0 : Vec F S2048x128 .f32) (x1 : Vec F S2048x128 .f32) : Vec F S2048x2048 .f32 :=
  View.canon [⟨r5_2, k5_pay1 (View.ld x0 r5_0) (View.ld x1 r5_1)⟩]

/-- The single store covers the buffer. -/
theorem cover5_2 (p0 : Vec F S2048x2048 .f32) (y : S2048x2048.Idx) :
    ∃ pc ∈ ([⟨r5_2, p0⟩] : List (View.Piece (Elt F) S2048x2048 .f32)), y ∈ pc.1.set :=
  View.cover_of_tiled [⟨r5_2, p0⟩] S2048x2048.size (by rfl) y

/-- The proof data of pipeline 5 on core c. Its two input windows read one array (the product is of s with its own
    transpose), so the core's hold on that array is dealt between them: the left half to window 0, the right half to
    window 1. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q w := match w with
    | ⟨0, _⟩ => fullShare.left
    | ⟨1, _⟩ => fullShare.right
    | ⟨2, _⟩ => fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

end Cert.Kernel.Hand

end
-- ==== Proof.KnPdats.lean ====
import proofs.«147610_j32590211842242_1_alg».proof.Proof.KnData
import proofs.«147610_j32590211842242_1_alg».proof.Proof.Gen.Kernel.Regions

/-!
# The buffers between the regions, and the family of proof data

Between two items of the program every buffer of a core holds a definite value: the launch contents, then the host
operations of each stretch applied in order, then, after a region, the region's result array at the fold of its
write-backs and every other buffer as the region found it. W0 … W17 name these contents, boundary by boundary;
oJ is what the region ending at boundary J wrote. Each region's proof data is taken at the contents the region is
entered from.
-/

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 (c : Dev nD) : Valuation τ sig (Elt F) := fun b => m (c, b)
/-- After the host stretch hostOps0. -/
abbrev W1 (c : Dev nD) : Valuation τ sig (Elt F) := StableHlo.after hostOps0 (W0 m c)
/-- What region 0 writes into main_v27: the fold of its result window's write-backs over the grid. -/
def o2 (c : Dev nD) : Buf (Elt F) ((c : Thread nD τ).loc main_v27) := (dat0 (fun c b => W1 m c b) c).arrAt 2 cfg0.N
/-- After region 0: main_v27 at what the region wrote, every other buffer as the region found it. -/
def W2 (c : Dev nD) : Valuation τ sig (Elt F) := Function.update (W1 m c) main_v27 (o2 m c)
/-- After the host stretch hostOps1. -/
abbrev W3 (c : Dev nD) : Valuation τ sig (Elt F) := StableHlo.after hostOps1 (W2 m c)
/-- After the host stretch hostOps1_1. -/
abbrev W4 (c : Dev nD) : Valuation τ sig (Elt F) := StableHlo.after hostOps1_1 (W3 m c)
/-- What region 1 writes into main_v49: the fold of its result window's write-backs over the grid. -/
def o5 (c : Dev nD) : Buf (Elt F) ((c : Thread nD τ).loc main_v49) := (dat1 (fun c b => W4 m c b) c).arrAt 2 cfg1.N
/-- After region 1: main_v49 at what the region wrote, every other buffer as the region found it. -/
def W5 (c : Dev nD) : Valuation τ sig (Elt F) := Function.update (W4 m c) main_v49 (o5 m c)
/-- After the host stretch hostOps2. -/
abbrev W6 (c : Dev nD) : Valuation τ sig (Elt F) := StableHlo.after hostOps2 (W5 m c)
/-- After the host stretch hostOps2_1. -/
abbrev W7 (c : Dev nD) : Valuation τ sig (Elt F) := StableHlo.after hostOps2_1 (W6 m c)
/-- What region 2 writes into main_v71: the fold of its result window's write-backs over the grid. -/
def o8 (c : Dev nD) : Buf (Elt F) ((c : Thread nD τ).loc main_v71) := (dat2 (fun c b => W7 m c b) c).arrAt 2 cfg2.N
/-- After region 2: main_v71 at what the region wrote, every other buffer as the region found it. -/
def W8 (c : Dev nD) : Valuation τ sig (Elt F) := Function.update (W7 m c) main_v71 (o8 m c)
/-- After the host stretch hostOps3. -/
abbrev W9 (c : Dev nD) : Valuation τ sig (Elt F) := StableHlo.after hostOps3 (W8 m c)
/-- After the host stretch hostOps3_1. -/
abbrev W10 (c : Dev nD) : Valuation τ sig (Elt F) := StableHlo.after hostOps3_1 (W9 m c)
/-- What region 3 writes into main_v93: the fold of its result window's write-backs over the grid. -/
def o11 (c : Dev nD) : Buf (Elt F) ((c : Thread nD τ).loc main_v93) := (dat3 (fun c b => W10 m c b) c).arrAt 2 cfg3.N
/-- After region 3: main_v93 at what the region wrote, every other buffer as the region found it. -/
def W11 (c : Dev nD) : Valuation τ sig (Elt F) := Function.update (W10 m c) main_v93 (o11 m c)
/-- After the host stretch hostOps4. -/
abbrev W12 (c : Dev nD) : Valuation τ sig (Elt F) := StableHlo.after hostOps4 (W11 m c)
/-- After the host stretch hostOps4_1. -/
abbrev W13 (c : Dev nD) : Valuation τ sig (Elt F) := StableHlo.after hostOps4_1 (W12 m c)
/-- What region 4 writes into main_v115: the fold of its result window's write-backs over the grid. -/
def o14 (c : Dev nD) : Buf (Elt F) ((c : Thread nD τ).loc main_v115) := (dat4 (fun c b => W13 m c b) c).arrAt 2 cfg4.N
/-- After region 4: main_v115 at what the region wrote, every other buffer as the region found it. -/
def W14 (c : Dev nD) : Valuation τ sig (Elt F) := Function.update (W13 m c) main_v115 (o14 m c)
/-- After the host stretch hostOps5. -/
abbrev W15 (c : Dev nD) : Valuation τ sig (Elt F) := StableHlo.after hostOps5 (W14 m c)
/-- After the host stretch hostOps5_1. -/
abbrev W16 (c : Dev nD) : Valuation τ sig (Elt F) := StableHlo.after hostOps5_1 (W15 m c)
/-- What region 5 writes into main_v137: the fold of its result window's write-backs over the grid. -/
def o17 (c : Dev nD) : Buf (Elt F) ((c : Thread nD τ).loc main_v137) := (dat5 (fun c b => W16 m c b) c).arrAt 2 cfg5.N
/-- After region 5: main_v137 at what the region wrote, every other buffer as the region found it. -/
def W17 (c : Dev nD) : Valuation τ sig (Elt F) := Function.update (W16 m c) main_v137 (o17 m c)

/-- What the regions leave, as the family the generated boundary valuations are written over. -/
def outs : Gen.Outs (F := F) := fun J r c => match J with
  | 2 => W2 m c r
  | 5 => W5 m c r
  | 8 => W8 m c r
  | 11 => W11 m c r
  | 14 => W14 m c r
  | 17 => W17 m c r
  | _ => W17 m c r

theorem outs_2 (c : Dev nD) : outs m 2 main_v27 c = o2 m c := by
  show W2 m c main_v27 = _
  unfold W2; exact Function.update_self ..
theorem outs_5 (c : Dev nD) : outs m 5 main_v49 c = o5 m c := by
  show W5 m c main_v49 = _
  unfold W5; exact Function.update_self ..
theorem outs_8 (c : Dev nD) : outs m 8 main_v71 c = o8 m c := by
  show W8 m c main_v71 = _
  unfold W8; exact Function.update_self ..
theorem outs_11 (c : Dev nD) : outs m 11 main_v93 c = o11 m c := by
  show W11 m c main_v93 = _
  unfold W11; exact Function.update_self ..
theorem outs_14 (c : Dev nD) : outs m 14 main_v115 c = o14 m c := by
  show W14 m c main_v115 = _
  unfold W14; exact Function.update_self ..
theorem outs_17 (c : Dev nD) : outs m 17 main_v137 c = o17 m c := by
  show W17 m c main_v137 = _
  unfold W17; exact Function.update_self ..

/-- The generated boundary valuations, at this family, are the chain above. -/
theorem V1_eq (c : Dev nD) : Gen.V1 m c = W1 m c := rfl
theorem V2_eq (c : Dev nD) : Gen.V2 m (outs m) c = W2 m c := by
  show Function.update (Gen.V1 m c) main_v27 (outs m 2 main_v27 c) = _
  rw [V1_eq, outs_2]; rfl
theorem V3_eq (c : Dev nD) : Gen.V3 m (outs m) c = W3 m c := by
  show StableHlo.after hostOps1 (Gen.V2 m (outs m) c) = _
  rw [V2_eq]
theorem V4_eq (c : Dev nD) : Gen.V4 m (outs m) c = W4 m c := by
  show StableHlo.after hostOps1_1 (Gen.V3 m (outs m) c) = _
  rw [V3_eq]
theorem V5_eq (c : Dev nD) : Gen.V5 m (outs m) c = W5 m c := by
  show Function.update (Gen.V4 m (outs m) c) main_v49 (outs m 5 main_v49 c) = _
  rw [V4_eq, outs_5]; rfl
theorem V6_eq (c : Dev nD) : Gen.V6 m (outs m) c = W6 m c := by
  show StableHlo.after hostOps2 (Gen.V5 m (outs m) c) = _
  rw [V5_eq]
theorem V7_eq (c : Dev nD) : Gen.V7 m (outs m) c = W7 m c := by
  show StableHlo.after hostOps2_1 (Gen.V6 m (outs m) c) = _
  rw [V6_eq]
theorem V8_eq (c : Dev nD) : Gen.V8 m (outs m) c = W8 m c := by
  show Function.update (Gen.V7 m (outs m) c) main_v71 (outs m 8 main_v71 c) = _
  rw [V7_eq, outs_8]; rfl
theorem V9_eq (c : Dev nD) : Gen.V9 m (outs m) c = W9 m c := by
  show StableHlo.after hostOps3 (Gen.V8 m (outs m) c) = _
  rw [V8_eq]
theorem V10_eq (c : Dev nD) : Gen.V10 m (outs m) c = W10 m c := by
  show StableHlo.after hostOps3_1 (Gen.V9 m (outs m) c) = _
  rw [V9_eq]
theorem V11_eq (c : Dev nD) : Gen.V11 m (outs m) c = W11 m c := by
  show Function.update (Gen.V10 m (outs m) c) main_v93 (outs m 11 main_v93 c) = _
  rw [V10_eq, outs_11]; rfl
theorem V12_eq (c : Dev nD) : Gen.V12 m (outs m) c = W12 m c := by
  show StableHlo.after hostOps4 (Gen.V11 m (outs m) c) = _
  rw [V11_eq]
theorem V13_eq (c : Dev nD) : Gen.V13 m (outs m) c = W13 m c := by
  show StableHlo.after hostOps4_1 (Gen.V12 m (outs m) c) = _
  rw [V12_eq]
theorem V14_eq (c : Dev nD) : Gen.V14 m (outs m) c = W14 m c := by
  show Function.update (Gen.V13 m (outs m) c) main_v115 (outs m 14 main_v115 c) = _
  rw [V13_eq, outs_14]; rfl
theorem V15_eq (c : Dev nD) : Gen.V15 m (outs m) c = W15 m c := by
  show StableHlo.after hostOps5 (Gen.V14 m (outs m) c) = _
  rw [V14_eq]
theorem V16_eq (c : Dev nD) : Gen.V16 m (outs m) c = W16 m c := by
  show StableHlo.after hostOps5_1 (Gen.V15 m (outs m) c) = _
  rw [V15_eq]
theorem V17_eq (c : Dev nD) : Gen.V17 m (outs m) c = W17 m c := by
  show Function.update (Gen.V16 m (outs m) c) main_v137 (outs m 17 main_v137 c) = _
  rw [V16_eq, outs_17]; rfl

/-- Every pipeline's proof data, each at its region's entry contents. -/
def pdats : (p : Fin 6) → (c : Dev nD) → Dat τ (Elt F) Unit ℕ (UR sig nD τ) ℕ (Pipeline.pin (pcfgs (F := F)) Gen.adm p) c
  | ⟨0, _⟩ => fun c => dat0 (fun c b => W1 m c b) c
  | ⟨1, _⟩ => fun c => dat1 (fun c b => W4 m c b) c
  | ⟨2, _⟩ => fun c => dat2 (fun c b => W7 m c b) c
  | ⟨3, _⟩ => fun c => dat3 (fun c b => W10 m c b) c
  | ⟨4, _⟩ => fun c => dat4 (fun c b => W13 m c b) c
  | ⟨5, _⟩ => fun c => dat5 (fun c b => W16 m c b) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core owing
    nothing. -/
abbrev R (c : Dev nD) : sProp 𝕄 := iprop((∃ r, prngReg c r) ∗ ∃ W, owes (c : Thread nD τ) (0 : CellTallies nD τ sig Unit) W)

end Cert.Kernel.Hand

end
-- ==== Proof.KnBody0.lean ====
import proofs.«147610_j32590211842242_1_alg».proof.Proof.KnData

/-!
# Region 0: the body's triple and the body obligation

The body of matrix product 0 loads its two input buffers whole, forms their product and stores it over the whole
result buffer. Run on whole staging buffers holding x0 and x1 it therefore leaves the inputs as they were and the
result buffer at out0_2 x0 x1. At every grid point the pipeline hands the body each input window's block (fetched
at that point or kept from an earlier one: the block index has not moved), so the body obligation holds with the
result buffer left at out0_2 of the two blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

set_option maxHeartbeats 1000000 in
/-- The body on whole staging buffers: inputs at x0 and x1, the result buffer at anything; it ends with the inputs
    unchanged and the result buffer at the product. -/
theorem sound_kernel0 (c : Dev nD) (E : Set ℕ) (i : grid0.Coords)
    (arg0 : Memref sig .tc .vmem S2048x256 .f32) (harg0 : arg0.IsWhole) (arg1 : Memref sig .tc .vmem S256x128 .f32) (harg1 : arg1.IsWhole)
    (arg2 : Memref sig .tc .vmem S2048x128 .f32) (harg2 : arg2.IsWhole)
    (x0 : Vec F S2048x256 .f32) (x1 : Vec F S256x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__dense_matmul_kernel i arg0 harg0 arg1 harg1 arg2 harg2) K := by
  simp only [cc0__dense_matmul_kernel_eq_skeleton]; unfold cc0__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KnReg0.lean ====
import proofs.«147610_j32590211842242_1_alg».proof.Proof.KnPdats
import proofs.«147610_j32590211842242_1_alg».proof.Proof.KnBody0

/-!
# Region 0 as an item of the program

Region 0 is entered with every buffer of the core at the contents W1 and left with them at W2: its result array
main_v27 at the fold of the write-backs, every other buffer as found (the two input arrays are only read). The
region's arrays are taken out of the core's buffers at entry and put back at exit; the generator register passes
through the pipeline's invariant untouched; nothing is owed to another core.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents at entry and at exit, read at the core's own references. -/
abbrev Uin0 : (c : Dev nD) → (b : Ref sig .tc) → Buf (Elt F) ((c : Thread nD τ).loc b) := fun c b => W1 m c b
abbrev Uout0 : (c : Dev nD) → (b : Ref sig .tc) → Buf (Elt F) ((c : Thread nD τ).loc b) := fun c b => W2 m c b

/-- At exit each of the region's arrays holds what the pipeline leaves: an input array its entry contents, the result
    array the fold of the write-backs. -/
theorem hF0 (c : Dev nD) (w : Fin cfg0.W) : (pdats m 0 c).arrAt w cfg0.N = Uout0 m c (Pipeline.arrRef spec0 w) := by
  match w with
  | ⟨0, _⟩ =>
    have hA : (pdats m 0 c).A 0 = Uin0 m c (Pipeline.arrRef spec0 0) := rfl
    refine (((pdats m 0 c).arrAt_in 0 rfl _).trans hA).trans ?_
    exact (Function.update_of_ne (StableHlo.devRef_ne_of_ne (show Pipeline.arrRef spec0 0 ≠ main_v27 by decide)) (o2 m c) (W1 m c)).symm
  | ⟨1, _⟩ =>
    have hA : (pdats m 0 c).A 1 = Uin0 m c (Pipeline.arrRef spec0 1) := rfl
    refine (((pdats m 0 c).arrAt_in 1 rfl _).trans hA).trans ?_
    exact (Function.update_of_ne (StableHlo.devRef_ne_of_ne (show Pipeline.arrRef spec0 1 ≠ main_v27 by decide)) (o2 m c) (W1 m c)).symm
  | ⟨2, _⟩ =>
    show o2 m c = Function.update (W1 m c) (Proc.devRef .tc main_v27) (o2 m c) (Proc.devRef .tc main_v27)
    exact (Function.update_self (Proc.devRef .tc main_v27) (o2 m c) (W1 m c)).symm

/-- Every buffer that is none of the region's arrays is as the region found it. -/
theorem hrest0 (c : Dev nD) : ∀ b, b ∉ Finset.univ.image (Pipeline.arrRef spec0) → Uout0 m c b = Uin0 m c b := fun b hb => by
  show Function.update (W1 m c) (Proc.devRef .tc main_v27) (o2 m c) (Proc.devRef .tc b) = W1 m c (Proc.devRef .tc b)
  have hne : b ≠ main_v27 := fun e => hb (Finset.mem_image.mpr ⟨2, Finset.mem_univ _, e.symm⟩)
  exact Function.update_of_ne (StableHlo.devRef_ne_of_ne hne) (o2 m c) (W1 m c)

set_option backward.isDefEq.respectTransparency.types false in
/-- Region 0 over the thread state "every unscoped buffer at the boundary's contents, the generator register at some
    state, nothing owed". -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Uin0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Uin0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Uin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Uin0 m c) (Uout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KnBody1.lean ====
import proofs.«147610_j32590211842242_1_alg».proof.Proof.KnData

/-!
# Region 1: the body's triple and the body obligation

The body of matrix product 1 loads its two input buffers whole, forms their product and stores it over the whole
result buffer. Run on whole staging buffers holding x0 and x1 it therefore leaves the inputs as they were and the
result buffer at out1_2 x0 x1. At every grid point the pipeline hands the body each input window's block (fetched
at that point or kept from an earlier one: the block index has not moved), so the body obligation holds with the
result buffer left at out1_2 of the two blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

set_option maxHeartbeats 1000000 in
/-- The body on whole staging buffers: inputs at x0 and x1, the result buffer at anything; it ends with the inputs
    unchanged and the result buffer at the product. -/
theorem sound_kernel1 (c : Dev nD) (E : Set ℕ) (i : grid1.Coords)
    (arg0 : Memref sig .tc .vmem S2048x128 .f32) (harg0 : arg0.IsWhole) (arg1 : Memref sig .tc .vmem S128x128 .f32) (harg1 : arg1.IsWhole)
    (arg2 : Memref sig .tc .vmem S2048x128 .f32) (harg2 : arg2.IsWhole)
    (x0 : Vec F S2048x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out1_2 x0 x1)) -∗ K ⟨⟩))
      ⊢ wp frame (wpE (defs₀ (F := F)) Variants.none c none) E (cc1__dense_matmul_kernel i arg0 harg0 arg1 harg1 arg2 harg2) K := by
  simp only [cc1__dense_matmul_kernel_eq_skeleton]; unfold cc1__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KnReg1.lean ====
import proofs.«147610_j32590211842242_1_alg».proof.Proof.KnPdats
import proofs.«147610_j32590211842242_1_alg».proof.Proof.KnBody1

/-!
# Region 1 as an item of the program

Region 1 is entered with every buffer of the core at the contents W4 and left with them at W5: its result array
main_v49 at the fold of the write-backs, every other buffer as found (the two input arrays are only read). The
region's arrays are taken out of the core's buffers at entry and put back at exit; the generator register passes
through the pipeline's invariant untouched; nothing is owed to another core.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents at entry and at exit, read at the core's own references. -/
abbrev Uin1 : (c : Dev nD) → (b : Ref sig .tc) → Buf (Elt F) ((c : Thread nD τ).loc b) := fun c b => W4 m c b
abbrev Uout1 : (c : Dev nD) → (b : Ref sig .tc) → Buf (Elt F) ((c : Thread nD τ).loc b) := fun c b => W5 m c b

/-- At exit each of the region's arrays holds what the pipeline leaves: an input array its entry contents, the result
    array the fold of the write-backs. -/
theorem hF1 (c : Dev nD) (w : Fin cfg1.W) : (pdats m 1 c).arrAt w cfg1.N = Uout1 m c (Pipeline.arrRef spec1 w) := by
  match w with
  | ⟨0, _⟩ =>
    have hA : (pdats m 1 c).A 0 = Uin1 m c (Pipeline.arrRef spec1 0) := rfl
    refine (((pdats m 1 c).arrAt_in 0 rfl _).trans hA).trans ?_
    exact (Function.update_of_ne (StableHlo.devRef_ne_of_ne (show Pipeline.arrRef spec1 0 ≠ main_v49 by decide)) (o5 m c) (W4 m c)).symm
  | ⟨1, _⟩ =>
    have hA : (pdats m 1 c).A 1 = Uin1 m c (Pipeline.arrRef spec1 1) := rfl
    refine (((pdats m 1 c).arrAt_in 1 rfl _).trans hA).trans ?_
    exact (Function.update_of_ne (StableHlo.devRef_ne_of_ne (show Pipeline.arrRef spec1 1 ≠ main_v49 by decide)) (o5 m c) (W4 m c)).symm
  | ⟨2, _⟩ =>
    show o5 m c = Function.update (W4 m c) (Proc.devRef .tc main_v49) (o5 m c) (Proc.devRef .tc main_v49)
    exact (Function.update_self (Proc.devRef .tc main_v49) (o5 m c) (W4 m c)).symm

/-- Every buffer that is none of the region's arrays is as the region found it. -/
theorem hrest1 (c : Dev nD) : ∀ b, b ∉ Finset.univ.image (Pipeline.arrRef spec1) → Uout1 m c b = Uin1 m c b := fun b hb => by
  show Function.update (W4 m c) (Proc.devRef .tc main_v49) (o5 m c) (Proc.devRef .tc b) = W4 m c (Proc.devRef .tc b)
  have hne : b ≠ main_v49 := fun e => hb (Finset.mem_image.mpr ⟨2, Finset.mem_univ _, e.symm⟩)
  exact Function.update_of_ne (StableHlo.devRef_ne_of_ne hne) (o5 m c) (W4 m c)

set_option backward.isDefEq.respectTransparency.types false in
/-- Region 1 over the thread state "every unscoped buffer at the boundary's contents, the generator register at some
    state, nothing owed". -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Uin1 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (Uin1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Uin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Uin1 m c) (Uout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KnBody2.lean ====
import proofs.«147610_j32590211842242_1_alg».proof.Proof.KnData

/-!
# Region 2: the body's triple and the body obligation

The body of matrix product 2 loads its two input buffers whole, forms their product and stores it over the whole
result buffer. Run on whole staging buffers holding x0 and x1 it therefore leaves the inputs as they were and the
result buffer at out2_2 x0 x1. At every grid point the pipeline hands the body each input window's block (fetched
at that point or kept from an earlier one: the block index has not moved), so the body obligation holds with the
result buffer left at out2_2 of the two blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

set_option maxHeartbeats 1000000 in
/-- The body on whole staging buffers: inputs at x0 and x1, the result buffer at anything; it ends with the inputs
    unchanged and the result buffer at the product. -/
theorem sound_kernel2 (c : Dev nD) (E : Set ℕ) (i : grid2.Coords)
    (arg0 : Memref sig .tc .vmem S2048x128 .f32) (harg0 : arg0.IsWhole) (arg1 : Memref sig .tc .vmem S128x128 .f32) (harg1 : arg1.IsWhole)
    (arg2 : Memref sig .tc .vmem S2048x128 .f32) (harg2 : arg2.IsWhole)
    (x0 : Vec F S2048x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__dense_matmul_kernel i arg0 harg0 arg1 harg1 arg2 harg2) K := by
  simp only [cc2__dense_matmul_kernel_eq_skeleton]; unfold cc2__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KnReg2.lean ====
import proofs.«147610_j32590211842242_1_alg».proof.Proof.KnPdats
import proofs.«147610_j32590211842242_1_alg».proof.Proof.KnBody2

/-!
# Region 2 as an item of the program

Region 2 is entered with every buffer of the core at the contents W7 and left with them at W8: its result array
main_v71 at the fold of the write-backs, every other buffer as found (the two input arrays are only read). The
region's arrays are taken out of the core's buffers at entry and put back at exit; the generator register passes
through the pipeline's invariant untouched; nothing is owed to another core.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents at entry and at exit, read at the core's own references. -/
abbrev Uin2 : (c : Dev nD) → (b : Ref sig .tc) → Buf (Elt F) ((c : Thread nD τ).loc b) := fun c b => W7 m c b
abbrev Uout2 : (c : Dev nD) → (b : Ref sig .tc) → Buf (Elt F) ((c : Thread nD τ).loc b) := fun c b => W8 m c b

/-- At exit each of the region's arrays holds what the pipeline leaves: an input array its entry contents, the result
    array the fold of the write-backs. -/
theorem hF2 (c : Dev nD) (w : Fin cfg2.W) : (pdats m 2 c).arrAt w cfg2.N = Uout2 m c (Pipeline.arrRef spec2 w) := by
  match w with
  | ⟨0, _⟩ =>
    have hA : (pdats m 2 c).A 0 = Uin2 m c (Pipeline.arrRef spec2 0) := rfl
    refine (((pdats m 2 c).arrAt_in 0 rfl _).trans hA).trans ?_
    exact (Function.update_of_ne (StableHlo.devRef_ne_of_ne (show Pipeline.arrRef spec2 0 ≠ main_v71 by decide)) (o8 m c) (W7 m c)).symm
  | ⟨1, _⟩ =>
    have hA : (pdats m 2 c).A 1 = Uin2 m c (Pipeline.arrRef spec2 1) := rfl
    refine (((pdats m 2 c).arrAt_in 1 rfl _).trans hA).trans ?_
    exact (Function.update_of_ne (StableHlo.devRef_ne_of_ne (show Pipeline.arrRef spec2 1 ≠ main_v71 by decide)) (o8 m c) (W7 m c)).symm
  | ⟨2, _⟩ =>
    show o8 m c = Function.update (W7 m c) (Proc.devRef .tc main_v71) (o8 m c) (Proc.devRef .tc main_v71)
    exact (Function.update_self (Proc.devRef .tc main_v71) (o8 m c) (W7 m c)).symm

/-- Every buffer that is none of the region's arrays is as the region found it. -/
theorem hrest2 (c : Dev nD) : ∀ b, b ∉ Finset.univ.image (Pipeline.arrRef spec2) → Uout2 m c b = Uin2 m c b := fun b hb => by
  show Function.update (W7 m c) (Proc.devRef .tc main_v71) (o8 m c) (Proc.devRef .tc b) = W7 m c (Proc.devRef .tc b)
  have hne : b ≠ main_v71 := fun e => hb (Finset.mem_image.mpr ⟨2, Finset.mem_univ _, e.symm⟩)
  exact Function.update_of_ne (StableHlo.devRef_ne_of_ne hne) (o8 m c) (W7 m c)

set_option backward.isDefEq.respectTransparency.types false in
/-- Region 2 over the thread state "every unscoped buffer at the boundary's contents, the generator register at some
    state, nothing owed". -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Uin2 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (Uin2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (Uin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Uin2 m c) (Uout2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KnBody3.lean ====
import proofs.«147610_j32590211842242_1_alg».proof.Proof.KnData

/-!
# Region 3: the body's triple and the body obligation

The body of matrix product 3 loads its two input buffers whole, forms their product and stores it over the whole
result buffer. Run on whole staging buffers holding x0 and x1 it therefore leaves the inputs as they were and the
result buffer at out3_2 x0 x1. At every grid point the pipeline hands the body each input window's block (fetched
at that point or kept from an earlier one: the block index has not moved), so the body obligation holds with the
result buffer left at out3_2 of the two blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

set_option maxHeartbeats 1000000 in
/-- The body on whole staging buffers: inputs at x0 and x1, the result buffer at anything; it ends with the inputs
    unchanged and the result buffer at the product. -/
theorem sound_kernel3 (c : Dev nD) (E : Set ℕ) (i : grid3.Coords)
    (arg0 : Memref sig .tc .vmem S2048x128 .f32) (harg0 : arg0.IsWhole) (arg1 : Memref sig .tc .vmem S128x256 .f32) (harg1 : arg1.IsWhole)
    (arg2 : Memref sig .tc .vmem S2048x256 .f32) (harg2 : arg2.IsWhole)
    (x0 : Vec F S2048x128 .f32) (x1 : Vec F S128x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out3_2 x0 x1)) -∗ K ⟨⟩))
      ⊢ wp frame (wpE (defs₀ (F := F)) Variants.none c none) E (cc3__dense_matmul_kernel i arg0 harg0 arg1 harg1 arg2 harg2) K := by
  simp only [cc3__dense_matmul_kernel_eq_skeleton]; unfold cc3__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the triple applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 3, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KnReg3.lean ====
import proofs.«147610_j32590211842242_1_alg».proof.Proof.KnPdats
import proofs.«147610_j32590211842242_1_alg».proof.Proof.KnBody3

/-!
# Region 3 as an item of the program

Region 3 is entered with every buffer of the core at the contents W10 and left with them at W11: its result array
main_v93 at the fold of the write-backs, every other buffer as found (the two input arrays are only read). The
region's arrays are taken out of the core's buffers at entry and put back at exit; the generator register passes
through the pipeline's invariant untouched; nothing is owed to another core.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents at entry and at exit, read at the core's own references. -/
abbrev Uin3 : (c : Dev nD) → (b : Ref sig .tc) → Buf (Elt F) ((c : Thread nD τ).loc b) := fun c b => W10 m c b
abbrev Uout3 : (c : Dev nD) → (b : Ref sig .tc) → Buf (Elt F) ((c : Thread nD τ).loc b) := fun c b => W11 m c b

/-- At exit each of the region's arrays holds what the pipeline leaves: an input array its entry contents, the result
    array the fold of the write-backs. -/
theorem hF3 (c : Dev nD) (w : Fin cfg3.W) : (pdats m 3 c).arrAt w cfg3.N = Uout3 m c (Pipeline.arrRef spec3 w) := by
  match w with
  | ⟨0, _⟩ =>
    have hA : (pdats m 3 c).A 0 = Uin3 m c (Pipeline.arrRef spec3 0) := rfl
    refine (((pdats m 3 c).arrAt_in 0 rfl _).trans hA).trans ?_
    exact (Function.update_of_ne (StableHlo.devRef_ne_of_ne (show Pipeline.arrRef spec3 0 ≠ main_v93 by decide)) (o11 m c) (W10 m c)).symm
  | ⟨1, _⟩ =>
    have hA : (pdats m 3 c).A 1 = Uin3 m c (Pipeline.arrRef spec3 1) := rfl
    refine (((pdats m 3 c).arrAt_in 1 rfl _).trans hA).trans ?_
    exact (Function.update_of_ne (StableHlo.devRef_ne_of_ne (show Pipeline.arrRef spec3 1 ≠ main_v93 by decide)) (o11 m c) (W10 m c)).symm
  | ⟨2, _⟩ =>
    show o11 m c = Function.update (W10 m c) (Proc.devRef .tc main_v93) (o11 m c) (Proc.devRef .tc main_v93)
    exact (Function.update_self (Proc.devRef .tc main_v93) (o11 m c) (W10 m c)).symm

/-- Every buffer that is none of the region's arrays is as the region found it. -/
theorem hrest3 (c : Dev nD) : ∀ b, b ∉ Finset.univ.image (Pipeline.arrRef spec3) → Uout3 m c b = Uin3 m c b := fun b hb => by
  show Function.update (W10 m c) (Proc.devRef .tc main_v93) (o11 m c) (Proc.devRef .tc b) = W10 m c (Proc.devRef .tc b)
  have hne : b ≠ main_v93 := fun e => hb (Finset.mem_image.mpr ⟨2, Finset.mem_univ _, e.symm⟩)
  exact Function.update_of_ne (StableHlo.devRef_ne_of_ne hne) (o11 m c) (W10 m c)

set_option backward.isDefEq.respectTransparency.types false in
/-- Region 3 over the thread state "every unscoped buffer at the boundary's contents, the generator register at some
    state, nothing owed". -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Uin3 m) c).loose
  hwaits := Pipeline.hwaits_of_owed_zero _ _ _ _ L lv 3 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec3 c (Uin3 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (Uin3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (Uin3 m c) (Uout3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KnBody4.lean ====
import proofs.«147610_j32590211842242_1_alg».proof.Proof.KnData

/-!
# Region 4: the body's triple and the body obligation

The body of matrix product 4 loads its two input buffers whole, forms their product and stores it over the whole
result buffer. Run on whole staging buffers holding x0 and x1 it therefore leaves the inputs as they were and the
result buffer at out4_2 x0 x1. At every grid point the pipeline hands the body each input window's block (fetched
at that point or kept from an earlier one: the block index has not moved), so the body obligation holds with the
result buffer left at out4_2 of the two blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

set_option maxHeartbeats 1000000 in
/-- The body on whole staging buffers: inputs at x0 and x1, the result buffer at anything; it ends with the inputs
    unchanged and the result buffer at the product. -/
theorem sound_kernel4 (c : Dev nD) (E : Set ℕ) (i : grid4.Coords)
    (arg0 : Memref sig .tc .vmem S2048x128 .f32) (harg0 : arg0.IsWhole) (arg1 : Memref sig .tc .vmem S128x128 .f32) (harg1 : arg1.IsWhole)
    (arg2 : Memref sig .tc .vmem S2048x128 .f32) (harg2 : arg2.IsWhole)
    (x0 : Vec F S2048x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out4_2 x0 x1)) -∗ K ⟨⟩))
      ⊢ wp frame (wpE (defs₀ (F := F)) Variants.none c none) E (cc4__dense_matmul_kernel i arg0 harg0 arg1 harg1 arg2 harg2) K := by
  simp only [cc4__dense_matmul_kernel_eq_skeleton]; unfold cc4__dense_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the triple applies; the invariant and what the
    core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 4, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KnReg4.lean ====
import proofs.«147610_j32590211842242_1_alg».proof.Proof.KnPdats
import proofs.«147610_j32590211842242_1_alg».proof.Proof.KnBody4

/-!
# Region 4 as an item of the program

Region 4 is entered with every buffer of the core at the contents W13 and left with them at W14: its result array
main_v115 at the fold of the write-backs, every other buffer as found (the two input arrays are only read). The
region's arrays are taken out of the core's buffers at entry and put back at exit; the generator register passes
through the pipeline's invariant untouched; nothing is owed to another core.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents at entry and at exit, read at the core's own references. -/
abbrev Uin4 : (c : Dev nD) → (b : Ref sig .tc) → Buf (Elt F) ((c : Thread nD τ).loc b) := fun c b => W13 m c b
abbrev Uout4 : (c : Dev nD) → (b : Ref sig .tc) → Buf (Elt F) ((c : Thread nD τ).loc b) := fun c b => W14 m c b

/-- At exit each of the region's arrays holds what the pipeline leaves: an input array its entry contents, the result
    array the fold of the write-backs. -/
theorem hF4 (c : Dev nD) (w : Fin cfg4.W) : (pdats m 4 c).arrAt w cfg4.N = Uout4 m c (Pipeline.arrRef spec4 w) := by
  match w with
  | ⟨0, _⟩ =>
    have hA : (pdats m 4 c).A 0 = Uin4 m c (Pipeline.arrRef spec4 0) := rfl
    refine (((pdats m 4 c).arrAt_in 0 rfl _).trans hA).trans ?_
    exact (Function.update_of_ne (StableHlo.devRef_ne_of_ne (show Pipeline.arrRef spec4 0 ≠ main_v115 by decide)) (o14 m c) (W13 m c)).symm
  | ⟨1, _⟩ =>
    have hA : (pdats m 4 c).A 1 = Uin4 m c (Pipeline.arrRef spec4 1) := rfl
    refine (((pdats m 4 c).arrAt_in 1 rfl _).trans hA).trans ?_
    exact (Function.update_of_ne (StableHlo.devRef_ne_of_ne (show Pipeline.arrRef spec4 1 ≠ main_v115 by decide)) (o14 m c) (W13 m c)).symm
  | ⟨2, _⟩ =>
    show o14 m c = Function.update (W13 m c) (Proc.devRef .tc main_v115) (o14 m c) (Proc.devRef .tc main_v115)
    exact (Function.update_self (Proc.devRef .tc main_v115) (o14 m c) (W13 m c)).symm

/-- Every buffer that is none of the region's arrays is as the region found it. -/
theorem hrest4 (c : Dev nD) : ∀ b, b ∉ Finset.univ.image (Pipeline.arrRef spec4) → Uout4 m c b = Uin4 m c b := fun b hb => by
  show Function.update (W13 m c) (Proc.devRef .tc main_v115) (o14 m c) (Proc.devRef .tc b) = W13 m c (Proc.devRef .tc b)
  have hne : b ≠ main_v115 := fun e => hb (Finset.mem_image.mpr ⟨2, Finset.mem_univ _, e.symm⟩)
  exact Function.update_of_ne (StableHlo.devRef_ne_of_ne hne) (o14 m c) (W13 m c)

set_option backward.isDefEq.respectTransparency.types false in
/-- Region 4 over the thread state "every unscoped buffer at the boundary's contents, the generator register at some
    state, nothing owed". -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Uin4 m) c).loose
  hwaits := Pipeline.hwaits_of_owed_zero _ _ _ _ L lv 4 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec4 c (Uin4 m c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (Uin4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (Uin4 m c) (Uout4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KnBody5.lean ====
import proofs.«147610_j32590211842242_1_alg».proof.Proof.KnData

/-!
# Region 5: the body's triple and the body obligation

The body of matrix product 5 loads its two input buffers whole, forms their product and stores it over the whole
result buffer. Run on whole staging buffers holding x0 and x1 it therefore leaves the inputs as they were and the
result buffer at out5_2 x0 x1. At every grid point the pipeline hands the body each input window's block (fetched
at that point or kept from an earlier one: the block index has not moved), so the body obligation holds with the
result buffer left at out5_2 of the two blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before5_0 (c : Dev nD) (t : Fin cfg5.N) (d) : (dat5 V c).before 0 t d = iblk5 V c 0 t :=
  ((dat5 V c).before_in_eq_fetched 0 rfl (fun _ => rfl) (fun _ _ _ => rfl)
      (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
      (fun t => by rw [after5_1]; unfold Dat.blockOf iblk5; rw [A_eq5]; try rfl) t d).trans
    (by unfold Dat.fetched Dat.blockOf iblk5; rw [A_eq5]; try rfl)

set_option maxHeartbeats 1000000 in
/-- The body on whole staging buffers: inputs at x0 and x1, the result buffer at anything; it ends with the inputs
    unchanged and the result buffer at the product. -/
theorem sound_kernel5 (c : Dev nD) (E : Set ℕ) (i : grid5.Coords)
    (arg0 : Memref sig .tc .vmem S2048x128 .f32) (harg0 : arg0.IsWhole) (arg1 : Memref sig .tc .vmem S2048x128 .f32) (harg1 : arg1.IsWhole)
    (arg2 : Memref sig .tc .vmem S2048x2048 .f32) (harg2 : arg2.IsWhole)
    (x0 : Vec F S2048x128 .f32) (x1 : Vec F S2048x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out5_2 x0 x1)) -∗ K ⟨⟩))
      ⊢ wp frame (wpE (defs₀ (F := F)) Variants.none c none) E (cc5__self_matmul_kernel i arg0 harg0 arg1 harg1 arg2 harg2) K := by
  simp only [cc5__self_matmul_kernel_eq_skeleton]; unfold cc5__self_matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their blocks, so the triple applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 5, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KnReg5.lean ====
import proofs.«147610_j32590211842242_1_alg».proof.Proof.KnPdats
import proofs.«147610_j32590211842242_1_alg».proof.Proof.KnBody5

/-!
# Region 5 as a segment of the program

Region 5 multiplies s by its own transpose: its two input windows (0 and 1) read one array, main_v136, and its
result window (2) writes main_v137. A core enters the region holding every unscoped buffer whole; the hold on
main_v136 is dealt between the two input windows, the left half of the full share to window 0 and the right half to
window 1, and main_v137 goes whole to window 2. Neither input is ever written, so at the exit both halves still
hold main_v136's entry contents and join back into the full hold; main_v137 holds the fold of the result window's
write-backs, and every other buffer was never touched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Split

variable (V : (c : Dev nD) → (b : Ref sig .tc) → Buf (Elt F) ((c : Thread nD τ).loc b))

/-- The three windows stand on two buffers. -/
theorem image_arrRef5 : (Finset.univ : Finset (Fin 3)).image (Pipeline.arrRef spec5) = {main_v136, main_v137} := by decide

/-- The buffers behind the windows' arrays, one by one. -/
theorem arrBufs5_eq (c : Dev nD) (Vc : (b : Ref sig .tc) → Buf (Elt F) ((c : Thread nD τ).loc b)) :
    (Pipeline.arrBufs (Ix := Unit) (Name := ℕ) (U := UR sig nD τ) (Lvl := ℕ) spec5 c Vc : sProp 𝕄)
      = iprop((((c : Thread nD τ).loc main_v136) ↦{fullShare} Vc main_v136) ∗ (((c : Thread nD τ).loc main_v137) ↦{fullShare} Vc main_v137)) := by
  unfold Pipeline.arrBufs
  rw [image_arrRef5, bigSep_insert (by decide), bigSep_singleton]
  rfl

/-- The shares the proof data hold the arrays at: the two halves of the full share for the inputs on main_v136,
    the full share for the result. -/
theorem share5_0 (c : Dev nD) : (dat5 V c).share 0 = fullShare.left := by
  unfold Dat.share; rw [if_neg (by decide)]; dsimp only [dat5]
theorem share5_1 (c : Dev nD) : (dat5 V c).share 1 = fullShare.right := by
  unfold Dat.share; rw [if_neg (by decide)]; dsimp only [dat5]
theorem share5_2 (c : Dev nD) : (dat5 V c).share 2 = fullShare := by
  unfold Dat.share; rw [if_pos (by decide)]

/-- The windows' arrays, one by one: each is a whole buffer. -/
theorem arrays5_eq (c : Dev nD) (Vc : (b : Ref sig .tc) → Buf (Elt F) ((c : Thread nD τ).loc b))
    (Fw : (w : Fin cfg5.W) → Buf (Elt F) ((cfg5.win w).arr.view.loc (c : Thread nD τ)))
    (h0 : Fw 0 = Vc main_v136) (h1 : Fw 1 = Vc main_v136) (h2 : Fw 2 = Vc main_v137) :
    (dat5 V c).arrays Fw
      = iprop((((c : Thread nD τ).loc main_v136) ↦{fullShare.left} Vc main_v136) ∗ (((c : Thread nD τ).loc main_v136) ↦{fullShare.right} Vc main_v136)
          ∗ (((c : Thread nD τ).loc main_v137) ↦{fullShare} Vc main_v137)) := by
  unfold Dat.arrays
  rw [bigSep_W5, h0, h1, h2, share5_0, share5_1, share5_2, (arr_whole5 0).set_eq_univ, (arr_whole5 2).set_eq_univ]

/-- ENTRY: the two buffers, each held whole, make the three windows' arrays at the same contents: the hold on
    main_v136 splits into its two halves. -/
theorem arrays_of_arrBufs5 (c : Dev nD) (Vc : (b : Ref sig .tc) → Buf (Elt F) ((c : Thread nD τ).loc b))
    (Fw : (w : Fin cfg5.W) → Buf (Elt F) ((cfg5.win w).arr.view.loc (c : Thread nD τ)))
    (h0 : Fw 0 = Vc main_v136) (h1 : Fw 1 = Vc main_v136) (h2 : Fw 2 = Vc main_v137) :
    (Pipeline.arrBufs (Ix := Unit) (Name := ℕ) (U := UR sig nD τ) (Lvl := ℕ) spec5 c Vc : sProp 𝕄) ⊢ (dat5 V c).arrays Fw := by
  rw [arrBufs5_eq, arrays5_eq V c Vc Fw h0 h1 h2]
  iintro ⟨H136, H137⟩
  ihave H := (pointsTo_share (PosShare.mem_left_op_right fullShare)).1 $$ H136
  icases H with ⟨Hl, Hr⟩
  isplitl [Hl]; · iexact Hl
  isplitl [Hr]; · iexact Hr
  iexact H137

/-- EXIT: the three windows' arrays, the two on main_v136 at one contents, make the two buffers held whole: the two
    halves of main_v136 join. -/
theorem arrBufs_of_arrays5 (c : Dev nD) (Vc : (b : Ref sig .tc) → Buf (Elt F) ((c : Thread nD τ).loc b))
    (Fw : (w : Fin cfg5.W) → Buf (Elt F) ((cfg5.win w).arr.view.loc (c : Thread nD τ)))
    (h0 : Fw 0 = Vc main_v136) (h1 : Fw 1 = Vc main_v136) (h2 : Fw 2 = Vc main_v137) :
    (dat5 V c).arrays Fw ⊢ (Pipeline.arrBufs (Ix := Unit) (Name := ℕ) (U := UR sig nD τ) (Lvl := ℕ) spec5 c Vc : sProp 𝕄) := by
  rw [arrBufs5_eq, arrays5_eq V c Vc Fw h0 h1 h2]
  iintro ⟨Hl, Hr, H137⟩
  isplitl [Hl Hr]
  · iapply (pointsTo_share (PosShare.mem_left_op_right fullShare)).2
    isplitl [Hl]; · iexact Hl
    iexact Hr
  iexact H137

/-- A core's unscoped buffers are the two buffers behind region 5's windows and the rest. -/
theorem unscopedBufs_split5 (c : Dev nD) (Vc : (b : Ref sig .tc) → Buf (Elt F) ((c : Thread nD τ).loc b)) :
    (unscopedBufs (Ix := Unit) (Name := ℕ) (U := UR sig nD τ) (Lvl := ℕ) c Vc : sProp 𝕄)
      = iprop(Pipeline.arrBufs spec5 c Vc ∗ Pipeline.unscopedRest spec5 c Vc) :=
  Pipeline.unscopedBufs_split₀ cfgs (5 : Fin 6) winFacts₀5.arr_unscoped c Vc

end Split

section Whole

-- what every buffer of a core holds when the region is entered, core by core
variable (Wv : Dev nD → Valuation τ sig (Elt F))

/-- ENTRY, whole: every unscoped buffer at the entry contents is the windows' arrays at the proof data's entry
    contents and the unscoped rest. -/
theorem entry5 (c : Dev nD) :
    (StableHlo.held (c : Thread nD τ) (Pipeline.ucRefs τ sig) (Wv c) : sProp 𝕄)
      ⊢ iprop((dat5 (fun c b => Wv c b) c).arrays ((dat5 (fun c b => Wv c b) c).arrAt · 0)
          ∗ Pipeline.unscopedRest (Ix := Unit) (Name := ℕ) (U := UR sig nD τ) (Lvl := ℕ) spec5 c (fun b => Wv c b)) := by
  rw [← Pipeline.unscopedBufs_held, unscopedBufs_split5]
  exact sep_mono (arrays_of_arrBufs5 _ c _ _ (A_eq5 _ c 0) (A_eq5 _ c 1) (A_eq5 _ c 2)) .rfl

/-- EXIT, whole: the windows' arrays at what the pipeline leaves and the unscoped rest as entered are every unscoped
    buffer at the entry contents updated at main_v137 by the fold of the result window's write-backs. -/
theorem exit5 (c : Dev nD) :
    iprop((dat5 (fun c b => Wv c b) c).arrays ((dat5 (fun c b => Wv c b) c).arrAt · cfg5.N)
        ∗ Pipeline.unscopedRest (Ix := Unit) (Name := ℕ) (U := UR sig nD τ) (Lvl := ℕ) spec5 c (fun b => Wv c b))
      ⊢ (StableHlo.held (c : Thread nD τ) (Pipeline.ucRefs τ sig)
          (Function.update (Wv c) main_v137 ((dat5 (fun c b => Wv c b) c).arrAt 2 cfg5.N)) : sProp 𝕄) := by
  rw [← Pipeline.unscopedBufs_held, unscopedBufs_split5]
  refine sep_mono (arrBufs_of_arrays5 _ c _ _ ?_ ?_ ?_) (Entails.of_eq ?_)
  · exact (((dat5 (fun c b => Wv c b) c).arrAt_in 0 rfl _).trans (A_eq5 _ c 0)).trans
      (Function.update_of_ne (StableHlo.devRef_ne_of_ne (by decide)) _ _).symm
  · exact (((dat5 (fun c b => Wv c b) c).arrAt_in 1 rfl _).trans (A_eq5 _ c 1)).trans
      (Function.update_of_ne (StableHlo.devRef_ne_of_ne (by decide)) _ _).symm
  · exact (Function.update_self (Proc.devRef .tc main_v137) ((dat5 (fun c b => Wv c b) c).arrAt 2 cfg5.N) (Wv c)).symm
  · unfold Pipeline.unscopedRest
    refine bigSep_congr fun b hb => ?_
    have hne : b ≠ main_v137 := fun e => (Finset.mem_sdiff.mp hb).2 (Finset.mem_image.mpr ⟨2, Finset.mem_univ _, e.symm⟩)
    show (((c : Thread nD τ).loc b) ↦{fullShare} Wv c (Proc.devRef .tc b))
      = (((c : Thread nD τ).loc b) ↦{fullShare}
          Function.update (Wv c) (Proc.devRef .tc main_v137) ((dat5 (fun c b => Wv c b) c).arrAt 2 cfg5.N) (Proc.devRef .tc b))
    rw [Function.update_of_ne (StableHlo.devRef_ne_of_ne hne) ((dat5 (fun c b => Wv c b) c).arrAt 2 cfg5.N) (Wv c)]

end Whole

variable (m : (ℓ : Loc nD τ sig) → Buf (Elt F) ℓ)

set_option backward.isDefEq.respectTransparency.types false in
/-- Region 5 over the thread state "every unscoped buffer at the boundary's contents, the generator register at some
    state, nothing owed": entered with the buffers at W16, left with them at W17 — main_v137 at the fold of the result
    window's write-backs, every other buffer as found. -/
def reg5 : Pipeline.RegionSeg (pcfgs (F := F)) Gen.adm (pdats m) () defs₀ 𝒱₀ L lv 5 where
  win := winFacts₀5
  block_pos := block_pos5
  stage_whole := stage_whole5
  K := PEmpty
  osem k := k.elim
  ho := Pipeline.OwnSemFacts.none _
  hbody c := (body_obligation5 (fun c b => W16 m c b) c).loose
  hwaits := Pipeline.hwaits_of_owed_zero _ _ _ _ L lv 5 fun _ _ => rfl
  pre c := iprop(StableHlo.held (c : Thread nD τ) (Pipeline.ucRefs τ sig) (W16 m c) ∗ R c)
  post c := iprop(StableHlo.held (c : Thread nD τ) (Pipeline.ucRefs τ sig) (W17 m c) ∗ R c)
  X c := iprop(∃ r, prngReg c r)
  Y c := iprop(∃ r, prngReg c r)
  Z c := Pipeline.unscopedRest (Ix := Unit) (Name := ℕ) (U := UR sig nD τ) (Lvl := ℕ) spec5 c (fun b => W16 m c b)
  hentry c := by
    rw [Pipeline.ownSems0_none]
    have hsplit : (StableHlo.held (c : Thread nD τ) (Pipeline.ucRefs τ sig) (W16 m c) : sProp 𝕄)
        ⊢ iprop((pdats m 5 c).arrays ((pdats m 5 c).arrAt · 0)
            ∗ Pipeline.unscopedRest (Ix := Unit) (Name := ℕ) (U := UR sig nD τ) (Lvl := ℕ) spec5 c (fun b => W16 m c b)) :=
      entry5 (W16 m) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin : iprop((pdats m 5 c).arrays ((pdats m 5 c).arrAt · cfg5.N)
          ∗ Pipeline.unscopedRest (Ix := Unit) (Name := ℕ) (U := UR sig nD τ) (Lvl := ℕ) spec5 c (fun b => W16 m c b))
        ⊢ (StableHlo.held (c : Thread nD τ) (Pipeline.ucRefs τ sig) (W17 m c) : sProp 𝕄) :=
      exit5 (W16 m) c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KnRun.lean ====
import proofs.«147610_j32590211842242_1_alg».proof.Proof.KnReg0
import proofs.«147610_j32590211842242_1_alg».proof.Proof.KnReg1
import proofs.«147610_j32590211842242_1_alg».proof.Proof.KnReg2
import proofs.«147610_j32590211842242_1_alg».proof.Proof.KnReg3
import proofs.«147610_j32590211842242_1_alg».proof.Proof.KnReg4
import proofs.«147610_j32590211842242_1_alg».proof.Proof.KnReg5

/-!
# The run of the whole program

The program is seventeen items in order: a stretch of host operations, then five times (a matrix product, a stretch of
host operations, the relu), then the last matrix product. Each item is entered from the thread state "every unscoped
buffer of the core at the boundary's contents, the generator register at some state, nothing owed" and leaves the next
boundary's. So every weakly fair execution terminates, and in the final memory every unscoped buffer of every core
holds the last boundary's contents W17: the arguments as launched, and each result at the value the chain computes.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What rides beside the buffers is the same at every boundary. -/
abbrev Erest : Fin 7 → Dev nD → sProp 𝕄 := fun _ c => R c

/-- Two valuations that are equal hold the same buffers. -/
theorem held_of_eq (c : Dev nD) {V V' : Valuation τ sig (Elt F)} (h : V = V') :
    (iprop(StableHlo.held (c : Thread nD τ) (Pipeline.ucRefs τ sig) V ∗ R c) : sProp 𝕄)
      ⊢ iprop(StableHlo.held (c : Thread nD τ) (Pipeline.ucRefs τ sig) V' ∗ R c) := by
  subst h; exact .rfl

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option maxRecDepth 400000 in
set_option backward.isDefEq.respectTransparency.types false in
/-- Given region 5's record over the same thread states, the program runs to the end and every unscoped buffer ends at
    the last boundary's contents. -/
theorem run_all
    (R5 : RegionSeg (pcfgs (F := F)) Gen.adm (pdats m) () defs₀ 𝒱₀ L lv 5)
    (hpre5 : ∀ c : Dev nD, (iprop(StableHlo.held (c : Thread nD τ) (Pipeline.ucRefs τ sig) (W16 m c) ∗ R c) : sProp 𝕄) ⊢ R5.pre c)
    (hpost5 : ∀ c : Dev nD, R5.post c ⊢ (iprop(StableHlo.held (c : Thread nD τ) (Pipeline.ucRefs τ sig) (W17 m c) ∗ R c) : sProp 𝕄)) :
    θ_run defs (onTc (τ := τ) (main (F := F))) ⟨m, fun _ => 0, ρ⟩
      (fun r => ∀ c : Dev nD, ∀ b ∈ Pipeline.ucRefs τ sig, r.2.mem ((c : Thread nD τ).1, b) = W17 m c b) := by
  refine Pipeline.θ_run_regions_kit_dev (pcfgs (F := F)) Gen.adm (pdats m) () cellOf_inj emb₁ defs₀ 𝒱₀ L lv m ρ main
    (Gen.segs m (outs m) 𝒱₀ L lv (Erest) () (pdats m) (reg0 m) (reg1 m) (reg2 m) (reg3 m) (reg4 m) R5)
    (fun c Q => ?hmain) (fun c => ?hnd) (O₀ := 0) (hL := fun _ _ => rfl) (G := fun _ => (BI.emp : sProp 𝕄))
    (u₀ := initOf (Pipeline.cells (Pipeline.pin (pcfgs (F := F)) Gen.adm) cellOf_inj) (Pipeline.launchToks (Pipeline.pin (pcfgs (F := F)) Gen.adm) cellOf_inj)) (hu₀ := ?hu)
    (T₀ := fun c => iprop(StableHlo.held (c : Thread nD τ) (Pipeline.ucRefs τ sig) (W0 m c) ∗ R c))
    (Tₙ := fun c => iprop(StableHlo.held (c : Thread nD τ) (Pipeline.ucRefs τ sig) (W17 m c) ∗ ∃ r, prngReg c r))
    (hch := fun c => ?hch) (hinit := ?hinit)
    (QY := fun c s => ∀ b ∈ Pipeline.ucRefs τ sig, s.mem ((c : Thread nD τ).1, b) = W17 m c b)
    (hfin := fun c s' => ?hfin) (hQ := fun _ h => h)
  case hmain =>
    -- the program is the chain of the items' fragments, and so is the run of the segment list
    rw [Gen.main_chain c, Seg.run_eq_chain]
    exact .rfl
  case hnd =>
    simp only [Gen.segs, Seg.pipes_host, Seg.pipes_region, Seg.pipes_nil]; decide
  case hu =>
    rw [ownU_emb₁, BI.bigSep_emp_const]
    iintro Hu; imodintro
    isplitl [Hu]
    · iexact Hu
    · iempintro
  case hch =>
    refine ⟨.rfl, .rfl,
      held_of_eq c (V2_eq m c).symm, .rfl, held_of_eq c (V4_eq m c),
      held_of_eq c (V5_eq m c).symm, .rfl, held_of_eq c (V7_eq m c),
      held_of_eq c (V8_eq m c).symm, .rfl, held_of_eq c (V10_eq m c),
      held_of_eq c (V11_eq m c).symm, .rfl, held_of_eq c (V13_eq m c),
      held_of_eq c (V14_eq m c).symm, .rfl, (held_of_eq c (V16_eq m c)).trans (hpre5 c), ?_⟩
    refine (hpost5 c).trans ?_
    iintro ⟨Hh, Hp, HO⟩
    isplitl [Hh Hp]
    · isplitl [Hh] <;> iassumption
    · iexact HO
  case hinit =>
    refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  case hfin =>
    unfold StableHlo.held
    iintro ⟨⟨Hh, -⟩, HSI⟩
    imodintro
    iapply (pointsTo_read_all (Pipeline.ucRefs τ sig) (fun b => (((c : Thread nD τ)).1, b)) (W17 m c) s')
    isplitl [Hh] <;> iassumption

/-- The program runs to the end and every unscoped buffer ends at the last boundary's contents. -/
theorem run : θ_run defs (onTc (τ := τ) (main (F := F))) ⟨m, fun _ => 0, ρ⟩
    (fun r => ∀ c : Dev nD, ∀ b ∈ Pipeline.ucRefs τ sig, r.2.mem ((c : Thread nD τ).1, b) = W17 m c b) :=
  run_all m ρ (reg5 m) (fun _ => .rfl) (fun _ => .rfl)

end Cert.Kernel.Hand

end
-- ==== Proof.KnFinal.lean ====
import proofs.«147610_j32590211842242_1_alg».proof.Proof.KnRun

/-!
# What the run leaves: the two results and the arguments

Every unscoped buffer ends at the last boundary's contents. Read at the two result buffers this names the results;
read at an argument it is the launch contents, since no item of the program writes an argument.
-/

set_option maxRecDepth 16384

noncomputable section

namespace Cert.Kernel.Hand

open Cert.Kernel Cert.Kernel.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

theorem W17_arg0 (c : Dev nD) : W17 m c main_arg0 = m ((c.tc : Thread nD τ).loc main_arg0) :=
  (congrFun (V17_eq m c) _).symm.trans (Gen.V17_main_arg0 m (outs m) c)
theorem W17_arg1 (c : Dev nD) : W17 m c main_arg1 = m ((c.tc : Thread nD τ).loc main_arg1) :=
  (congrFun (V17_eq m c) _).symm.trans (Gen.V17_main_arg1 m (outs m) c)
theorem W17_arg2 (c : Dev nD) : W17 m c main_arg2 = m ((c.tc : Thread nD τ).loc main_arg2) :=
  (congrFun (V17_eq m c) _).symm.trans (Gen.V17_main_arg2 m (outs m) c)
theorem W17_arg3 (c : Dev nD) : W17 m c main_arg3 = m ((c.tc : Thread nD τ).loc main_arg3) :=
  (congrFun (V17_eq m c) _).symm.trans (Gen.V17_main_arg3 m (outs m) c)
theorem W17_arg4 (c : Dev nD) : W17 m c main_arg4 = m ((c.tc : Thread nD τ).loc main_arg4) :=
  (congrFun (V17_eq m c) _).symm.trans (Gen.V17_main_arg4 m (outs m) c)
theorem W17_arg5 (c : Dev nD) : W17 m c main_arg5 = m ((c.tc : Thread nD τ).loc main_arg5) :=
  (congrFun (V17_eq m c) _).symm.trans (Gen.V17_main_arg5 m (outs m) c)
theorem W17_arg6 (c : Dev nD) : W17 m c main_arg6 = m ((c.tc : Thread nD τ).loc main_arg6) :=
  (congrFun (V17_eq m c) _).symm.trans (Gen.V17_main_arg6 m (outs m) c)
theorem W17_arg7 (c : Dev nD) : W17 m c main_arg7 = m ((c.tc : Thread nD τ).loc main_arg7) :=
  (congrFun (V17_eq m c) _).symm.trans (Gen.V17_main_arg7 m (outs m) c)
theorem W17_arg8 (c : Dev nD) : W17 m c main_arg8 = m ((c.tc : Thread nD τ).loc main_arg8) :=
  (congrFun (V17_eq m c) _).symm.trans (Gen.V17_main_arg8 m (outs m) c)
theorem W17_arg9 (c : Dev nD) : W17 m c main_arg9 = m ((c.tc : Thread nD τ).loc main_arg9) :=
  (congrFun (V17_eq m c) _).symm.trans (Gen.V17_main_arg9 m (outs m) c)
theorem W17_arg10 (c : Dev nD) : W17 m c main_arg10 = m ((c.tc : Thread nD τ).loc main_arg10) :=
  (congrFun (V17_eq m c) _).symm.trans (Gen.V17_main_arg10 m (outs m) c)
theorem W17_arg11 (c : Dev nD) : W17 m c main_arg11 = m ((c.tc : Thread nD τ).loc main_arg11) :=
  (congrFun (V17_eq m c) _).symm.trans (Gen.V17_main_arg11 m (outs m) c)

/-- The run with its post read at the results and the arguments. -/
theorem run_results : θ_run defs (onTc (τ := τ) (main (F := F))) ⟨m, fun _ => 0, ρ⟩ (fun r => ∀ c : Dev nD,
      r.2.mem ((c.tc : Thread nD τ).loc main_v137) = W17 m c main_v137
      ∧ r.2.mem ((c.tc : Thread nD τ).loc main_v114) = W17 m c main_v114
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v137 (by decide)), h c _ (mem_uc main_v114 (by decide)),
     (h c _ (mem_uc main_arg0 (by decide))).trans (W17_arg0 m c),
     (h c _ (mem_uc main_arg1 (by decide))).trans (W17_arg1 m c),
     (h c _ (mem_uc main_arg2 (by decide))).trans (W17_arg2 m c),
     (h c _ (mem_uc main_arg3 (by decide))).trans (W17_arg3 m c),
     (h c _ (mem_uc main_arg4 (by decide))).trans (W17_arg4 m c),
     (h c _ (mem_uc main_arg5 (by decide))).trans (W17_arg5 m c),
     (h c _ (mem_uc main_arg6 (by decide))).trans (W17_arg6 m c),
     (h c _ (mem_uc main_arg7 (by decide))).trans (W17_arg7 m c),
     (h c _ (mem_uc main_arg8 (by decide))).trans (W17_arg8 m c),
     (h c _ (mem_uc main_arg9 (by decide))).trans (W17_arg9 m c),
     (h c _ (mem_uc main_arg10 (by decide))).trans (W17_arg10 m c),
     (h c _ (mem_uc main_arg11 (by decide))).trans (W17_arg11 m c)⟩)
    (run m ρ)

/-- The frame: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2.2) (run_results m ρ)

end Cert.Kernel.Hand

end
-- ==== Proof.lean ====
/-
  The claim: a graph-convolution autoencoder written with six Pallas matrix-product kernels against the same network in
  plain jnp.

  Both programs compute, from node features x and an edge list, the symmetric normalisation of the graph with
  self-loops, then five graph-convolution layers (project the features by a weight matrix; gather the projection at
  each edge's source, scale it by the edge's weight and sum it at the edge's destination; add the projection scaled by
  the node's self-loop weight and the bias; take the positive part), and finally the product of the last layer's output
  s with its own transpose. The kernel program differs from the reference only in HOW the six matrix products are
  computed: each is a tiled kernel that rounds its operands to bf16 and multiplies block by block, where the reference
  has one whole product.

  At the ideal floats a change of float format is the identity and a product into a zero accumulator is the exact sum
  over the contracted coordinate, so each tiled product IS the whole product, entry by entry, and everything between the
  products is the same sequence of host operations on both sides. No algebraic law is needed beyond this, and in
  particular none that would need the inputs to be finite: the precondition is never opened.

  The three frames: each kernel program runs as seventeen items (host stretches and the six regions) chained through
  the contents of the core's buffers at each boundary; no item writes an argument. The reference is host operations only.
  The idealization rewrote nothing, so the kernel's idealization is its own text read at the ideal floats.
-/
import proofs.«147610_j32590211842242_1_alg».proof.Defs
import proofs.«147610_j32590211842242_1_alg».proof.Proof.Gen.Kernel
import proofs.«147610_j32590211842242_1_alg».proof.Proof.Gen.KernelIdeal
import proofs.«147610_j32590211842242_1_alg».proof.Proof.Gen.ReferenceIdeal
import proofs.«147610_j32590211842242_1_alg».proof.Proof.Gen.ReferenceIdeal.Read
import proofs.«147610_j32590211842242_1_alg».proof.Proof.Gen.Pre_finite_inputs
import proofs.«147610_j32590211842242_1_alg».proof.Proof.KiChain
import proofs.«147610_j32590211842242_1_alg».proof.Proof.KiFinal
import proofs.«147610_j32590211842242_1_alg».proof.Proof.KnFinal
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Hand.frame m ρ

/-- So does its reading at the ideal floats. -/
theorem frame_ki : Cert.frame_KernelIdeal := fun m ρ _ => Cert.KernelIdeal.Hand.frame m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the arguments both programs end with the same two results: the kernel program's last
    boundary holds, at its two result buffers, the reference's stage functions of the arguments. -/
theorem algebraic : Cert.algebraic_KernelIdeal_ReferenceIdeal := by
  intro m ρ m' ρ' _ hagree
  refine ⟨fun c => Cert.KernelIdeal.Hand.W17 m c (Proc.devRef .tc Cert.KernelIdeal.main_v137),
    fun c => Cert.KernelIdeal.Hand.W17 m c (Proc.devRef .tc Cert.KernelIdeal.main_v114),
    Cert.KernelIdeal.Hand.run_results m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11⟩ := hagree c
    refine (Cert.ReferenceIdeal.Read.val_main_v138_eq m' c).trans ?_
    rw [h0, h1, h2, h3, h4, h5, h10, h11]
    exact (Cert.KernelIdeal.Hand.out0 m c).symm
  · obtain ⟨h0, h1, h2, h3, h4, h5, h6, h7, h8, h9, h10, h11⟩ := hagree c
    refine (Cert.ReferenceIdeal.Read.val_main_v114_eq m' c).trans ?_
    rw [h0, h1, h2, h3, h4, h5, h6, h7, h8, h9]
    exact (Cert.KernelIdeal.Hand.out1 m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
